-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel

variable [Facts]

def fn {F : FTy → Type} [FloatOps F] (main_arg0 : FVec F S8x4096x128 .f32) (main_arg1 : FVec F S8x4096x128 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S8x4096x128 .f32 := Host.absf main_arg1
  let main_cst_0 : FVec F S_ .f32 := constant S_ .f32 0x7F800000#32
  let main_v5 : FVec F S8x4096x128 .f32 := broadcastInDim S8x4096x128 ![] bcast_S_S8x4096x128 main_cst_0
  let main_v6 : IVec S8x4096x128 1 := cmpf .olt main_v4 main_v5
  let main_c_1 : IVec S_ 1 := constantI S_ 1 1#1
  let main_v7 : IVec S_ 1 := (fun x v => Host.reduce IntOp.andi x v reducesTo_S8x4096x128_S_d0_1_2 h_S_) main_v6 main_c_1
  let main_v8 : IVec S_ 1 := andi main_v3 main_v7
  main_v8
-- ==== Kernel.lean ====
abbrev S8x4096x128 : Shape := ⟨3, ![8, 4096, 128]⟩
abbrev S8x8x128 : Shape := ⟨3, ![8, 8, 128]⟩
abbrev S1x2048x128 : Shape := ⟨3, ![1, 2048, 128]⟩
abbrev S1x1024x128 : Shape := ⟨3, ![1, 1024, 128]⟩
abbrev S1x8x128 : Shape := ⟨3, ![1, 8, 128]⟩
abbrev S2048x1 : Shape := ⟨2, ![2048, 1]⟩
abbrev S1x4096 : Shape := ⟨2, ![1, 4096]⟩
abbrev S2048x128 : Shape := ⟨2, ![2048, 128]⟩
abbrev S8x128 : Shape := ⟨2, ![8, 128]⟩
abbrev S2048 : Shape := ⟨1, ![2048]⟩
abbrev S1024x128 : Shape := ⟨2, ![1024, 128]⟩
abbrev S1024 : Shape := ⟨1, ![1024]⟩
abbrev S1024x1 : Shape := ⟨2, ![1024, 1]⟩
abbrev S1x1024 : Shape := ⟨2, ![1, 1024]⟩
abbrev S128x1024 : Shape := ⟨2, ![128, 1024]⟩
abbrev S2048x1024 : Shape := ⟨2, ![2048, 1024]⟩
abbrev S1 : Shape := ⟨1, ![1]⟩
abbrev S1x1 : Shape := ⟨2, ![1, 1]⟩
abbrev S8x1x1 : Shape := ⟨3, ![8, 1, 1]⟩
abbrev S8 : Shape := ⟨1, ![8]⟩
abbrev S_ : Shape := ⟨0, ![]⟩

abbrev nBuf : Space → Nat
  | .hbm => 9
  | .vmem => 10
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x8x128, .f32⟩
  | .hbm, ⟨3, _⟩ => ⟨S8x1x1, .f32⟩
  | .hbm, ⟨4, _⟩ => ⟨S8, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x2048x128, .f32⟩
  | .local _ .vmem, ⟨1, _⟩ => ⟨S1x2048x128, .f32⟩
  | .local _ .vmem, ⟨2, _⟩ => ⟨S1x1024x128, .f32⟩
  | .local _ .vmem, ⟨3, _⟩ => ⟨S1x1024x128, .f32⟩
  | .local _ .vmem, ⟨4, _⟩ => ⟨S1x8x128, .f32⟩
  | .local _ .vmem, ⟨5, _⟩ => ⟨S1x8x128, .f32⟩
  | .local _ .vmem, ⟨6, _⟩ => ⟨S2048x1, .f32⟩
  | .local _ .vmem, ⟨7, _⟩ => ⟨S1x4096, .f32⟩
  | .local _ .vmem, ⟨8, _⟩ => ⟨S2048x128, .bf16⟩
  | .local _ .vmem, ⟨9, _⟩ => ⟨S2048x1, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_mult1 (i : grid0.Coords) : BitVec 32 :=
  let arg2 : BitVec 32 := BitVec.ofNat 32 (i 2).val
  let c1024_i32 : BitVec 32 := 1024#32
  let v38 : BitVec 32 := Scalar.muli arg2 c1024_i32
  v38
def k0_cond6 (i : grid0.Coords) : BitVec 1 :=
  let arg1 : BitVec 32 := BitVec.ofNat 32 (i 1).val
  let c0_i32_19 : BitVec 32 := 0#32
  let v40 : BitVec 1 := Scalar.cmpi .eq arg1 c0_i32_19
  let v41 : BitVec 32 := Scalar.extui v40
  let c0_i32_20 : BitVec 32 := 0#32
  let v42 : BitVec 1 := Scalar.cmpi .ne v41 c0_i32_20
  v42

def k0_off1 (i : grid0.Coords) : Fin 2 → Nat :=
  let c0_24 : Index := 0#32
  let arg2 : BitVec 32 := BitVec.ofNat 32 (i 2).val
  let c1024_i32 : BitVec 32 := 1024#32
  let v38 : BitVec 32 := Scalar.muli arg2 c1024_i32
  let v39 : BitVec 32 := v38
  let v49 : Index := Scalar.indexCast v39
  ![0, v49.toNat]
def k0_cond7 (i : grid0.Coords) : BitVec 1 :=
  let arg1 : BitVec 32 := BitVec.ofNat 32 (i 1).val
  let c0_i32_21 : BitVec 32 := 0#32
  let v43 : BitVec 1 := Scalar.cmpi .sgt arg1 c0_i32_21
  let v44 : BitVec 32 := Scalar.extui v43
  let c0_i32_22 : BitVec 32 := 0#32
  let v45 : BitVec 1 := Scalar.cmpi .ne v44 c0_i32_22
  v45

def k0_off2 (i : grid0.Coords) : Fin 2 → Nat :=
  let c0_24 : Index := 0#32
  let arg2 : BitVec 32 := BitVec.ofNat 32 (i 2).val
  let c1024_i32 : BitVec 32 := 1024#32
  let v38 : BitVec 32 := Scalar.muli arg2 c1024_i32
  let v39 : BitVec 32 := v38
  let v49 : Index := Scalar.indexCast v39
  ![0, v49.toNat]
def k0_cond8 (i : grid0.Coords) : BitVec 1 :=
  let arg1 : BitVec 32 := BitVec.ofNat 32 (i 1).val
  let c1_i32 : BitVec 32 := 1#32
  let v46 : BitVec 1 := Scalar.cmpi .eq arg1 c1_i32
  let v47 : BitVec 32 := Scalar.extui v46
  let c0_i32_23 : BitVec 32 := 0#32
  let v48 : BitVec 1 := Scalar.cmpi .ne v47 c0_i32_23
  v48

def k0_off3 (i : grid0.Coords) : Fin 2 → Nat :=
  let c0_24 : Index := 0#32
  let arg2 : BitVec 32 := BitVec.ofNat 32 (i 2).val
  let c1024_i32 : BitVec 32 := 1024#32
  let v38 : BitVec 32 := Scalar.muli arg2 c1024_i32
  let v39 : BitVec 32 := v38
  let v49 : Index := Scalar.indexCast v39
  ![0, v49.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond5 (i : grid0.Coords) : BitVec 1 :=
  let arg2 : BitVec 32 := BitVec.ofNat 32 (i 2).val
  let c3_i32 : BitVec 32 := 3#32
  let v35 : BitVec 1 := Scalar.cmpi .eq arg2 c3_i32
  let v36 : BitVec 32 := Scalar.extui v35
  let c0_i32_18 : BitVec 32 := 0#32
  let v37 : BitVec 1 := Scalar.cmpi .ne v36 c0_i32_18
  v37

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  reduces_S2048x128_S2048 : S2048x128.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  reduces_S1024x128_S1024 : S1024x128.Reduces [1] S1024
  shapeCasts_S1024_S1024x1 : S1024.ShapeCasts S1024x1
  transposes_S1024x1_p1_0_S1x1024 : S1024x1.Transposes [1, 0] S1x1024
  transposes_S1024x128_p1_0_S128x1024 : S1024x128.Transposes [1, 0] S128x1024
  broadcasts_S2048x1_S2048x1024 : S2048x1.Broadcasts S2048x1024
  broadcasts_S1x1024_S2048x1024 : S1x1024.Broadcasts S2048x1024
  reduces_S2048x1024_S2048 : S2048x1024.Reduces [1] S2048
  reduces_S2048x1024_S1024 : S2048x1024.Reduces [0] S1024
  shapeCasts_S1024_S1x1024 : S1024.ShapeCasts S1x1024
  reduces_S2048x1_S1 : S2048x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  h_S1x1024 : 0 < S1x1024.numel
  shapeCasts_S1x1024_S1x1024 : S1x1024.ShapeCasts S1x1024
  reduces_S1x1024_S1 : S1x1024.Reduces [1] S1
  slices_S8x8x128_S8x1x1_0_0_0 : S8x8x128.Slices ![0, 0, 0] S8x1x1
  shapeCasts_S8x1x1_S8 : S8x1x1.ShapeCasts S8
  reducesTo_S8_S_d0 : S8.ReducesTo [0] S_
  h_S_ : 0 < S_.numel
  dot_S2048x128_S128x1024_S2048x1024_1_0_0_1_n_n_wf : DotDims.WF S2048x128 S128x1024 S2048x1024 [1] [0] [0] [1] [] []
  hrank0 : 0 < grid0.rank
  k0_mult1_dvd : ∀ i : grid0.Coords, 1024 ∣ (k0_mult1 i).toNat
  k0_off1_inb : ∀ i : grid0.Coords, ∀ (k0_h6 : k0_cond6 i = 1#1), ∀ a, (k0_off1 i) a + S1x1024.size a ≤ S1x4096.size a
  k0_off2_inb : ∀ i : grid0.Coords, ∀ (k0_h7 : k0_cond7 i = 1#1), ∀ a, (k0_off2 i) a + S1x1024.size a ≤ S1x4096.size a
  k0_off3_inb : ∀ i : grid0.Coords, ∀ (k0_h8 : k0_cond8 i = 1#1), ∀ a, (k0_off3 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S8x4096x128.size a
  hwx0_0 : ∀ i : grid0.Coords, EltTy.bits .f32 = 32 ∨ (Rect.block (s := S8x4096x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S8x4096x128.size a
  hwx0_1 : ∀ i : grid0.Coords, EltTy.bits .f32 = 32 ∨ (Rect.block (s := S8x4096x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S8x8x128.size a
  hwx0_2 : ∀ i : grid0.Coords, EltTy.bits .f32 = 32 ∨ (Rect.block (s := S8x8x128) S1x8x128.size (cc0_transform_2 i) (hinb0_2 i)).WholeWords (EltTy.packing .f32)

variable [Facts₀]

def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond5 i == 1#1) && !(k0_cond8 i == 1#1) | ⟨_ + 3, h⟩ => absurd h (Nat.not_lt.2 (Nat.le_add_left _ _))

class Facts : Prop extends Facts₀ where

variable [Facts]
-- ==== ReferenceIdeal.lean ====
abbrev S8x4096x128 : Shape := ⟨3, ![8, 4096, 128]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S8x4096x4096 : Shape := ⟨3, ![8, 4096, 4096]⟩
abbrev S8 : Shape := ⟨1, ![8]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096x128, .f32⟩
  | .hbm, ⟨3, _⟩ => ⟨S_, .f32⟩
  | .hbm, ⟨4, _⟩ => ⟨S8x4096, .f32⟩
  | .hbm, ⟨5, _⟩ => ⟨S8x4096x1, .f32⟩
  | .hbm, ⟨6, _⟩ => ⟨S8x4096x128, .f32⟩
  | .hbm, ⟨7, _⟩ => ⟨S_, .f32⟩
  | .hbm, ⟨8, _⟩ => ⟨S8x4096, .f32⟩
  | .hbm, ⟨9, _⟩ => ⟨S8x1x4096, .f32⟩
  | .hbm, ⟨10, _⟩ => ⟨S8x4096x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  reducesTo_S8x4096x128_S8x4096_d2 : S8x4096x128.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096_S8_d1 : S8x4096.ReducesTo [1] S8
  bcast_S_S8 : S_.BroadcastsInDim S8 (![] : Fin 0 → Fin S8.rank)
  reducesTo_S8x4096x4096_S8x4096_d2 : S8x4096x4096.ReducesTo [2] S8x4096
  reducesTo_S8_S_d0 : S8.ReducesTo [0] S_
  dot_S8x4096x128_S8x4096x128_S8x4096x4096_2_2_1_1_0_0_wf : DotDims.WF S8x4096x128 S8x4096x128 S8x4096x4096 [2] [2] [1] [1] [0] [0]

variable [Facts₀]

def dot_S8x4096x128_S8x4096x128_S8x4096x4096_2_2_1_1_0_0 : DotDims S8x4096x128 S8x4096x128 S8x4096x4096 where
  lhsContracting := [2]
  rhsContracting := [2]
  lhsNonContracting := [1]
  rhsNonContracting := [1]
  lhsBatch := [0]
  rhsBatch := [0]
  wf := dot_S8x4096x128_S8x4096x128_S8x4096x4096_2_2_1_1_0_0_wf

class Facts : Prop extends Facts₀ where

variable [Facts]
-- ==== Proof.KBConds.lean ====
/-
  The grid of the one region is 8 × 2 × 4: a batch `b`, a tile `i` of 2048 points of the first cloud, a tile `j` of
  1024 points of the second. The body branches eight times on `i` and `j` alone. This module names those eight
  conditions as the body computes them from the coordinates, and the memory the body is handed: the three windows'
  staging buffers at a point and the four buffers the kernel keeps between points (the running row minima of a tile
  of the first cloud, the running column minima of the whole second cloud, the first cloud's tile narrowed, and its
  squared norms).
-/
import proofs.«155424_j67413806678291_2_alg».proof.Proof.Gen.Kernel.Frame
import proofs.«155424_j67413806678291_2_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, from the grid coordinates -/

/-- First point of a batch: `i = 0` and `j = 0` (the output block is reset). -/
abbrev cFirst (i : grid0.Coords) : Prop := k0_cond1 i = 1#1
/-- `j = 0`: the first cloud's tile is narrowed and its squared norms taken, and the running row minima start. -/
abbrev cJ0 (i : grid0.Coords) : Prop :=
  (Scalar.cmpi .ne (Scalar.extui (Scalar.cmpi .eq (BitVec.ofNat 32 (i 2).val) 0#32)) 0#32) = 1#1
/-- `j > 0`: the running row minima are lowered. -/
abbrev cJpos (i : grid0.Coords) : Prop :=
  (Scalar.cmpi .ne (Scalar.extui (Scalar.cmpi .sgt (BitVec.ofNat 32 (i 2).val) 0#32)) 0#32) = 1#1
/-- `j = 3`: the row minima of the tile are complete and its share of the first side's mean is added. -/
abbrev cJlast (i : grid0.Coords) : Prop := k0_cond5 i = 1#1
/-- `i = 0`: the running column minima of tile `j` start. -/
abbrev cI0 (i : grid0.Coords) : Prop := k0_cond6 i = 1#1
/-- `i > 0`: they are lowered. -/
abbrev cIpos (i : grid0.Coords) : Prop := k0_cond7 i = 1#1
/-- `i = 1`: they are complete and their share of the second side's mean is added. -/
abbrev cIlast (i : grid0.Coords) : Prop := k0_cond8 i = 1#1

/-! ## The memory the body is handed at a point -/

abbrev ms0 (t : Fin cfg0.N) : Memref sig .tc .vmem S1x2048x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8x128 .f32 := win0_2.stage (cfg0.slots t 2)
abbrev hs2 (t : Fin cfg0.N) : (ms2 t).IsWhole := hstage0_2 ((cfg0.slots t 2).cast nbuf0_2)
/-- The running row minima of the current tile of the first cloud. -/
abbrev scP : Memref sig .tc .vmem S2048x1 .f32 := Memref.whole cc0_scratch0
/-- The running column minima, one per point of the second cloud. -/
abbrev scC : Memref sig .tc .vmem S1x4096 .f32 := Memref.whole cc0_scratch1
/-- The current tile of the first cloud, narrowed. -/
abbrev scB : Memref sig .tc .vmem S2048x128 .bf16 := Memref.whole cc0_scratch2
/-- Its squared norms. -/
abbrev scQ : Memref sig .tc .vmem S2048x1 .f32 := Memref.whole cc0_scratch3

end Cert.Kernel.Hand

end
-- ==== Proof.KBModel.lean ====
/-
  What the kernel holds between grid points, and how one point changes it, as pure functions of the two tiles the
  point is handed.

  Between points the kernel keeps the output block `o` (8 × 128, of which only entry (0, 0) matters), the running row
  minima `p` of the current tile of the first cloud (one per point of the tile), the running column minima `cv` (one
  per point of the WHOLE second cloud, 4096 of them, of which a point touches only the 1024 of its tile `j`), the
  current tile of the first cloud narrowed (`xb`) and its squared norms (`q`).

  A point (i, j) of a batch does the following, in this order. If j = 0 it narrows the first cloud's tile and takes
  its squared norms. It forms the 2048 × 1024 matrix of squared distances between the two tiles and its row and
  column minima. Row minima: if j = 0 they start the running minima, otherwise they lower them; if j = 3 the running
  minima are complete and the tile's share of the first side's mean is added into the output block. Column minima:
  if i = 0 they start tile j of the running column minima, otherwise they lower it, and (i = 1 being the last tile)
  tile j's share of the second side's mean is added. At i = 0, j = 0 the output block is first reset to zero.
  That makes six kinds of point: (0,0), (0,1..2), (0,3), (1,0), (1,1..2), (1,3).
-/
import proofs.«155424_j67413806678291_2_alg».proof.Proof.KBConds
import Idealize.ShloMosaic.Lib.WritesUnit
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tile of the running column minima a point touches -/

/-- Tile `j` of the 4096 columns lies inside them, at every point of the grid. -/
theorem offInb : ∀ i : grid0.Coords, ∀ a, (k0_off1 i) a + S1x1024.size a ≤ S1x4096.size a := by decide +kernel
/-- The body computes the tile's offset three times, the same way. -/
theorem off2_eq : k0_off2 = k0_off1 := rfl
theorem off3_eq : k0_off3 = k0_off1 := rfl

/-- Columns `1024 j … 1024 j + 1023`. -/
abbrev tileRect (i : grid0.Coords) : Rect S1x4096 := Rect.unit (s := S1x4096) (k0_off1 i) S1x1024.size (offInb i)

/-- The running column minima of tile `j`. -/
def getTile (cv : Vec F S1x4096 .f32) (i : grid0.Coords) : Vec F S1x1024 .f32 := View.ld cv (tileRect i)

/-- The running column minima with tile `j` replaced by `w`. -/
def setTile (cv : Vec F S1x4096 .f32) (i : grid0.Coords) (w : Vec F S1x1024 .f32) : Vec F S1x4096 .f32 :=
  fun y => if h : ∀ a, k0_off1 i a ≤ (y a).val ∧ (y a).val < k0_off1 i a + S1x1024.size a then
      w (Rect.unitLocal (s := S1x4096) (off := k0_off1 i) (size := S1x1024.size) y h)
    else cv y

/-! ## Reading a buffer after a store -/

theorem hz2 : (![0, 0] : Fin 2 → ℕ) = fun _ => 0 := by funext a; fin_cases a <;> rfl
theorem hz3 : (![0, 0, 0] : Fin 3 → ℕ) = fun _ => 0 := by funext a; fin_cases a <;> rfl

/-- A store of the whole buffer, last, leaves its payload whatever was there. -/
theorem read_whole_store {sig : RefSig} {κ : Kind} {sp : Space} {S : Shape} {e : EltTy} {Val : EltTy → Type}
    (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  exact View.read_writes_cons_unit_of_mem v f inb w L y y rfl (fun a => by simp)

/-- A store of tile `j` into the running column minima held at `cv` leaves `cv` with that tile replaced. -/
theorem read_tile_store {sig : RefSig} {κ : Kind} {sp : Space} (v : View sig κ sp S1x4096 .f32) (f : v.ty.Contents (Elt F))
    (cv : Vec F S1x4096 .f32) (hf : v.read (Elt F) f = cv) (i : grid0.Coords)
    (inb : ∀ a, (k0_off1 i) a + S1x1024.size a ≤ S1x4096.size a) (w : Vec F S1x1024 .f32) :
    v.read (Elt F) (v.writes (Elt F) f [(⟨Rect.unit (s := S1x4096) (k0_off1 i) S1x1024.size inb, w⟩ : View.Piece (Elt F) S1x4096 .f32)])
      = setTile cv i w := by
  funext y
  rw [View.read_writes_cons_unit v f inb w [] y rfl]
  unfold setTile
  simp only [View.writes_nil, hf]

/-- A load of exactly the rectangle the newest store wrote reads that store's payload. -/
theorem readCov_same {sig : RefSig} {κ : Kind} {sp : Space} {S : Shape} {e : EltTy} {Val : EltTy → Type}
    [∀ e, Nonempty (Val e)] (v : View sig κ sp S e) (r : Rect S) (w : r.shape.Idx → Val e)
    (L : List (View.Piece Val S e)) :
    v.readCov ((⟨r, w⟩ : View.Piece Val S e) :: L) r.toLoadRect = w := by
  rw [View.readCov_eq_canon v _ r.toLoadRect (fun j => ⟨⟨r, w⟩, List.mem_cons_self .., r.idx_mem j⟩)]
  funext j
  exact View.canon_cons_emb r w L j

/-! ## The state and the six kinds of point -/

/-- What the kernel holds between points. -/
structure St (F : FTy → Type) [FloatOps F] where
  o : Vec F S1x8x128 .f32
  p : Vec F S2048x1 .f32
  cv : Vec F S1x4096 .f32
  xb : Vec F S2048x128 .bf16
  q : Vec F S2048x1 .f32

/-- (0, 0): reset the output block, narrow the tile, start both running minima. -/
def stepA (i : grid0.Coords) (x0 : Vec F S1x2048x128 .f32) (y0 : Vec F S1x1024x128 .f32) (s : St F) : St F where
  o := k0_pay6
  p := k0_pay13 (k0_pay8 x0) (k0_pay9 x0) y0
  cv := setTile s.cv i (k0_pay3 (k0_pay12 (k0_pay8 x0) (k0_pay9 x0) y0))
  xb := k0_pay8 x0
  q := k0_pay9 x0

/-- (0, 1..2): lower the row minima, start tile j of the column minima. -/
def stepB (i : grid0.Coords) (y0 : Vec F S1x1024x128 .f32) (s : St F) : St F where
  o := s.o
  p := k0_pay1 (k0_pay11 s.xb s.q y0) s.p
  cv := setTile s.cv i (k0_pay3 (k0_pay12 s.xb s.q y0))
  xb := s.xb
  q := s.q

/-- (0, 3): as (0, 1..2), and the completed row minima's share is added. -/
def stepC (i : grid0.Coords) (y0 : Vec F S1x1024x128 .f32) (s : St F) : St F where
  o := k0_pay2 (k0_pay1 (k0_pay11 s.xb s.q y0) s.p) s.o
  p := k0_pay1 (k0_pay11 s.xb s.q y0) s.p
  cv := setTile s.cv i (k0_pay3 (k0_pay12 s.xb s.q y0))
  xb := s.xb
  q := s.q

/-- (1, 0): narrow the tile, start the row minima, lower tile 0 of the column minima and add its share. -/
def stepD (i : grid0.Coords) (x0 : Vec F S1x2048x128 .f32) (y0 : Vec F S1x1024x128 .f32) (s : St F) : St F where
  o := k0_pay5 (k0_pay4 (k0_pay12 (k0_pay8 x0) (k0_pay9 x0) y0) (getTile s.cv i)) s.o
  p := k0_pay13 (k0_pay8 x0) (k0_pay9 x0) y0
  cv := setTile s.cv i (k0_pay4 (k0_pay12 (k0_pay8 x0) (k0_pay9 x0) y0) (getTile s.cv i))
  xb := k0_pay8 x0
  q := k0_pay9 x0

/-- (1, 1..2): lower both running minima, add tile j's share of the column side. -/
def stepE (i : grid0.Coords) (y0 : Vec F S1x1024x128 .f32) (s : St F) : St F where
  o := k0_pay5 (k0_pay4 (k0_pay12 s.xb s.q y0) (getTile s.cv i)) s.o
  p := k0_pay1 (k0_pay11 s.xb s.q y0) s.p
  cv := setTile s.cv i (k0_pay4 (k0_pay12 s.xb s.q y0) (getTile s.cv i))
  xb := s.xb
  q := s.q

/-- (1, 3): as (1, 1..2), the completed row minima's share added first. -/
def stepG (i : grid0.Coords) (y0 : Vec F S1x1024x128 .f32) (s : St F) : St F where
  o := k0_pay5 (k0_pay4 (k0_pay12 s.xb s.q y0) (getTile s.cv i)) (k0_pay2 (k0_pay1 (k0_pay11 s.xb s.q y0) s.p) s.o)
  p := k0_pay1 (k0_pay11 s.xb s.q y0) s.p
  cv := setTile s.cv i (k0_pay4 (k0_pay12 s.xb s.q y0) (getTile s.cv i))
  xb := s.xb
  q := s.q

end Cert.Kernel.Hand

end
-- ==== Proof.KBCases.lean ====
/-
  Which kind of point each of the 64 grid points is. The points are visited in the order of
  t = 8 b + 4 i + j, so i and j are read off t mod 8 and t mod 4. Every fact here is decided over the 64 points.
-/
import proofs.«155424_j67413806678291_2_alg».proof.Proof.KBModel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions in closed form -/

theorem hFirst : ∀ t : Fin cfg0.N, cFirst (grid0.coords t) ↔ t.val % 8 = 0 :=
  (by decide +kernel : ∀ t : Fin grid0.N, cFirst (grid0.coords t) ↔ t.val % 8 = 0)
theorem hJ0 : ∀ t : Fin cfg0.N, cJ0 (grid0.coords t) ↔ t.val % 4 = 0 :=
  (by decide +kernel : ∀ t : Fin grid0.N, cJ0 (grid0.coords t) ↔ t.val % 4 = 0)
theorem hJpos : ∀ t : Fin cfg0.N, cJpos (grid0.coords t) ↔ t.val % 4 ≠ 0 :=
  (by decide +kernel : ∀ t : Fin grid0.N, cJpos (grid0.coords t) ↔ t.val % 4 ≠ 0)
theorem hJlast : ∀ t : Fin cfg0.N, cJlast (grid0.coords t) ↔ t.val % 4 = 3 :=
  (by decide +kernel : ∀ t : Fin grid0.N, cJlast (grid0.coords t) ↔ t.val % 4 = 3)
theorem hI0 : ∀ t : Fin cfg0.N, cI0 (grid0.coords t) ↔ t.val % 8 < 4 :=
  (by decide +kernel : ∀ t : Fin grid0.N, cI0 (grid0.coords t) ↔ t.val % 8 < 4)
theorem hIpos : ∀ t : Fin cfg0.N, cIpos (grid0.coords t) ↔ 4 ≤ t.val % 8 :=
  (by decide +kernel : ∀ t : Fin grid0.N, cIpos (grid0.coords t) ↔ 4 ≤ t.val % 8)
theorem hIlast : ∀ t : Fin cfg0.N, cIlast (grid0.coords t) ↔ 4 ≤ t.val % 8 :=
  (by decide +kernel : ∀ t : Fin grid0.N, cIlast (grid0.coords t) ↔ 4 ≤ t.val % 8)

/-! ## Where the windows are idle, and the tile a point touches -/

/-- The two inputs are never idle. -/
theorem live0 : ∀ t : Fin cfg0.N, cfg0.idle 0 (grid0.coords t) = false := by decide +kernel
theorem live1 : ∀ t : Fin cfg0.N, cfg0.idle 1 (grid0.coords t) = false := by decide +kernel
/-- The output block is left alone exactly at the points (0, 1) and (0, 2) of a batch. -/
theorem idle2 : ∀ t : Fin cfg0.N, cfg0.idle 2 (grid0.coords t) = true ↔ (t.val % 8 = 1 ∨ t.val % 8 = 2) :=
  (by decide +kernel : ∀ t : Fin grid0.N, cfg0.idle 2 (grid0.coords t) = true ↔ (t.val % 8 = 1 ∨ t.val % 8 = 2))
/-- Tile j starts at column 1024 j. -/
theorem tileOff : ∀ t : Fin cfg0.N, k0_off1 (grid0.coords t) 0 = 0 ∧ k0_off1 (grid0.coords t) 1 = 1024 * (t.val % 4) :=
  (by decide +kernel : ∀ t : Fin grid0.N, k0_off1 (grid0.coords t) 0 = 0 ∧ k0_off1 (grid0.coords t) 1 = 1024 * (t.val % 4))

end Cert.Kernel.Hand

end
-- ==== Proof.KBState.lean ====
/-
  The frame of the kernel program: the region's 64 points run to the end, and what the kernel holds after each
  point is named.

  `mdl n` is what the kernel holds after `n` points, by recursion: the kind of point `n` is read off `n mod 8` and
  applied to the two tiles the point is handed (read off the argument arrays, which the program never writes).
  The recursion starts from arbitrary contents, because nothing is known of the kernel's own buffers when the region
  is entered. The first point overwrites the output block, the running row minima, the narrowed tile and its norms
  whole, so after it they are known exactly. The running column minima are only overwritten one tile of 1024 at a
  time, at the first four points: after `n` points the real buffer is only known to agree with `mdl n` on the columns
  below `1024 n` — which from `n = 4` on is all of them.

  The invariant between points says exactly that; each kind of point re-establishes it; and the output block's
  staging buffer holds, before a point that is not the first of its batch, what the point before left (through the
  two points of a batch that leave it alone).
-/
import proofs.«155424_j67413806678291_2_alg».proof.Proof.KBCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the kernel holds after each point -/

/-- Arbitrary contents: what the kernel's own buffers hold when the region is entered is not known. -/
def junkSt : St F where
  o := (Memref.whole cc0_stg2_0 : Memref sig .tc .vmem S1x8x128 .f32).view.read (Elt F) (Memref.whole cc0_stg2_0 : Memref sig .tc .vmem S1x8x128 .f32).view.junk
  p := scP.view.read (Elt F) scP.view.junk
  cv := scC.view.read (Elt F) scC.view.junk
  xb := scB.view.read (Elt F) scB.view.junk
  q := scQ.view.read (Elt F) scQ.view.junk

/-- What the kernel holds after `n` points. -/
def mdl (c : Dev nD) : (n : ℕ) → n ≤ cfg0.N → St F
  | 0, _ => junkSt
  | n + 1, hn =>
    if n % 8 = 0 then stepA (grid0.coords ⟨n, hn⟩) (iblk m c 0 ⟨n, hn⟩) (iblk m c 1 ⟨n, hn⟩) (mdl c n (Nat.le_of_lt hn))
    else if n % 8 = 1 ∨ n % 8 = 2 then stepB (grid0.coords ⟨n, hn⟩) (iblk m c 1 ⟨n, hn⟩) (mdl c n (Nat.le_of_lt hn))
    else if n % 8 = 3 then stepC (grid0.coords ⟨n, hn⟩) (iblk m c 1 ⟨n, hn⟩) (mdl c n (Nat.le_of_lt hn))
    else if n % 8 = 4 then stepD (grid0.coords ⟨n, hn⟩) (iblk m c 0 ⟨n, hn⟩) (iblk m c 1 ⟨n, hn⟩) (mdl c n (Nat.le_of_lt hn))
    else if n % 8 = 7 then stepG (grid0.coords ⟨n, hn⟩) (iblk m c 1 ⟨n, hn⟩) (mdl c n (Nat.le_of_lt hn))
    else stepE (grid0.coords ⟨n, hn⟩) (iblk m c 1 ⟨n, hn⟩) (mdl c n (Nat.le_of_lt hn))

theorem mdl_A (c : Dev nD) (t : Fin cfg0.N) (h : t.val % 8 = 0) :
    mdl m c (t.val + 1) t.isLt = stepA (grid0.coords t) (iblk m c 0 t) (iblk m c 1 t) (mdl m c t.val (Nat.le_of_lt t.isLt)) := by
  obtain ⟨n, hn⟩ := t; exact if_pos h
theorem mdl_B (c : Dev nD) (t : Fin cfg0.N) (h : t.val % 8 = 1 ∨ t.val % 8 = 2) :
    mdl m c (t.val + 1) t.isLt = stepB (grid0.coords t) (iblk m c 1 t) (mdl m c t.val (Nat.le_of_lt t.isLt)) := by
  obtain ⟨n, hn⟩ := t
  replace h : n % 8 = 1 ∨ n % 8 = 2 := h
  have e : ((⟨n, hn⟩ : Fin cfg0.N) : ℕ) = n := rfl
  exact (if_neg (by omega)).trans (if_pos h)
theorem mdl_C (c : Dev nD) (t : Fin cfg0.N) (h : t.val % 8 = 3) :
    mdl m c (t.val + 1) t.isLt = stepC (grid0.coords t) (iblk m c 1 t) (mdl m c t.val (Nat.le_of_lt t.isLt)) := by
  obtain ⟨n, hn⟩ := t
  replace h : n % 8 = 3 := h
  have e : ((⟨n, hn⟩ : Fin cfg0.N) : ℕ) = n := rfl
  exact (if_neg (by omega)).trans ((if_neg (by omega)).trans (if_pos h))
theorem mdl_D (c : Dev nD) (t : Fin cfg0.N) (h : t.val % 8 = 4) :
    mdl m c (t.val + 1) t.isLt = stepD (grid0.coords t) (iblk m c 0 t) (iblk m c 1 t) (mdl m c t.val (Nat.le_of_lt t.isLt)) := by
  obtain ⟨n, hn⟩ := t
  replace h : n % 8 = 4 := h
  have e : ((⟨n, hn⟩ : Fin cfg0.N) : ℕ) = n := rfl
  exact (if_neg (by omega)).trans ((if_neg (by omega)).trans
    ((if_neg (by omega)).trans (if_pos h)))
theorem mdl_G (c : Dev nD) (t : Fin cfg0.N) (h : t.val % 8 = 7) :
    mdl m c (t.val + 1) t.isLt = stepG (grid0.coords t) (iblk m c 1 t) (mdl m c t.val (Nat.le_of_lt t.isLt)) := by
  obtain ⟨n, hn⟩ := t
  replace h : n % 8 = 7 := h
  have e : ((⟨n, hn⟩ : Fin cfg0.N) : ℕ) = n := rfl
  exact (if_neg (by omega)).trans ((if_neg (by omega)).trans
    ((if_neg (by omega)).trans ((if_neg (by omega)).trans (if_pos h))))
theorem mdl_E (c : Dev nD) (t : Fin cfg0.N) (h : t.val % 8 = 5 ∨ t.val % 8 = 6) :
    mdl m c (t.val + 1) t.isLt = stepE (grid0.coords t) (iblk m c 1 t) (mdl m c t.val (Nat.le_of_lt t.isLt)) := by
  obtain ⟨n, hn⟩ := t
  replace h : n % 8 = 5 ∨ n % 8 = 6 := h
  have e : ((⟨n, hn⟩ : Fin cfg0.N) : ℕ) = n := rfl
  exact (if_neg (by omega)).trans ((if_neg (by omega)).trans
    ((if_neg (by omega)).trans ((if_neg (by omega)).trans (if_neg (by omega)))))

/-! ## Agreement of the running column minima on the columns written so far -/

/-- The two arrays agree on every column below `1024 k`. -/
def AgreeUpTo (k : ℕ) (cv cv' : Vec F S1x4096 .f32) : Prop :=
  ∀ y : S1x4096.Idx, (y 1).val < 1024 * k → cv y = cv' y

/-- Nothing is asked before the first point. -/
theorem agree_zero (cv cv' : Vec F S1x4096 .f32) : AgreeUpTo 0 cv cv' := fun y h => absurd h (by omega)

/-- From four points on, the columns below `1024 k` are all 4096 of them. -/
theorem agree_all {k : ℕ} (hk : 4 ≤ k) {cv cv' : Vec F S1x4096 .f32} (h : AgreeUpTo k cv cv') : cv = cv' :=
  funext fun y => h y (by have : (y 1).val < 4096 := (y 1).isLt; omega)

/-- Storing one payload into the tile of point `t` of both keeps the agreement and extends it by that tile: among the
    first four points the tile of point `t` is columns `1024 t … 1024 t + 1023`. -/
theorem agree_step (t : Fin cfg0.N) {cv cv' : Vec F S1x4096 .f32} (w : Vec F S1x1024 .f32)
    (h : AgreeUpTo t.val cv cv') :
    AgreeUpTo (t.val + 1) (setTile cv (grid0.coords t) w) (setTile cv' (grid0.coords t) w) := by
  intro y hy
  unfold setTile
  by_cases hin : ∀ a, k0_off1 (grid0.coords t) a ≤ (y a).val ∧ (y a).val < k0_off1 (grid0.coords t) a + S1x1024.size a
  · rw [dif_pos hin, dif_pos hin]
  · rw [dif_neg hin, dif_neg hin]
    refine h y ?_
    obtain ⟨h0, h1⟩ := tileOff t
    have hy1 : (y 1).val < 4096 := (y 1).isLt
    have hy0 : (y 0).val < 1 := (y 0).isLt
    by_contra hlt
    apply hin
    intro a
    fin_cases a
    · show k0_off1 (grid0.coords t) 0 ≤ (y 0).val ∧ (y 0).val < k0_off1 (grid0.coords t) 0 + 1
      rw [h0]; omega
    · show k0_off1 (grid0.coords t) 1 ≤ (y 1).val ∧ (y 1).val < k0_off1 (grid0.coords t) 1 + 1024
      rw [h1]; omega

end Cert.Kernel.Hand

end
-- ==== Proof.KBRunA.lean ====
/-
  The body at the first point of a batch (i = 0, j = 0).
-/
import proofs.«155424_j67413806678291_2_alg».proof.Proof.KBModel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs holding the first cloud's tile `x0`, the second cloud's tile `y0`, and the state `o, p, cv, xb, q`
    the kernel holds between points, the body runs to its end holding the two tiles as they were and the state this
    kind of point leaves. -/
theorem runA (c : Dev nD) (i : grid0.Coords)
    (arg3 : Memref sig .tc .vmem S1x2048x128 .f32) (harg3 : arg3.IsWhole) (arg4 : Memref sig .tc .vmem S1x1024x128 .f32) (harg4 : arg4.IsWhole)
    (arg5 : Memref sig .tc .vmem S1x8x128 .f32) (harg5 : arg5.IsWhole) (arg6 : Memref sig .tc .vmem S2048x1 .f32) (harg6 : arg6.IsWhole)
    (arg7 : Memref sig .tc .vmem S1x4096 .f32) (harg7 : arg7.IsWhole) (arg8 : Memref sig .tc .vmem S2048x128 .bf16) (harg8 : arg8.IsWhole)
    (arg9 : Memref sig .tc .vmem S2048x1 .f32) (harg9 : arg9.IsWhole)
    (h1 : cFirst i) (h2 : cJ0 i) (h4 : ¬cJpos i) (h5 : ¬cJlast i) (h6 : cI0 i) (h7 : ¬cIpos i) (h8 : ¬cIlast i)
    (x0 : Vec F S1x2048x128 .f32) (y0 : Vec F S1x1024x128 .f32) (o : Vec F S1x8x128 .f32) (p : Vec F S2048x1 .f32)
    (cv : Vec F S1x4096 .f32) (xb : Vec F S2048x128 .bf16) (q : Vec F S2048x1 .f32)
    (E : Set ℕ) (K : PUnit → sProp 𝕄) :
    iprop(owns (c : Thread nD τ) arg3 fullShare x0 ∗ owns (c : Thread nD τ) arg4 fullShare y0
        ∗ owns (c : Thread nD τ) arg5 fullShare o ∗ owns (c : Thread nD τ) arg6 fullShare p
        ∗ owns (c : Thread nD τ) arg7 fullShare cv ∗ owns (c : Thread nD τ) arg8 fullShare xb
        ∗ owns (c : Thread nD τ) arg9 fullShare q
        ∗ (iprop(owns (c : Thread nD τ) arg3 fullShare x0 ∗ owns (c : Thread nD τ) arg4 fullShare y0
            ∗ owns (c : Thread nD τ) arg5 fullShare (stepA i x0 y0 ⟨o, p, cv, xb, q⟩).o ∗ owns (c : Thread nD τ) arg6 fullShare (stepA i x0 y0 ⟨o, p, cv, xb, q⟩).p
            ∗ owns (c : Thread nD τ) arg7 fullShare (stepA i x0 y0 ⟨o, p, cv, xb, q⟩).cv ∗ owns (c : Thread nD τ) arg8 fullShare (stepA i x0 y0 ⟨o, p, cv, xb, q⟩).xb
            ∗ owns (c : Thread nD τ) arg9 fullShare (stepA i x0 y0 ⟨o, p, cv, xb, q⟩).q) -∗ K ⟨⟩))
      ⊢ wp frame (wpE (defs₀ (F := F)) Variants.none c none) E
          (cc0__chamfer_kernel i arg3 harg3 arg4 harg4 arg5 harg5 arg6 harg6 arg7 harg7 arg8 harg8 arg9 harg9) K := by
  simp only [cc0__chamfer_kernel_eq_skeleton]; unfold cc0__chamfer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h4 | exact h5 | exact h6 | exact h7 | exact h8)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    show _ = (stepA i x0 y0 ⟨o, p, cv, xb, q⟩).o
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepA, getTile, off2_eq, off3_eq]
  isplitl [H6]
  · iexists _; isplitr; swap; · iexact H6
    ipureintro
    show _ = (stepA i x0 y0 ⟨o, p, cv, xb, q⟩).p
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepA, getTile, off2_eq, off3_eq]
  isplitl [H7]
  · iexists _; isplitr; swap; · iexact H7
    ipureintro
    show _ = (stepA i x0 y0 ⟨o, p, cv, xb, q⟩).cv
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepA, getTile, off2_eq, off3_eq]
  isplitl [H8]
  · iexists _; isplitr; swap; · iexact H8
    ipureintro
    show _ = (stepA i x0 y0 ⟨o, p, cv, xb, q⟩).xb
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepA, getTile, off2_eq, off3_eq]
  iexists _; isplitr; swap; · iexact H9
  ipureintro
  show _ = (stepA i x0 y0 ⟨o, p, cv, xb, q⟩).q
  sl_unfold_run_names
  simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
  simp only [stepA, getTile, off2_eq, off3_eq]

end Cert.Kernel.Hand

end
-- ==== Proof.KBRunB.lean ====
/-
  The body at the points (0, 1) and (0, 2) of a batch.
-/
import proofs.«155424_j67413806678291_2_alg».proof.Proof.KBModel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs holding the first cloud's tile `x0`, the second cloud's tile `y0`, and the state `o, p, cv, xb, q`
    the kernel holds between points, the body runs to its end holding the two tiles as they were and the state this
    kind of point leaves. -/
theorem runB (c : Dev nD) (i : grid0.Coords)
    (arg3 : Memref sig .tc .vmem S1x2048x128 .f32) (harg3 : arg3.IsWhole) (arg4 : Memref sig .tc .vmem S1x1024x128 .f32) (harg4 : arg4.IsWhole)
    (arg5 : Memref sig .tc .vmem S1x8x128 .f32) (harg5 : arg5.IsWhole) (arg6 : Memref sig .tc .vmem S2048x1 .f32) (harg6 : arg6.IsWhole)
    (arg7 : Memref sig .tc .vmem S1x4096 .f32) (harg7 : arg7.IsWhole) (arg8 : Memref sig .tc .vmem S2048x128 .bf16) (harg8 : arg8.IsWhole)
    (arg9 : Memref sig .tc .vmem S2048x1 .f32) (harg9 : arg9.IsWhole)
    (h1 : ¬cFirst i) (h2 : ¬cJ0 i) (h4 : cJpos i) (h5 : ¬cJlast i) (h6 : cI0 i) (h7 : ¬cIpos i) (h8 : ¬cIlast i)
    (x0 : Vec F S1x2048x128 .f32) (y0 : Vec F S1x1024x128 .f32) (o : Vec F S1x8x128 .f32) (p : Vec F S2048x1 .f32)
    (cv : Vec F S1x4096 .f32) (xb : Vec F S2048x128 .bf16) (q : Vec F S2048x1 .f32)
    (E : Set ℕ) (K : PUnit → sProp 𝕄) :
    iprop(owns (c : Thread nD τ) arg3 fullShare x0 ∗ owns (c : Thread nD τ) arg4 fullShare y0
        ∗ owns (c : Thread nD τ) arg5 fullShare o ∗ owns (c : Thread nD τ) arg6 fullShare p
        ∗ owns (c : Thread nD τ) arg7 fullShare cv ∗ owns (c : Thread nD τ) arg8 fullShare xb
        ∗ owns (c : Thread nD τ) arg9 fullShare q
        ∗ (iprop(owns (c : Thread nD τ) arg3 fullShare x0 ∗ owns (c : Thread nD τ) arg4 fullShare y0
            ∗ owns (c : Thread nD τ) arg5 fullShare (stepB i y0 ⟨o, p, cv, xb, q⟩).o ∗ owns (c : Thread nD τ) arg6 fullShare (stepB i y0 ⟨o, p, cv, xb, q⟩).p
            ∗ owns (c : Thread nD τ) arg7 fullShare (stepB i y0 ⟨o, p, cv, xb, q⟩).cv ∗ owns (c : Thread nD τ) arg8 fullShare (stepB i y0 ⟨o, p, cv, xb, q⟩).xb
            ∗ owns (c : Thread nD τ) arg9 fullShare (stepB i y0 ⟨o, p, cv, xb, q⟩).q) -∗ K ⟨⟩))
      ⊢ wp frame (wpE (defs₀ (F := F)) Variants.none c none) E
          (cc0__chamfer_kernel i arg3 harg3 arg4 harg4 arg5 harg5 arg6 harg6 arg7 harg7 arg8 harg8 arg9 harg9) K := by
  simp only [cc0__chamfer_kernel_eq_skeleton]; unfold cc0__chamfer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h4 | exact h5 | exact h6 | exact h7 | exact h8)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    show _ = (stepB i y0 ⟨o, p, cv, xb, q⟩).o
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepB, getTile, off2_eq, off3_eq]
  isplitl [H6]
  · iexists _; isplitr; swap; · iexact H6
    ipureintro
    show _ = (stepB i y0 ⟨o, p, cv, xb, q⟩).p
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepB, getTile, off2_eq, off3_eq]
  isplitl [H7]
  · iexists _; isplitr; swap; · iexact H7
    ipureintro
    show _ = (stepB i y0 ⟨o, p, cv, xb, q⟩).cv
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepB, getTile, off2_eq, off3_eq]
  isplitl [H8]
  · iexists _; isplitr; swap; · iexact H8
    ipureintro
    show _ = (stepB i y0 ⟨o, p, cv, xb, q⟩).xb
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepB, getTile, off2_eq, off3_eq]
  iexists _; isplitr; swap; · iexact H9
  ipureintro
  show _ = (stepB i y0 ⟨o, p, cv, xb, q⟩).q
  sl_unfold_run_names
  simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
  simp only [stepB, getTile, off2_eq, off3_eq]

end Cert.Kernel.Hand

end
-- ==== Proof.KBRunC.lean ====
/-
  The body at the point (0, 3) of a batch.
-/
import proofs.«155424_j67413806678291_2_alg».proof.Proof.KBModel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs holding the first cloud's tile `x0`, the second cloud's tile `y0`, and the state `o, p, cv, xb, q`
    the kernel holds between points, the body runs to its end holding the two tiles as they were and the state this
    kind of point leaves. -/
theorem runC (c : Dev nD) (i : grid0.Coords)
    (arg3 : Memref sig .tc .vmem S1x2048x128 .f32) (harg3 : arg3.IsWhole) (arg4 : Memref sig .tc .vmem S1x1024x128 .f32) (harg4 : arg4.IsWhole)
    (arg5 : Memref sig .tc .vmem S1x8x128 .f32) (harg5 : arg5.IsWhole) (arg6 : Memref sig .tc .vmem S2048x1 .f32) (harg6 : arg6.IsWhole)
    (arg7 : Memref sig .tc .vmem S1x4096 .f32) (harg7 : arg7.IsWhole) (arg8 : Memref sig .tc .vmem S2048x128 .bf16) (harg8 : arg8.IsWhole)
    (arg9 : Memref sig .tc .vmem S2048x1 .f32) (harg9 : arg9.IsWhole)
    (h1 : ¬cFirst i) (h2 : ¬cJ0 i) (h4 : cJpos i) (h5 : cJlast i) (h6 : cI0 i) (h7 : ¬cIpos i) (h8 : ¬cIlast i)
    (x0 : Vec F S1x2048x128 .f32) (y0 : Vec F S1x1024x128 .f32) (o : Vec F S1x8x128 .f32) (p : Vec F S2048x1 .f32)
    (cv : Vec F S1x4096 .f32) (xb : Vec F S2048x128 .bf16) (q : Vec F S2048x1 .f32)
    (E : Set ℕ) (K : PUnit → sProp 𝕄) :
    iprop(owns (c : Thread nD τ) arg3 fullShare x0 ∗ owns (c : Thread nD τ) arg4 fullShare y0
        ∗ owns (c : Thread nD τ) arg5 fullShare o ∗ owns (c : Thread nD τ) arg6 fullShare p
        ∗ owns (c : Thread nD τ) arg7 fullShare cv ∗ owns (c : Thread nD τ) arg8 fullShare xb
        ∗ owns (c : Thread nD τ) arg9 fullShare q
        ∗ (iprop(owns (c : Thread nD τ) arg3 fullShare x0 ∗ owns (c : Thread nD τ) arg4 fullShare y0
            ∗ owns (c : Thread nD τ) arg5 fullShare (stepC i y0 ⟨o, p, cv, xb, q⟩).o ∗ owns (c : Thread nD τ) arg6 fullShare (stepC i y0 ⟨o, p, cv, xb, q⟩).p
            ∗ owns (c : Thread nD τ) arg7 fullShare (stepC i y0 ⟨o, p, cv, xb, q⟩).cv ∗ owns (c : Thread nD τ) arg8 fullShare (stepC i y0 ⟨o, p, cv, xb, q⟩).xb
            ∗ owns (c : Thread nD τ) arg9 fullShare (stepC i y0 ⟨o, p, cv, xb, q⟩).q) -∗ K ⟨⟩))
      ⊢ wp frame (wpE (defs₀ (F := F)) Variants.none c none) E
          (cc0__chamfer_kernel i arg3 harg3 arg4 harg4 arg5 harg5 arg6 harg6 arg7 harg7 arg8 harg8 arg9 harg9) K := by
  simp only [cc0__chamfer_kernel_eq_skeleton]; unfold cc0__chamfer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h4 | exact h5 | exact h6 | exact h7 | exact h8)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    show _ = (stepC i y0 ⟨o, p, cv, xb, q⟩).o
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepC, getTile, off2_eq, off3_eq, read_tile_store arg7.view (harg7.unread cv) cv (harg7.read_unread cv) i,
      readCov_same (S := S1x4096) arg7.view]
  isplitl [H6]
  · iexists _; isplitr; swap; · iexact H6
    ipureintro
    show _ = (stepC i y0 ⟨o, p, cv, xb, q⟩).p
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepC, getTile, off2_eq, off3_eq, read_tile_store arg7.view (harg7.unread cv) cv (harg7.read_unread cv) i,
      readCov_same (S := S1x4096) arg7.view]
  isplitl [H7]
  · iexists _; isplitr; swap; · iexact H7
    ipureintro
    show _ = (stepC i y0 ⟨o, p, cv, xb, q⟩).cv
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepC, getTile, off2_eq, off3_eq, read_tile_store arg7.view (harg7.unread cv) cv (harg7.read_unread cv) i,
      readCov_same (S := S1x4096) arg7.view]
  isplitl [H8]
  · iexists _; isplitr; swap; · iexact H8
    ipureintro
    show _ = (stepC i y0 ⟨o, p, cv, xb, q⟩).xb
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepC, getTile, off2_eq, off3_eq, read_tile_store arg7.view (harg7.unread cv) cv (harg7.read_unread cv) i,
      readCov_same (S := S1x4096) arg7.view]
  iexists _; isplitr; swap; · iexact H9
  ipureintro
  show _ = (stepC i y0 ⟨o, p, cv, xb, q⟩).q
  sl_unfold_run_names
  simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
  simp only [stepC, getTile, off2_eq, off3_eq, read_tile_store arg7.view (harg7.unread cv) cv (harg7.read_unread cv) i,
      readCov_same (S := S1x4096) arg7.view]

end Cert.Kernel.Hand

end
-- ==== Proof.KBRunD.lean ====
/-
  The body at the point (1, 0) of a batch.
-/
import proofs.«155424_j67413806678291_2_alg».proof.Proof.KBModel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs holding the first cloud's tile `x0`, the second cloud's tile `y0`, and the state `o, p, cv, xb, q`
    the kernel holds between points, the body runs to its end holding the two tiles as they were and the state this
    kind of point leaves. -/
theorem runD (c : Dev nD) (i : grid0.Coords)
    (arg3 : Memref sig .tc .vmem S1x2048x128 .f32) (harg3 : arg3.IsWhole) (arg4 : Memref sig .tc .vmem S1x1024x128 .f32) (harg4 : arg4.IsWhole)
    (arg5 : Memref sig .tc .vmem S1x8x128 .f32) (harg5 : arg5.IsWhole) (arg6 : Memref sig .tc .vmem S2048x1 .f32) (harg6 : arg6.IsWhole)
    (arg7 : Memref sig .tc .vmem S1x4096 .f32) (harg7 : arg7.IsWhole) (arg8 : Memref sig .tc .vmem S2048x128 .bf16) (harg8 : arg8.IsWhole)
    (arg9 : Memref sig .tc .vmem S2048x1 .f32) (harg9 : arg9.IsWhole)
    (h1 : ¬cFirst i) (h2 : cJ0 i) (h4 : ¬cJpos i) (h5 : ¬cJlast i) (h6 : ¬cI0 i) (h7 : cIpos i) (h8 : cIlast i)
    (x0 : Vec F S1x2048x128 .f32) (y0 : Vec F S1x1024x128 .f32) (o : Vec F S1x8x128 .f32) (p : Vec F S2048x1 .f32)
    (cv : Vec F S1x4096 .f32) (xb : Vec F S2048x128 .bf16) (q : Vec F S2048x1 .f32)
    (E : Set ℕ) (K : PUnit → sProp 𝕄) :
    iprop(owns (c : Thread nD τ) arg3 fullShare x0 ∗ owns (c : Thread nD τ) arg4 fullShare y0
        ∗ owns (c : Thread nD τ) arg5 fullShare o ∗ owns (c : Thread nD τ) arg6 fullShare p
        ∗ owns (c : Thread nD τ) arg7 fullShare cv ∗ owns (c : Thread nD τ) arg8 fullShare xb
        ∗ owns (c : Thread nD τ) arg9 fullShare q
        ∗ (iprop(owns (c : Thread nD τ) arg3 fullShare x0 ∗ owns (c : Thread nD τ) arg4 fullShare y0
            ∗ owns (c : Thread nD τ) arg5 fullShare (stepD i x0 y0 ⟨o, p, cv, xb, q⟩).o ∗ owns (c : Thread nD τ) arg6 fullShare (stepD i x0 y0 ⟨o, p, cv, xb, q⟩).p
            ∗ owns (c : Thread nD τ) arg7 fullShare (stepD i x0 y0 ⟨o, p, cv, xb, q⟩).cv ∗ owns (c : Thread nD τ) arg8 fullShare (stepD i x0 y0 ⟨o, p, cv, xb, q⟩).xb
            ∗ owns (c : Thread nD τ) arg9 fullShare (stepD i x0 y0 ⟨o, p, cv, xb, q⟩).q) -∗ K ⟨⟩))
      ⊢ wp frame (wpE (defs₀ (F := F)) Variants.none c none) E
          (cc0__chamfer_kernel i arg3 harg3 arg4 harg4 arg5 harg5 arg6 harg6 arg7 harg7 arg8 harg8 arg9 harg9) K := by
  simp only [cc0__chamfer_kernel_eq_skeleton]; unfold cc0__chamfer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h4 | exact h5 | exact h6 | exact h7 | exact h8)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    show _ = (stepD i x0 y0 ⟨o, p, cv, xb, q⟩).o
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepD, getTile, off2_eq, off3_eq, read_tile_store arg7.view (harg7.unread cv) cv (harg7.read_unread cv) i,
      readCov_same (S := S1x4096) arg7.view]
  isplitl [H6]
  · iexists _; isplitr; swap; · iexact H6
    ipureintro
    show _ = (stepD i x0 y0 ⟨o, p, cv, xb, q⟩).p
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepD, getTile, off2_eq, off3_eq, read_tile_store arg7.view (harg7.unread cv) cv (harg7.read_unread cv) i,
      readCov_same (S := S1x4096) arg7.view]
  isplitl [H7]
  · iexists _; isplitr; swap; · iexact H7
    ipureintro
    show _ = (stepD i x0 y0 ⟨o, p, cv, xb, q⟩).cv
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepD, getTile, off2_eq, off3_eq, read_tile_store arg7.view (harg7.unread cv) cv (harg7.read_unread cv) i,
      readCov_same (S := S1x4096) arg7.view]
    try exact read_tile_store arg7.view (harg7.unread cv) cv (harg7.read_unread cv) i _ _
  isplitl [H8]
  · iexists _; isplitr; swap; · iexact H8
    ipureintro
    show _ = (stepD i x0 y0 ⟨o, p, cv, xb, q⟩).xb
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepD, getTile, off2_eq, off3_eq, read_tile_store arg7.view (harg7.unread cv) cv (harg7.read_unread cv) i,
      readCov_same (S := S1x4096) arg7.view]
  iexists _; isplitr; swap; · iexact H9
  ipureintro
  show _ = (stepD i x0 y0 ⟨o, p, cv, xb, q⟩).q
  sl_unfold_run_names
  simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
  simp only [stepD, getTile, off2_eq, off3_eq, read_tile_store arg7.view (harg7.unread cv) cv (harg7.read_unread cv) i,
      readCov_same (S := S1x4096) arg7.view]

end Cert.Kernel.Hand

end
-- ==== Proof.KBRunE.lean ====
/-
  The body at the points (1, 1) and (1, 2) of a batch.
-/
import proofs.«155424_j67413806678291_2_alg».proof.Proof.KBModel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs holding the first cloud's tile `x0`, the second cloud's tile `y0`, and the state `o, p, cv, xb, q`
    the kernel holds between points, the body runs to its end holding the two tiles as they were and the state this
    kind of point leaves. -/
theorem runE (c : Dev nD) (i : grid0.Coords)
    (arg3 : Memref sig .tc .vmem S1x2048x128 .f32) (harg3 : arg3.IsWhole) (arg4 : Memref sig .tc .vmem S1x1024x128 .f32) (harg4 : arg4.IsWhole)
    (arg5 : Memref sig .tc .vmem S1x8x128 .f32) (harg5 : arg5.IsWhole) (arg6 : Memref sig .tc .vmem S2048x1 .f32) (harg6 : arg6.IsWhole)
    (arg7 : Memref sig .tc .vmem S1x4096 .f32) (harg7 : arg7.IsWhole) (arg8 : Memref sig .tc .vmem S2048x128 .bf16) (harg8 : arg8.IsWhole)
    (arg9 : Memref sig .tc .vmem S2048x1 .f32) (harg9 : arg9.IsWhole)
    (h1 : ¬cFirst i) (h2 : ¬cJ0 i) (h4 : cJpos i) (h5 : ¬cJlast i) (h6 : ¬cI0 i) (h7 : cIpos i) (h8 : cIlast i)
    (x0 : Vec F S1x2048x128 .f32) (y0 : Vec F S1x1024x128 .f32) (o : Vec F S1x8x128 .f32) (p : Vec F S2048x1 .f32)
    (cv : Vec F S1x4096 .f32) (xb : Vec F S2048x128 .bf16) (q : Vec F S2048x1 .f32)
    (E : Set ℕ) (K : PUnit → sProp 𝕄) :
    iprop(owns (c : Thread nD τ) arg3 fullShare x0 ∗ owns (c : Thread nD τ) arg4 fullShare y0
        ∗ owns (c : Thread nD τ) arg5 fullShare o ∗ owns (c : Thread nD τ) arg6 fullShare p
        ∗ owns (c : Thread nD τ) arg7 fullShare cv ∗ owns (c : Thread nD τ) arg8 fullShare xb
        ∗ owns (c : Thread nD τ) arg9 fullShare q
        ∗ (iprop(owns (c : Thread nD τ) arg3 fullShare x0 ∗ owns (c : Thread nD τ) arg4 fullShare y0
            ∗ owns (c : Thread nD τ) arg5 fullShare (stepE i y0 ⟨o, p, cv, xb, q⟩).o ∗ owns (c : Thread nD τ) arg6 fullShare (stepE i y0 ⟨o, p, cv, xb, q⟩).p
            ∗ owns (c : Thread nD τ) arg7 fullShare (stepE i y0 ⟨o, p, cv, xb, q⟩).cv ∗ owns (c : Thread nD τ) arg8 fullShare (stepE i y0 ⟨o, p, cv, xb, q⟩).xb
            ∗ owns (c : Thread nD τ) arg9 fullShare (stepE i y0 ⟨o, p, cv, xb, q⟩).q) -∗ K ⟨⟩))
      ⊢ wp frame (wpE (defs₀ (F := F)) Variants.none c none) E
          (cc0__chamfer_kernel i arg3 harg3 arg4 harg4 arg5 harg5 arg6 harg6 arg7 harg7 arg8 harg8 arg9 harg9) K := by
  simp only [cc0__chamfer_kernel_eq_skeleton]; unfold cc0__chamfer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h4 | exact h5 | exact h6 | exact h7 | exact h8)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    show _ = (stepE i y0 ⟨o, p, cv, xb, q⟩).o
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepE, getTile, off2_eq, off3_eq, read_tile_store arg7.view (harg7.unread cv) cv (harg7.read_unread cv) i,
      readCov_same (S := S1x4096) arg7.view]
  isplitl [H6]
  · iexists _; isplitr; swap; · iexact H6
    ipureintro
    show _ = (stepE i y0 ⟨o, p, cv, xb, q⟩).p
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepE, getTile, off2_eq, off3_eq, read_tile_store arg7.view (harg7.unread cv) cv (harg7.read_unread cv) i,
      readCov_same (S := S1x4096) arg7.view]
  isplitl [H7]
  · iexists _; isplitr; swap; · iexact H7
    ipureintro
    show _ = (stepE i y0 ⟨o, p, cv, xb, q⟩).cv
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepE, getTile, off2_eq, off3_eq, read_tile_store arg7.view (harg7.unread cv) cv (harg7.read_unread cv) i,
      readCov_same (S := S1x4096) arg7.view]
    try exact read_tile_store arg7.view (harg7.unread cv) cv (harg7.read_unread cv) i _ _
  isplitl [H8]
  · iexists _; isplitr; swap; · iexact H8
    ipureintro
    show _ = (stepE i y0 ⟨o, p, cv, xb, q⟩).xb
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepE, getTile, off2_eq, off3_eq, read_tile_store arg7.view (harg7.unread cv) cv (harg7.read_unread cv) i,
      readCov_same (S := S1x4096) arg7.view]
  iexists _; isplitr; swap; · iexact H9
  ipureintro
  show _ = (stepE i y0 ⟨o, p, cv, xb, q⟩).q
  sl_unfold_run_names
  simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
  simp only [stepE, getTile, off2_eq, off3_eq, read_tile_store arg7.view (harg7.unread cv) cv (harg7.read_unread cv) i,
      readCov_same (S := S1x4096) arg7.view]

end Cert.Kernel.Hand

end
-- ==== Proof.KBRunG.lean ====
/-
  The body at the last point (1, 3) of a batch.
-/
import proofs.«155424_j67413806678291_2_alg».proof.Proof.KBModel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs holding the first cloud's tile `x0`, the second cloud's tile `y0`, and the state `o, p, cv, xb, q`
    the kernel holds between points, the body runs to its end holding the two tiles as they were and the state this
    kind of point leaves. -/
theorem runG (c : Dev nD) (i : grid0.Coords)
    (arg3 : Memref sig .tc .vmem S1x2048x128 .f32) (harg3 : arg3.IsWhole) (arg4 : Memref sig .tc .vmem S1x1024x128 .f32) (harg4 : arg4.IsWhole)
    (arg5 : Memref sig .tc .vmem S1x8x128 .f32) (harg5 : arg5.IsWhole) (arg6 : Memref sig .tc .vmem S2048x1 .f32) (harg6 : arg6.IsWhole)
    (arg7 : Memref sig .tc .vmem S1x4096 .f32) (harg7 : arg7.IsWhole) (arg8 : Memref sig .tc .vmem S2048x128 .bf16) (harg8 : arg8.IsWhole)
    (arg9 : Memref sig .tc .vmem S2048x1 .f32) (harg9 : arg9.IsWhole)
    (h1 : ¬cFirst i) (h2 : ¬cJ0 i) (h4 : cJpos i) (h5 : cJlast i) (h6 : ¬cI0 i) (h7 : cIpos i) (h8 : cIlast i)
    (x0 : Vec F S1x2048x128 .f32) (y0 : Vec F S1x1024x128 .f32) (o : Vec F S1x8x128 .f32) (p : Vec F S2048x1 .f32)
    (cv : Vec F S1x4096 .f32) (xb : Vec F S2048x128 .bf16) (q : Vec F S2048x1 .f32)
    (E : Set ℕ) (K : PUnit → sProp 𝕄) :
    iprop(owns (c : Thread nD τ) arg3 fullShare x0 ∗ owns (c : Thread nD τ) arg4 fullShare y0
        ∗ owns (c : Thread nD τ) arg5 fullShare o ∗ owns (c : Thread nD τ) arg6 fullShare p
        ∗ owns (c : Thread nD τ) arg7 fullShare cv ∗ owns (c : Thread nD τ) arg8 fullShare xb
        ∗ owns (c : Thread nD τ) arg9 fullShare q
        ∗ (iprop(owns (c : Thread nD τ) arg3 fullShare x0 ∗ owns (c : Thread nD τ) arg4 fullShare y0
            ∗ owns (c : Thread nD τ) arg5 fullShare (stepG i y0 ⟨o, p, cv, xb, q⟩).o ∗ owns (c : Thread nD τ) arg6 fullShare (stepG i y0 ⟨o, p, cv, xb, q⟩).p
            ∗ owns (c : Thread nD τ) arg7 fullShare (stepG i y0 ⟨o, p, cv, xb, q⟩).cv ∗ owns (c : Thread nD τ) arg8 fullShare (stepG i y0 ⟨o, p, cv, xb, q⟩).xb
            ∗ owns (c : Thread nD τ) arg9 fullShare (stepG i y0 ⟨o, p, cv, xb, q⟩).q) -∗ K ⟨⟩))
      ⊢ wp frame (wpE (defs₀ (F := F)) Variants.none c none) E
          (cc0__chamfer_kernel i arg3 harg3 arg4 harg4 arg5 harg5 arg6 harg6 arg7 harg7 arg8 harg8 arg9 harg9) K := by
  simp only [cc0__chamfer_kernel_eq_skeleton]; unfold cc0__chamfer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h4 | exact h5 | exact h6 | exact h7 | exact h8)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    show _ = (stepG i y0 ⟨o, p, cv, xb, q⟩).o
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepG, getTile, off2_eq, off3_eq, read_tile_store arg7.view (harg7.unread cv) cv (harg7.read_unread cv) i,
      readCov_same (S := S1x4096) arg7.view]
  isplitl [H6]
  · iexists _; isplitr; swap; · iexact H6
    ipureintro
    show _ = (stepG i y0 ⟨o, p, cv, xb, q⟩).p
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepG, getTile, off2_eq, off3_eq, read_tile_store arg7.view (harg7.unread cv) cv (harg7.read_unread cv) i,
      readCov_same (S := S1x4096) arg7.view]
  isplitl [H7]
  · iexists _; isplitr; swap; · iexact H7
    ipureintro
    show _ = (stepG i y0 ⟨o, p, cv, xb, q⟩).cv
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepG, getTile, off2_eq, off3_eq, read_tile_store arg7.view (harg7.unread cv) cv (harg7.read_unread cv) i,
      readCov_same (S := S1x4096) arg7.view]
    try exact read_tile_store arg7.view (harg7.unread cv) cv (harg7.read_unread cv) i _ _
  isplitl [H8]
  · iexists _; isplitr; swap; · iexact H8
    ipureintro
    show _ = (stepG i y0 ⟨o, p, cv, xb, q⟩).xb
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepG, getTile, off2_eq, off3_eq, read_tile_store arg7.view (harg7.unread cv) cv (harg7.read_unread cv) i,
      readCov_same (S := S1x4096) arg7.view]
  iexists _; isplitr; swap; · iexact H9
  ipureintro
  show _ = (stepG i y0 ⟨o, p, cv, xb, q⟩).q
  sl_unfold_run_names
  simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
  simp only [stepG, getTile, off2_eq, off3_eq, read_tile_store arg7.view (harg7.unread cv) cv (harg7.read_unread cv) i,
      readCov_same (S := S1x4096) arg7.view]

end Cert.Kernel.Hand

end
-- ==== Proof.KBFrame.lean ====
/-
  The frame of the kernel program. Between points the kernel's own buffers hold what `mdl` says (the running column
  minima only on the columns written so far); each of the six kinds of point re-establishes that; the output block's
  staging buffer holds, before a point that is not the first of its batch, what the point before left — through the
  two points of a batch that leave it alone —; and with that the library's launch theorem runs the 64 points and the
  six host lines after them, leaving the two argument arrays as they were.
-/
import proofs.«155424_j67413806678291_2_alg».proof.Proof.KBState
import proofs.«155424_j67413806678291_2_alg».proof.Proof.KBRunA
import proofs.«155424_j67413806678291_2_alg».proof.Proof.KBRunB
import proofs.«155424_j67413806678291_2_alg».proof.Proof.KBRunC
import proofs.«155424_j67413806678291_2_alg».proof.Proof.KBRunD
import proofs.«155424_j67413806678291_2_alg».proof.Proof.KBRunE
import proofs.«155424_j67413806678291_2_alg».proof.Proof.KBRunG

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- What the launch hands the region and takes back: the kernel's four buffers, each whole at some contents, and
    the generator register. -/
theorem PhiA_eq (c : Dev nD) :
    (Pipeline.ΦA spec0 c : sProp 𝕄)
      = iprop(iprop((∃ d, owns (c : Thread nD τ) scP fullShare d) ∗ (∃ d, owns (c : Thread nD τ) scC fullShare d)
          ∗ (∃ d, owns (c : Thread nD τ) scB fullShare d) ∗ (∃ d, owns (c : Thread nD τ) scQ fullShare d)) ∗ (∃ r, prngReg c r)) := by
  unfold Pipeline.ΦA; rw [scopedRest0_eq]; simp only [scP, scC, scB, scQ, owns_whole]; try rfl

/-- Before the first point nothing is known of the kernel's buffers; after `n ≥ 1` points three of them hold what
    `mdl n` says and the running column minima agree with it on the columns below `1024 n`. -/
def PhiS (c : Dev nD) : (n : ℕ) → n ≤ cfg0.N → sProp 𝕄
  | 0, _ => Pipeline.ΦA spec0 c
  | n + 1, hn => iprop(iprop(owns (c : Thread nD τ) scP fullShare (mdl m c (n + 1) hn).p
      ∗ (∃ cv, ⌜AgreeUpTo (n + 1) cv (mdl m c (n + 1) hn).cv⌝ ∗ owns (c : Thread nD τ) scC fullShare cv)
      ∗ owns (c : Thread nD τ) scB fullShare (mdl m c (n + 1) hn).xb
      ∗ owns (c : Thread nD τ) scQ fullShare (mdl m c (n + 1) hn).q) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scP fullShare (mdl m c (n + 1) hn).p
      ∗ (∃ cv, ⌜AgreeUpTo (n + 1) cv (mdl m c (n + 1) hn).cv⌝ ∗ owns (c : Thread nD τ) scC fullShare cv)
      ∗ owns (c : Thread nD τ) scB fullShare (mdl m c (n + 1) hn).xb
      ∗ owns (c : Thread nD τ) scQ fullShare (mdl m c (n + 1) hn).q) ∗ (∃ r, prngReg c r)) := rfl

theorem PhiS_pos (c : Dev nD) (n : ℕ) (h : n ≤ cfg0.N) (hz : n ≠ 0) :
    PhiS m c n h = iprop(iprop(owns (c : Thread nD τ) scP fullShare (mdl m c n h).p
      ∗ (∃ cv, ⌜AgreeUpTo n cv (mdl m c n h).cv⌝ ∗ owns (c : Thread nD τ) scC fullShare cv)
      ∗ owns (c : Thread nD τ) scB fullShare (mdl m c n h).xb
      ∗ owns (c : Thread nD τ) scQ fullShare (mdl m c n h).q) ∗ (∃ r, prngReg c r)) := by
  cases n with
  | zero => exact absurd rfl hz
  | succ n => rfl

/-- Either way the four buffers are held at SOME contents `p, cv, xb, q`, of which, after the first point, three are
    `mdl`'s and the fourth agrees with it on the columns written so far. -/
theorem Phi_open (c : Dev nD) (t : Fin cfg0.N) :
    PhiS m c t.val (Nat.le_of_lt t.isLt) ⊢
      iprop(∃ (p : Vec F S2048x1 .f32) (cv : Vec F S1x4096 .f32) (xb : Vec F S2048x128 .bf16) (q : Vec F S2048x1 .f32),
        ⌜(t.val ≠ 0 → p = (mdl m c t.val (Nat.le_of_lt t.isLt)).p ∧ xb = (mdl m c t.val (Nat.le_of_lt t.isLt)).xb
            ∧ q = (mdl m c t.val (Nat.le_of_lt t.isLt)).q)
          ∧ AgreeUpTo t.val cv (mdl m c t.val (Nat.le_of_lt t.isLt)).cv⌝
        ∗ owns (c : Thread nD τ) scP fullShare p ∗ owns (c : Thread nD τ) scC fullShare cv
        ∗ owns (c : Thread nD τ) scB fullShare xb ∗ owns (c : Thread nD τ) scQ fullShare q ∗ (∃ r, prngReg c r)) := by
  by_cases hz : t.val = 0
  · rw [PhiS_zero m c _ _ hz, PhiA_eq]
    iintro ⟨⟨⟨%p, HP⟩, ⟨%cv, HC⟩, ⟨%xb, HB⟩, ⟨%q, HQ⟩⟩, Hg⟩
    iexists p, cv, xb, q
    isplitr
    · ipureintro; exact ⟨fun h => absurd hz h, fun y hy => absurd hy (by omega)⟩
    isplitl [HP]; · iexact HP
    isplitl [HC]; · iexact HC
    isplitl [HB]; · iexact HB
    isplitl [HQ]; · iexact HQ
    iexact Hg
  · rw [PhiS_pos m c _ _ hz]
    iintro ⟨⟨HP, ⟨%cv, %hA, HC⟩, HB, HQ⟩, Hg⟩
    iexists _, cv, _, _
    isplitr
    · ipureintro; exact ⟨fun _ => ⟨rfl, rfl, rfl⟩, hA⟩
    isplitl [HP]; · iexact HP
    isplitl [HC]; · iexact HC
    isplitl [HB]; · iexact HB
    isplitl [HQ]; · iexact HQ
    iexact Hg

/-! ## The pipeline's proof data -/

/-- The arrays as the region finds them; after the body at a point each input's buffer at its block and the output
    block at what `mdl` says; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (mdl m c (t.val + 1) t.isLt).o
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (mdl m c (t.val + 1) t.isLt).o := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The output block's staging buffer before point `n`: fresh at the first point of a batch (the block before it was
    written back), otherwise what `mdl n` says — the two points of a batch that leave the block alone pass on what
    they found, and `mdl` keeps its output block at them. -/
theorem bef2_aux (c : Dev nD) : ∀ (n : ℕ) (hn : n < cfg0.N) (d),
    (dats m 0 c).before 2 ⟨n, hn⟩ d = if n % 8 = 0 then d else (mdl m c n (Nat.le_of_lt hn)).o := by
  intro n
  induction n with
  | zero =>
    intro hn d
    rw [if_pos (Nat.zero_mod 8)]
    exact (dats m 0 c).before_out_reset 2 rfl ⟨0, hn⟩ (Or.inl rfl) d
  | succ n ih =>
    intro hn d
    have hn' : n < cfg0.N := Nat.lt_of_succ_lt hn
    rw [(dats m 0 c).before_of_pos 2 ⟨n + 1, hn⟩ (Nat.succ_ne_zero n) ((cfg0.win 2).fetch_out rfl _) d]
    show (if (cfg0.win 2).flush ⟨n, hn'⟩ then d else (dats m 0 c).left 2 ⟨n, hn'⟩ d) = _
    by_cases h7 : n % 8 = 7
    · rw [if_pos ((flush0_2 ⟨n, hn'⟩).mpr h7), if_pos (by omega)]
    · rw [if_neg (fun h => h7 ((flush0_2 ⟨n, hn'⟩).mp h)), if_neg (by omega)]
      unfold Dat.left
      by_cases hid : n % 8 = 1 ∨ n % 8 = 2
      · rw [(idle2 ⟨n, hn'⟩).mpr hid]
        show (dats m 0 c).before 2 ⟨n, hn'⟩ d = _
        rw [ih hn' d, if_neg (by omega), mdl_B m c ⟨n, hn'⟩ hid]
        rfl
      · rw [show cfg0.idle 2 (grid0.coords ⟨n, hn'⟩) = false from by
          rcases Bool.eq_false_or_eq_true (cfg0.idle 2 (grid0.coords ⟨n, hn'⟩)) with h | h
          · exact absurd ((idle2 ⟨n, hn'⟩).mp h) hid
          · exact h]
        show (dats m 0 c).kept 2 ⟨n, hn'⟩ d = _
        unfold Dat.kept
        rw [Pipeline.fill_of_clip_none (cfg := cfg0) 2 _ (fun _ => rfl) d ((dats m 0 c).after 2 ⟨n, hn'⟩), Window.fill_cut, after2]

theorem bef2 (c : Dev nD) (t : Fin cfg0.N) (d) :
    (dats m 0 c).before 2 t d = if t.val % 8 = 0 then d else (mdl m c t.val (Nat.le_of_lt t.isLt)).o :=
  bef2_aux m c t.val t.isLt d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 8000000 in
/-- The body at any point: the kind of point is read off its number; the invariant hands the body the kernel's four
    buffers and takes them back at what the point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [PhiS_castSucc m c t]
  have hN : t.val < 64 := lt_of_lt_of_eq t.isLt (show cfg0.N = 64 from N_0)
  have hcase : t.val % 8 = 0 ∨ (t.val % 8 = 1 ∨ t.val % 8 = 2) ∨ t.val % 8 = 3 ∨ t.val % 8 = 4
      ∨ (t.val % 8 = 5 ∨ t.val % 8 = 6) ∨ t.val % 8 = 7 := by omega
  rcases hcase with hk | hk | hk | hk | hk | hk
  · -- The body at the first point of a batch (i = 0, j = 0).
    have c1 : cFirst (grid0.coords t) := (hFirst t).mpr (by omega)
    have c2 : cJ0 (grid0.coords t) := (hJ0 t).mpr (by omega)
    have c4 : ¬cJpos (grid0.coords t) := fun h => by have := (hJpos t).mp h; omega
    have c5 : ¬cJlast (grid0.coords t) := fun h => by have := (hJlast t).mp h; omega
    have c6 : cI0 (grid0.coords t) := (hI0 t).mpr (by omega)
    have c7 : ¬cIpos (grid0.coords t) := fun h => by have := (hIpos t).mp h; omega
    have c8 : ¬cIlast (grid0.coords t) := fun h => by have := (hIlast t).mp h; omega
    rw [show (dats m 0 c).leavesExact 2 t = owns (c : Thread nD τ) (ms2 t) fullShare ((dats m 0 c).after 2 t) from by
      unfold Dat.leavesExact
      rw [show cfg0.idle 2 (grid0.coords t) = false from by
        rcases Bool.eq_false_or_eq_true (cfg0.idle 2 (grid0.coords t)) with h | h
        · have := (idle2 t).mp h; omega
        · exact h], after2]
    rw [mdl_A m c t hk]
    simp only [bef2 m c t, if_pos hk]
    refine (sep_mono_left (Phi_open m c t)).trans ?_
    iintro ⟨⟨%p, %cv, %xb, %q, %hP, HP, HC, HB, HQ, Hg⟩, Ho, ⟨%d0, H0⟩, ⟨%d1, H1⟩, ⟨%d2, H2⟩⟩

    iapply (runA c (grid0.coords t) (ms0 t) (hs0 t) (ms1 t) (hs1 t) (ms2 t) (hs2 t) scP (Memref.isWhole_whole _) scC (Memref.isWhole_whole _)
      scB (Memref.isWhole_whole _) scQ (Memref.isWhole_whole _) c1 c2 c4 c5 c6 c7 c8 (iblk m c 0 t) (iblk m c 1 t) d2 _ _ _ _ Set.univ _)
    isplitl [H0]; · iexact H0
    isplitl [H1]; · iexact H1
    isplitl [H2]; · iexact H2
    isplitl [HP]; · iexact HP
    isplitl [HC]; · iexact HC
    isplitl [HB]; · iexact HB
    isplitl [HQ]; · iexact HQ
    iintro ⟨H0, H1, H2, HP, HC, HB, HQ⟩
    isplitl [HP HC HB HQ Hg]
    · isplitr [Hg]
      · isplitl [HP]; · iexact HP
        isplitl [HC]
        · iexists _; isplitr
          · ipureintro; exact agree_step t _ hP.2
          iexact HC
        isplitl [HB]; · iexact HB
        iexact HQ
      · iexact Hg
    isplitl [Ho]; · iexact Ho
    isplitl [H0]; · iexact H0
    isplitl [H1]; · iexact H1
    iexact H2
  · -- The body at the points (0, 1) and (0, 2) of a batch.
    have c1 : ¬cFirst (grid0.coords t) := fun h => by have := (hFirst t).mp h; omega
    have c2 : ¬cJ0 (grid0.coords t) := fun h => by have := (hJ0 t).mp h; omega
    have c4 : cJpos (grid0.coords t) := (hJpos t).mpr (by omega)
    have c5 : ¬cJlast (grid0.coords t) := fun h => by have := (hJlast t).mp h; omega
    have c6 : cI0 (grid0.coords t) := (hI0 t).mpr (by omega)
    have c7 : ¬cIpos (grid0.coords t) := fun h => by have := (hIpos t).mp h; omega
    have c8 : ¬cIlast (grid0.coords t) := fun h => by have := (hIlast t).mp h; omega
    rw [Dat.leavesExact_idle (dats m 0 c) 2 t ((idle2 t).mpr hk) (by
      rcases Bool.eq_false_or_eq_true ((cfg0.win 2).flush t) with h | h
      · have := (flush0_2 t).mp h; omega
      · exact h)]
    rw [mdl_B m c t hk]
    simp only [bef2 m c t, if_neg (show ¬ t.val % 8 = 0 by omega)]
    refine (sep_mono_left (Phi_open m c t)).trans ?_
    iintro ⟨⟨%p, %cv, %xb, %q, %hP, HP, HC, HB, HQ, Hg⟩, Ho, ⟨%d0, H0⟩, ⟨%d1, H1⟩, ⟨%d2, H2⟩⟩
    obtain ⟨hp, hxb, hq⟩ := hP.1 (by omega)
    subst hp hxb hq

    iapply (runB c (grid0.coords t) (ms0 t) (hs0 t) (ms1 t) (hs1 t) (ms2 t) (hs2 t) scP (Memref.isWhole_whole _) scC (Memref.isWhole_whole _)
      scB (Memref.isWhole_whole _) scQ (Memref.isWhole_whole _) c1 c2 c4 c5 c6 c7 c8 (iblk m c 0 t) (iblk m c 1 t) (mdl m c t.val (Nat.le_of_lt t.isLt)).o _ _ _ _ Set.univ _)
    isplitl [H0]; · iexact H0
    isplitl [H1]; · iexact H1
    isplitl [H2]; · iexact H2
    isplitl [HP]; · iexact HP
    isplitl [HC]; · iexact HC
    isplitl [HB]; · iexact HB
    isplitl [HQ]; · iexact HQ
    iintro ⟨H0, H1, H2, HP, HC, HB, HQ⟩
    isplitl [HP HC HB HQ Hg]
    · isplitr [Hg]
      · isplitl [HP]; · iexact HP
        isplitl [HC]
        · iexists _; isplitr
          · ipureintro; exact agree_step t _ hP.2
          iexact HC
        isplitl [HB]; · iexact HB
        iexact HQ
      · iexact Hg
    isplitl [Ho]; · iexact Ho
    isplitl [H0]; · iexact H0
    isplitl [H1]; · iexact H1
    iexists d2; iexact H2
  · -- The body at the point (0, 3) of a batch.
    have c1 : ¬cFirst (grid0.coords t) := fun h => by have := (hFirst t).mp h; omega
    have c2 : ¬cJ0 (grid0.coords t) := fun h => by have := (hJ0 t).mp h; omega
    have c4 : cJpos (grid0.coords t) := (hJpos t).mpr (by omega)
    have c5 : cJlast (grid0.coords t) := (hJlast t).mpr (by omega)
    have c6 : cI0 (grid0.coords t) := (hI0 t).mpr (by omega)
    have c7 : ¬cIpos (grid0.coords t) := fun h => by have := (hIpos t).mp h; omega
    have c8 : ¬cIlast (grid0.coords t) := fun h => by have := (hIlast t).mp h; omega
    rw [show (dats m 0 c).leavesExact 2 t = owns (c : Thread nD τ) (ms2 t) fullShare ((dats m 0 c).after 2 t) from by
      unfold Dat.leavesExact
      rw [show cfg0.idle 2 (grid0.coords t) = false from by
        rcases Bool.eq_false_or_eq_true (cfg0.idle 2 (grid0.coords t)) with h | h
        · have := (idle2 t).mp h; omega
        · exact h], after2]
    rw [mdl_C m c t hk]
    simp only [bef2 m c t, if_neg (show ¬ t.val % 8 = 0 by omega)]
    refine (sep_mono_left (Phi_open m c t)).trans ?_
    iintro ⟨⟨%p, %cv, %xb, %q, %hP, HP, HC, HB, HQ, Hg⟩, Ho, ⟨%d0, H0⟩, ⟨%d1, H1⟩, ⟨%d2, H2⟩⟩
    obtain ⟨hp, hxb, hq⟩ := hP.1 (by omega)
    subst hp hxb hq

    iapply (runC c (grid0.coords t) (ms0 t) (hs0 t) (ms1 t) (hs1 t) (ms2 t) (hs2 t) scP (Memref.isWhole_whole _) scC (Memref.isWhole_whole _)
      scB (Memref.isWhole_whole _) scQ (Memref.isWhole_whole _) c1 c2 c4 c5 c6 c7 c8 (iblk m c 0 t) (iblk m c 1 t) (mdl m c t.val (Nat.le_of_lt t.isLt)).o _ _ _ _ Set.univ _)
    isplitl [H0]; · iexact H0
    isplitl [H1]; · iexact H1
    isplitl [H2]; · iexact H2
    isplitl [HP]; · iexact HP
    isplitl [HC]; · iexact HC
    isplitl [HB]; · iexact HB
    isplitl [HQ]; · iexact HQ
    iintro ⟨H0, H1, H2, HP, HC, HB, HQ⟩
    isplitl [HP HC HB HQ Hg]
    · isplitr [Hg]
      · isplitl [HP]; · iexact HP
        isplitl [HC]
        · iexists _; isplitr
          · ipureintro; exact agree_step t _ hP.2
          iexact HC
        isplitl [HB]; · iexact HB
        iexact HQ
      · iexact Hg
    isplitl [Ho]; · iexact Ho
    isplitl [H0]; · iexact H0
    isplitl [H1]; · iexact H1
    iexact H2
  · -- The body at the point (1, 0) of a batch.
    have c1 : ¬cFirst (grid0.coords t) := fun h => by have := (hFirst t).mp h; omega
    have c2 : cJ0 (grid0.coords t) := (hJ0 t).mpr (by omega)
    have c4 : ¬cJpos (grid0.coords t) := fun h => by have := (hJpos t).mp h; omega
    have c5 : ¬cJlast (grid0.coords t) := fun h => by have := (hJlast t).mp h; omega
    have c6 : ¬cI0 (grid0.coords t) := fun h => by have := (hI0 t).mp h; omega
    have c7 : cIpos (grid0.coords t) := (hIpos t).mpr (by omega)
    have c8 : cIlast (grid0.coords t) := (hIlast t).mpr (by omega)
    rw [show (dats m 0 c).leavesExact 2 t = owns (c : Thread nD τ) (ms2 t) fullShare ((dats m 0 c).after 2 t) from by
      unfold Dat.leavesExact
      rw [show cfg0.idle 2 (grid0.coords t) = false from by
        rcases Bool.eq_false_or_eq_true (cfg0.idle 2 (grid0.coords t)) with h | h
        · have := (idle2 t).mp h; omega
        · exact h], after2]
    rw [mdl_D m c t hk]
    simp only [bef2 m c t, if_neg (show ¬ t.val % 8 = 0 by omega)]
    refine (sep_mono_left (Phi_open m c t)).trans ?_
    iintro ⟨⟨%p, %cv, %xb, %q, %hP, HP, HC, HB, HQ, Hg⟩, Ho, ⟨%d0, H0⟩, ⟨%d1, H1⟩, ⟨%d2, H2⟩⟩
    obtain ⟨hp, hxb, hq⟩ := hP.1 (by omega)
    subst hp hxb hq
    have hcv := agree_all (by omega : 4 ≤ t.val) hP.2
    subst hcv
    iapply (runD c (grid0.coords t) (ms0 t) (hs0 t) (ms1 t) (hs1 t) (ms2 t) (hs2 t) scP (Memref.isWhole_whole _) scC (Memref.isWhole_whole _)
      scB (Memref.isWhole_whole _) scQ (Memref.isWhole_whole _) c1 c2 c4 c5 c6 c7 c8 (iblk m c 0 t) (iblk m c 1 t) (mdl m c t.val (Nat.le_of_lt t.isLt)).o _ _ _ _ Set.univ _)
    isplitl [H0]; · iexact H0
    isplitl [H1]; · iexact H1
    isplitl [H2]; · iexact H2
    isplitl [HP]; · iexact HP
    isplitl [HC]; · iexact HC
    isplitl [HB]; · iexact HB
    isplitl [HQ]; · iexact HQ
    iintro ⟨H0, H1, H2, HP, HC, HB, HQ⟩
    isplitl [HP HC HB HQ Hg]
    · isplitr [Hg]
      · isplitl [HP]; · iexact HP
        isplitl [HC]
        · iexists _; isplitr
          · ipureintro; exact fun _ _ => rfl
          iexact HC
        isplitl [HB]; · iexact HB
        iexact HQ
      · iexact Hg
    isplitl [Ho]; · iexact Ho
    isplitl [H0]; · iexact H0
    isplitl [H1]; · iexact H1
    iexact H2
  · -- The body at the points (1, 1) and (1, 2) of a batch.
    have c1 : ¬cFirst (grid0.coords t) := fun h => by have := (hFirst t).mp h; omega
    have c2 : ¬cJ0 (grid0.coords t) := fun h => by have := (hJ0 t).mp h; omega
    have c4 : cJpos (grid0.coords t) := (hJpos t).mpr (by omega)
    have c5 : ¬cJlast (grid0.coords t) := fun h => by have := (hJlast t).mp h; omega
    have c6 : ¬cI0 (grid0.coords t) := fun h => by have := (hI0 t).mp h; omega
    have c7 : cIpos (grid0.coords t) := (hIpos t).mpr (by omega)
    have c8 : cIlast (grid0.coords t) := (hIlast t).mpr (by omega)
    rw [show (dats m 0 c).leavesExact 2 t = owns (c : Thread nD τ) (ms2 t) fullShare ((dats m 0 c).after 2 t) from by
      unfold Dat.leavesExact
      rw [show cfg0.idle 2 (grid0.coords t) = false from by
        rcases Bool.eq_false_or_eq_true (cfg0.idle 2 (grid0.coords t)) with h | h
        · have := (idle2 t).mp h; omega
        · exact h], after2]
    rw [mdl_E m c t hk]
    simp only [bef2 m c t, if_neg (show ¬ t.val % 8 = 0 by omega)]
    refine (sep_mono_left (Phi_open m c t)).trans ?_
    iintro ⟨⟨%p, %cv, %xb, %q, %hP, HP, HC, HB, HQ, Hg⟩, Ho, ⟨%d0, H0⟩, ⟨%d1, H1⟩, ⟨%d2, H2⟩⟩
    obtain ⟨hp, hxb, hq⟩ := hP.1 (by omega)
    subst hp hxb hq
    have hcv := agree_all (by omega : 4 ≤ t.val) hP.2
    subst hcv
    iapply (runE c (grid0.coords t) (ms0 t) (hs0 t) (ms1 t) (hs1 t) (ms2 t) (hs2 t) scP (Memref.isWhole_whole _) scC (Memref.isWhole_whole _)
      scB (Memref.isWhole_whole _) scQ (Memref.isWhole_whole _) c1 c2 c4 c5 c6 c7 c8 (iblk m c 0 t) (iblk m c 1 t) (mdl m c t.val (Nat.le_of_lt t.isLt)).o _ _ _ _ Set.univ _)
    isplitl [H0]; · iexact H0
    isplitl [H1]; · iexact H1
    isplitl [H2]; · iexact H2
    isplitl [HP]; · iexact HP
    isplitl [HC]; · iexact HC
    isplitl [HB]; · iexact HB
    isplitl [HQ]; · iexact HQ
    iintro ⟨H0, H1, H2, HP, HC, HB, HQ⟩
    isplitl [HP HC HB HQ Hg]
    · isplitr [Hg]
      · isplitl [HP]; · iexact HP
        isplitl [HC]
        · iexists _; isplitr
          · ipureintro; exact fun _ _ => rfl
          iexact HC
        isplitl [HB]; · iexact HB
        iexact HQ
      · iexact Hg
    isplitl [Ho]; · iexact Ho
    isplitl [H0]; · iexact H0
    isplitl [H1]; · iexact H1
    iexact H2
  · -- The body at the last point (1, 3) of a batch.
    have c1 : ¬cFirst (grid0.coords t) := fun h => by have := (hFirst t).mp h; omega
    have c2 : ¬cJ0 (grid0.coords t) := fun h => by have := (hJ0 t).mp h; omega
    have c4 : cJpos (grid0.coords t) := (hJpos t).mpr (by omega)
    have c5 : cJlast (grid0.coords t) := (hJlast t).mpr (by omega)
    have c6 : ¬cI0 (grid0.coords t) := fun h => by have := (hI0 t).mp h; omega
    have c7 : cIpos (grid0.coords t) := (hIpos t).mpr (by omega)
    have c8 : cIlast (grid0.coords t) := (hIlast t).mpr (by omega)
    rw [show (dats m 0 c).leavesExact 2 t = owns (c : Thread nD τ) (ms2 t) fullShare ((dats m 0 c).after 2 t) from by
      unfold Dat.leavesExact
      rw [show cfg0.idle 2 (grid0.coords t) = false from by
        rcases Bool.eq_false_or_eq_true (cfg0.idle 2 (grid0.coords t)) with h | h
        · have := (idle2 t).mp h; omega
        · exact h], after2]
    rw [mdl_G m c t hk]
    simp only [bef2 m c t, if_neg (show ¬ t.val % 8 = 0 by omega)]
    refine (sep_mono_left (Phi_open m c t)).trans ?_
    iintro ⟨⟨%p, %cv, %xb, %q, %hP, HP, HC, HB, HQ, Hg⟩, Ho, ⟨%d0, H0⟩, ⟨%d1, H1⟩, ⟨%d2, H2⟩⟩
    obtain ⟨hp, hxb, hq⟩ := hP.1 (by omega)
    subst hp hxb hq
    have hcv := agree_all (by omega : 4 ≤ t.val) hP.2
    subst hcv
    iapply (runG c (grid0.coords t) (ms0 t) (hs0 t) (ms1 t) (hs1 t) (ms2 t) (hs2 t) scP (Memref.isWhole_whole _) scC (Memref.isWhole_whole _)
      scB (Memref.isWhole_whole _) scQ (Memref.isWhole_whole _) c1 c2 c4 c5 c6 c7 c8 (iblk m c 0 t) (iblk m c 1 t) (mdl m c t.val (Nat.le_of_lt t.isLt)).o _ _ _ _ Set.univ _)
    isplitl [H0]; · iexact H0
    isplitl [H1]; · iexact H1
    isplitl [H2]; · iexact H2
    isplitl [HP]; · iexact HP
    isplitl [HC]; · iexact HC
    isplitl [HB]; · iexact HB
    isplitl [HQ]; · iexact HQ
    iintro ⟨H0, H1, H2, HP, HC, HB, HQ⟩
    isplitl [HP HC HB HQ Hg]
    · isplitr [Hg]
      · isplitl [HP]; · iexact HP
        isplitl [HC]
        · iexists _; isplitr
          · ipureintro; exact fun _ _ => rfl
          iexact HC
        isplitl [HB]; · iexact HB
        iexact HQ
      · iexact Hg
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: what the buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨⟨HP, ⟨%cv, %hA, HC⟩, HB, HQ⟩, Hg⟩
  isplitl [HP HC HB HQ]
  · isplitl [HP]; · iexists _; iexact HP
    isplitl [HC]; · iexists _; iexact HC
    isplitl [HB]; · iexists _; iexact HB
    iexists _; iexact HQ
  iexact Hg

/-! ## The run and the frame -/

set_option backward.isDefEq.respectTransparency.types false in
/-- Every weakly fair execution of @main terminates, nothing faulting, with every array of the pipeline at what the
    library computes from the proof data and every other unscoped buffer as the six lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim, at any instance of the floating-point operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KIConds.lean ====
/-
  The grid of the one region is 8 × 2 × 4: a batch `b`, a tile `i` of 2048 points of the first cloud, a tile `j` of
  1024 points of the second. The body branches eight times on `i` and `j` alone. This module names those eight
  conditions as the body computes them from the coordinates, and the memory the body is handed: the three windows'
  staging buffers at a point and the four buffers the kernel keeps between points (the running row minima of a tile
  of the first cloud, the running column minima of the whole second cloud, the first cloud's tile narrowed, and its
  squared norms).
-/
import proofs.«155424_j67413806678291_2_alg».proof.Proof.Gen.KernelIdeal.Frame
import proofs.«155424_j67413806678291_2_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, from the grid coordinates -/

/-- First point of a batch: `i = 0` and `j = 0` (the output block is reset). -/
abbrev cFirst (i : grid0.Coords) : Prop := k0_cond1 i = 1#1
/-- `j = 0`: the first cloud's tile is narrowed and its squared norms taken, and the running row minima start. -/
abbrev cJ0 (i : grid0.Coords) : Prop :=
  (Scalar.cmpi .ne (Scalar.extui (Scalar.cmpi .eq (BitVec.ofNat 32 (i 2).val) 0#32)) 0#32) = 1#1
/-- `j > 0`: the running row minima are lowered. -/
abbrev cJpos (i : grid0.Coords) : Prop :=
  (Scalar.cmpi .ne (Scalar.extui (Scalar.cmpi .sgt (BitVec.ofNat 32 (i 2).val) 0#32)) 0#32) = 1#1
/-- `j = 3`: the row minima of the tile are complete and its share of the first side's mean is added. -/
abbrev cJlast (i : grid0.Coords) : Prop := k0_cond5 i = 1#1
/-- `i = 0`: the running column minima of tile `j` start. -/
abbrev cI0 (i : grid0.Coords) : Prop := k0_cond6 i = 1#1
/-- `i > 0`: they are lowered. -/
abbrev cIpos (i : grid0.Coords) : Prop := k0_cond7 i = 1#1
/-- `i = 1`: they are complete and their share of the second side's mean is added. -/
abbrev cIlast (i : grid0.Coords) : Prop := k0_cond8 i = 1#1

/-! ## The memory the body is handed at a point -/

abbrev ms0 (t : Fin cfg0.N) : Memref sig .tc .vmem S1x2048x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8x128 .f32 := win0_2.stage (cfg0.slots t 2)
abbrev hs2 (t : Fin cfg0.N) : (ms2 t).IsWhole := hstage0_2 ((cfg0.slots t 2).cast nbuf0_2)
/-- The running row minima of the current tile of the first cloud. -/
abbrev scP : Memref sig .tc .vmem S2048x1 .f32 := Memref.whole cc0_scratch0
/-- The running column minima, one per point of the second cloud. -/
abbrev scC : Memref sig .tc .vmem S1x4096 .f32 := Memref.whole cc0_scratch1
/-- The current tile of the first cloud, narrowed. -/
abbrev scB : Memref sig .tc .vmem S2048x128 .bf16 := Memref.whole cc0_scratch2
/-- Its squared norms. -/
abbrev scQ : Memref sig .tc .vmem S2048x1 .f32 := Memref.whole cc0_scratch3

end Cert.KernelIdeal.Hand

end
-- ==== Proof.KIModel.lean ====
/-
  What the kernel holds between grid points, and how one point changes it, as pure functions of the two tiles the
  point is handed.

  Between points the kernel keeps the output block `o` (8 × 128, of which only entry (0, 0) matters), the running row
  minima `p` of the current tile of the first cloud (one per point of the tile), the running column minima `cv` (one
  per point of the WHOLE second cloud, 4096 of them, of which a point touches only the 1024 of its tile `j`), the
  current tile of the first cloud narrowed (`xb`) and its squared norms (`q`).

  A point (i, j) of a batch does the following, in this order. If j = 0 it narrows the first cloud's tile and takes
  its squared norms. It forms the 2048 × 1024 matrix of squared distances between the two tiles and its row and
  column minima. Row minima: if j = 0 they start the running minima, otherwise they lower them; if j = 3 the running
  minima are complete and the tile's share of the first side's mean is added into the output block. Column minima:
  if i = 0 they start tile j of the running column minima, otherwise they lower it, and (i = 1 being the last tile)
  tile j's share of the second side's mean is added. At i = 0, j = 0 the output block is first reset to zero.
  That makes six kinds of point: (0,0), (0,1..2), (0,3), (1,0), (1,1..2), (1,3).
-/
import proofs.«155424_j67413806678291_2_alg».proof.Proof.KIConds
import Idealize.ShloMosaic.Lib.WritesUnit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tile of the running column minima a point touches -/

/-- Tile `j` of the 4096 columns lies inside them, at every point of the grid. -/
theorem offInb : ∀ i : grid0.Coords, ∀ a, (k0_off1 i) a + S1x1024.size a ≤ S1x4096.size a := by decide +kernel
/-- The body computes the tile's offset three times, the same way. -/
theorem off2_eq : k0_off2 = k0_off1 := rfl
theorem off3_eq : k0_off3 = k0_off1 := rfl

/-- Columns `1024 j … 1024 j + 1023`. -/
abbrev tileRect (i : grid0.Coords) : Rect S1x4096 := Rect.unit (s := S1x4096) (k0_off1 i) S1x1024.size (offInb i)

/-- The running column minima of tile `j`. -/
def getTile (cv : Vec F S1x4096 .f32) (i : grid0.Coords) : Vec F S1x1024 .f32 := View.ld cv (tileRect i)

/-- The running column minima with tile `j` replaced by `w`. -/
def setTile (cv : Vec F S1x4096 .f32) (i : grid0.Coords) (w : Vec F S1x1024 .f32) : Vec F S1x4096 .f32 :=
  fun y => if h : ∀ a, k0_off1 i a ≤ (y a).val ∧ (y a).val < k0_off1 i a + S1x1024.size a then
      w (Rect.unitLocal (s := S1x4096) (off := k0_off1 i) (size := S1x1024.size) y h)
    else cv y

/-! ## Reading a buffer after a store -/

theorem hz2 : (![0, 0] : Fin 2 → ℕ) = fun _ => 0 := by funext a; fin_cases a <;> rfl
theorem hz3 : (![0, 0, 0] : Fin 3 → ℕ) = fun _ => 0 := by funext a; fin_cases a <;> rfl

/-- A store of the whole buffer, last, leaves its payload whatever was there. -/
theorem read_whole_store {sig : RefSig} {κ : Kind} {sp : Space} {S : Shape} {e : EltTy} {Val : EltTy → Type}
    (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  exact View.read_writes_cons_unit_of_mem v f inb w L y y rfl (fun a => by simp)

/-- A store of tile `j` into the running column minima held at `cv` leaves `cv` with that tile replaced. -/
theorem read_tile_store {sig : RefSig} {κ : Kind} {sp : Space} (v : View sig κ sp S1x4096 .f32) (f : v.ty.Contents (Elt F))
    (cv : Vec F S1x4096 .f32) (hf : v.read (Elt F) f = cv) (i : grid0.Coords)
    (inb : ∀ a, (k0_off1 i) a + S1x1024.size a ≤ S1x4096.size a) (w : Vec F S1x1024 .f32) :
    v.read (Elt F) (v.writes (Elt F) f [(⟨Rect.unit (s := S1x4096) (k0_off1 i) S1x1024.size inb, w⟩ : View.Piece (Elt F) S1x4096 .f32)])
      = setTile cv i w := by
  funext y
  rw [View.read_writes_cons_unit v f inb w [] y rfl]
  unfold setTile
  simp only [View.writes_nil, hf]

/-- A load of exactly the rectangle the newest store wrote reads that store's payload. -/
theorem readCov_same {sig : RefSig} {κ : Kind} {sp : Space} {S : Shape} {e : EltTy} {Val : EltTy → Type}
    [∀ e, Nonempty (Val e)] (v : View sig κ sp S e) (r : Rect S) (w : r.shape.Idx → Val e)
    (L : List (View.Piece Val S e)) :
    v.readCov ((⟨r, w⟩ : View.Piece Val S e) :: L) r.toLoadRect = w := by
  rw [View.readCov_eq_canon v _ r.toLoadRect (fun j => ⟨⟨r, w⟩, List.mem_cons_self .., r.idx_mem j⟩)]
  funext j
  exact View.canon_cons_emb r w L j

/-! ## The state and the six kinds of point -/

/-- What the kernel holds between points. -/
structure St (F : FTy → Type) [FloatOps F] where
  o : Vec F S1x8x128 .f32
  p : Vec F S2048x1 .f32
  cv : Vec F S1x4096 .f32
  xb : Vec F S2048x128 .bf16
  q : Vec F S2048x1 .f32

/-- (0, 0): reset the output block, narrow the tile, start both running minima. -/
def stepA (i : grid0.Coords) (x0 : Vec F S1x2048x128 .f32) (y0 : Vec F S1x1024x128 .f32) (s : St F) : St F where
  o := k0_pay6
  p := k0_pay13 (k0_pay8 x0) (k0_pay9 x0) y0
  cv := setTile s.cv i (k0_pay3 (k0_pay12 (k0_pay8 x0) (k0_pay9 x0) y0))
  xb := k0_pay8 x0
  q := k0_pay9 x0

/-- (0, 1..2): lower the row minima, start tile j of the column minima. -/
def stepB (i : grid0.Coords) (y0 : Vec F S1x1024x128 .f32) (s : St F) : St F where
  o := s.o
  p := k0_pay1 (k0_pay11 s.xb s.q y0) s.p
  cv := setTile s.cv i (k0_pay3 (k0_pay12 s.xb s.q y0))
  xb := s.xb
  q := s.q

/-- (0, 3): as (0, 1..2), and the completed row minima's share is added. -/
def stepC (i : grid0.Coords) (y0 : Vec F S1x1024x128 .f32) (s : St F) : St F where
  o := k0_pay2 (k0_pay1 (k0_pay11 s.xb s.q y0) s.p) s.o
  p := k0_pay1 (k0_pay11 s.xb s.q y0) s.p
  cv := setTile s.cv i (k0_pay3 (k0_pay12 s.xb s.q y0))
  xb := s.xb
  q := s.q

/-- (1, 0): narrow the tile, start the row minima, lower tile 0 of the column minima and add its share. -/
def stepD (i : grid0.Coords) (x0 : Vec F S1x2048x128 .f32) (y0 : Vec F S1x1024x128 .f32) (s : St F) : St F where
  o := k0_pay5 (k0_pay4 (k0_pay12 (k0_pay8 x0) (k0_pay9 x0) y0) (getTile s.cv i)) s.o
  p := k0_pay13 (k0_pay8 x0) (k0_pay9 x0) y0
  cv := setTile s.cv i (k0_pay4 (k0_pay12 (k0_pay8 x0) (k0_pay9 x0) y0) (getTile s.cv i))
  xb := k0_pay8 x0
  q := k0_pay9 x0

/-- (1, 1..2): lower both running minima, add tile j's share of the column side. -/
def stepE (i : grid0.Coords) (y0 : Vec F S1x1024x128 .f32) (s : St F) : St F where
  o := k0_pay5 (k0_pay4 (k0_pay12 s.xb s.q y0) (getTile s.cv i)) s.o
  p := k0_pay1 (k0_pay11 s.xb s.q y0) s.p
  cv := setTile s.cv i (k0_pay4 (k0_pay12 s.xb s.q y0) (getTile s.cv i))
  xb := s.xb
  q := s.q

/-- (1, 3): as (1, 1..2), the completed row minima's share added first. -/
def stepG (i : grid0.Coords) (y0 : Vec F S1x1024x128 .f32) (s : St F) : St F where
  o := k0_pay5 (k0_pay4 (k0_pay12 s.xb s.q y0) (getTile s.cv i)) (k0_pay2 (k0_pay1 (k0_pay11 s.xb s.q y0) s.p) s.o)
  p := k0_pay1 (k0_pay11 s.xb s.q y0) s.p
  cv := setTile s.cv i (k0_pay4 (k0_pay12 s.xb s.q y0) (getTile s.cv i))
  xb := s.xb
  q := s.q

end Cert.KernelIdeal.Hand

end
-- ==== Proof.KICases.lean ====
/-
  Which kind of point each of the 64 grid points is. The points are visited in the order of
  t = 8 b + 4 i + j, so i and j are read off t mod 8 and t mod 4. Every fact here is decided over the 64 points.
-/
import proofs.«155424_j67413806678291_2_alg».proof.Proof.KIModel

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions in closed form -/

theorem hFirst : ∀ t : Fin cfg0.N, cFirst (grid0.coords t) ↔ t.val % 8 = 0 :=
  (by decide +kernel : ∀ t : Fin grid0.N, cFirst (grid0.coords t) ↔ t.val % 8 = 0)
theorem hJ0 : ∀ t : Fin cfg0.N, cJ0 (grid0.coords t) ↔ t.val % 4 = 0 :=
  (by decide +kernel : ∀ t : Fin grid0.N, cJ0 (grid0.coords t) ↔ t.val % 4 = 0)
theorem hJpos : ∀ t : Fin cfg0.N, cJpos (grid0.coords t) ↔ t.val % 4 ≠ 0 :=
  (by decide +kernel : ∀ t : Fin grid0.N, cJpos (grid0.coords t) ↔ t.val % 4 ≠ 0)
theorem hJlast : ∀ t : Fin cfg0.N, cJlast (grid0.coords t) ↔ t.val % 4 = 3 :=
  (by decide +kernel : ∀ t : Fin grid0.N, cJlast (grid0.coords t) ↔ t.val % 4 = 3)
theorem hI0 : ∀ t : Fin cfg0.N, cI0 (grid0.coords t) ↔ t.val % 8 < 4 :=
  (by decide +kernel : ∀ t : Fin grid0.N, cI0 (grid0.coords t) ↔ t.val % 8 < 4)
theorem hIpos : ∀ t : Fin cfg0.N, cIpos (grid0.coords t) ↔ 4 ≤ t.val % 8 :=
  (by decide +kernel : ∀ t : Fin grid0.N, cIpos (grid0.coords t) ↔ 4 ≤ t.val % 8)
theorem hIlast : ∀ t : Fin cfg0.N, cIlast (grid0.coords t) ↔ 4 ≤ t.val % 8 :=
  (by decide +kernel : ∀ t : Fin grid0.N, cIlast (grid0.coords t) ↔ 4 ≤ t.val % 8)

/-! ## Where the windows are idle, and the tile a point touches -/

/-- The two inputs are never idle. -/
theorem live0 : ∀ t : Fin cfg0.N, cfg0.idle 0 (grid0.coords t) = false := by decide +kernel
theorem live1 : ∀ t : Fin cfg0.N, cfg0.idle 1 (grid0.coords t) = false := by decide +kernel
/-- The output block is left alone exactly at the points (0, 1) and (0, 2) of a batch. -/
theorem idle2 : ∀ t : Fin cfg0.N, cfg0.idle 2 (grid0.coords t) = true ↔ (t.val % 8 = 1 ∨ t.val % 8 = 2) :=
  (by decide +kernel : ∀ t : Fin grid0.N, cfg0.idle 2 (grid0.coords t) = true ↔ (t.val % 8 = 1 ∨ t.val % 8 = 2))
/-- Tile j starts at column 1024 j. -/
theorem tileOff : ∀ t : Fin cfg0.N, k0_off1 (grid0.coords t) 0 = 0 ∧ k0_off1 (grid0.coords t) 1 = 1024 * (t.val % 4) :=
  (by decide +kernel : ∀ t : Fin grid0.N, k0_off1 (grid0.coords t) 0 = 0 ∧ k0_off1 (grid0.coords t) 1 = 1024 * (t.val % 4))

end Cert.KernelIdeal.Hand

end
-- ==== Proof.KIState.lean ====
/-
  The frame of the kernel program: the region's 64 points run to the end, and what the kernel holds after each
  point is named.

  `mdl n` is what the kernel holds after `n` points, by recursion: the kind of point `n` is read off `n mod 8` and
  applied to the two tiles the point is handed (read off the argument arrays, which the program never writes).
  The recursion starts from arbitrary contents, because nothing is known of the kernel's own buffers when the region
  is entered. The first point overwrites the output block, the running row minima, the narrowed tile and its norms
  whole, so after it they are known exactly. The running column minima are only overwritten one tile of 1024 at a
  time, at the first four points: after `n` points the real buffer is only known to agree with `mdl n` on the columns
  below `1024 n` — which from `n = 4` on is all of them.

  The invariant between points says exactly that; each kind of point re-establishes it; and the output block's
  staging buffer holds, before a point that is not the first of its batch, what the point before left (through the
  two points of a batch that leave it alone).
-/
import proofs.«155424_j67413806678291_2_alg».proof.Proof.KICases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the kernel holds after each point -/

/-- Arbitrary contents: what the kernel's own buffers hold when the region is entered is not known. -/
def junkSt : St F where
  o := (Memref.whole cc0_stg2_0 : Memref sig .tc .vmem S1x8x128 .f32).view.read (Elt F) (Memref.whole cc0_stg2_0 : Memref sig .tc .vmem S1x8x128 .f32).view.junk
  p := scP.view.read (Elt F) scP.view.junk
  cv := scC.view.read (Elt F) scC.view.junk
  xb := scB.view.read (Elt F) scB.view.junk
  q := scQ.view.read (Elt F) scQ.view.junk

/-- What the kernel holds after `n` points. -/
def mdl (c : Dev nD) : (n : ℕ) → n ≤ cfg0.N → St F
  | 0, _ => junkSt
  | n + 1, hn =>
    if n % 8 = 0 then stepA (grid0.coords ⟨n, hn⟩) (iblk m c 0 ⟨n, hn⟩) (iblk m c 1 ⟨n, hn⟩) (mdl c n (Nat.le_of_lt hn))
    else if n % 8 = 1 ∨ n % 8 = 2 then stepB (grid0.coords ⟨n, hn⟩) (iblk m c 1 ⟨n, hn⟩) (mdl c n (Nat.le_of_lt hn))
    else if n % 8 = 3 then stepC (grid0.coords ⟨n, hn⟩) (iblk m c 1 ⟨n, hn⟩) (mdl c n (Nat.le_of_lt hn))
    else if n % 8 = 4 then stepD (grid0.coords ⟨n, hn⟩) (iblk m c 0 ⟨n, hn⟩) (iblk m c 1 ⟨n, hn⟩) (mdl c n (Nat.le_of_lt hn))
    else if n % 8 = 7 then stepG (grid0.coords ⟨n, hn⟩) (iblk m c 1 ⟨n, hn⟩) (mdl c n (Nat.le_of_lt hn))
    else stepE (grid0.coords ⟨n, hn⟩) (iblk m c 1 ⟨n, hn⟩) (mdl c n (Nat.le_of_lt hn))

theorem mdl_A (c : Dev nD) (t : Fin cfg0.N) (h : t.val % 8 = 0) :
    mdl m c (t.val + 1) t.isLt = stepA (grid0.coords t) (iblk m c 0 t) (iblk m c 1 t) (mdl m c t.val (Nat.le_of_lt t.isLt)) := by
  obtain ⟨n, hn⟩ := t; exact if_pos h
theorem mdl_B (c : Dev nD) (t : Fin cfg0.N) (h : t.val % 8 = 1 ∨ t.val % 8 = 2) :
    mdl m c (t.val + 1) t.isLt = stepB (grid0.coords t) (iblk m c 1 t) (mdl m c t.val (Nat.le_of_lt t.isLt)) := by
  obtain ⟨n, hn⟩ := t
  replace h : n % 8 = 1 ∨ n % 8 = 2 := h
  have e : ((⟨n, hn⟩ : Fin cfg0.N) : ℕ) = n := rfl
  exact (if_neg (by omega)).trans (if_pos h)
theorem mdl_C (c : Dev nD) (t : Fin cfg0.N) (h : t.val % 8 = 3) :
    mdl m c (t.val + 1) t.isLt = stepC (grid0.coords t) (iblk m c 1 t) (mdl m c t.val (Nat.le_of_lt t.isLt)) := by
  obtain ⟨n, hn⟩ := t
  replace h : n % 8 = 3 := h
  have e : ((⟨n, hn⟩ : Fin cfg0.N) : ℕ) = n := rfl
  exact (if_neg (by omega)).trans ((if_neg (by omega)).trans (if_pos h))
theorem mdl_D (c : Dev nD) (t : Fin cfg0.N) (h : t.val % 8 = 4) :
    mdl m c (t.val + 1) t.isLt = stepD (grid0.coords t) (iblk m c 0 t) (iblk m c 1 t) (mdl m c t.val (Nat.le_of_lt t.isLt)) := by
  obtain ⟨n, hn⟩ := t
  replace h : n % 8 = 4 := h
  have e : ((⟨n, hn⟩ : Fin cfg0.N) : ℕ) = n := rfl
  exact (if_neg (by omega)).trans ((if_neg (by omega)).trans
    ((if_neg (by omega)).trans (if_pos h)))
theorem mdl_G (c : Dev nD) (t : Fin cfg0.N) (h : t.val % 8 = 7) :
    mdl m c (t.val + 1) t.isLt = stepG (grid0.coords t) (iblk m c 1 t) (mdl m c t.val (Nat.le_of_lt t.isLt)) := by
  obtain ⟨n, hn⟩ := t
  replace h : n % 8 = 7 := h
  have e : ((⟨n, hn⟩ : Fin cfg0.N) : ℕ) = n := rfl
  exact (if_neg (by omega)).trans ((if_neg (by omega)).trans
    ((if_neg (by omega)).trans ((if_neg (by omega)).trans (if_pos h))))
theorem mdl_E (c : Dev nD) (t : Fin cfg0.N) (h : t.val % 8 = 5 ∨ t.val % 8 = 6) :
    mdl m c (t.val + 1) t.isLt = stepE (grid0.coords t) (iblk m c 1 t) (mdl m c t.val (Nat.le_of_lt t.isLt)) := by
  obtain ⟨n, hn⟩ := t
  replace h : n % 8 = 5 ∨ n % 8 = 6 := h
  have e : ((⟨n, hn⟩ : Fin cfg0.N) : ℕ) = n := rfl
  exact (if_neg (by omega)).trans ((if_neg (by omega)).trans
    ((if_neg (by omega)).trans ((if_neg (by omega)).trans (if_neg (by omega)))))

/-! ## Agreement of the running column minima on the columns written so far -/

/-- The two arrays agree on every column below `1024 k`. -/
def AgreeUpTo (k : ℕ) (cv cv' : Vec F S1x4096 .f32) : Prop :=
  ∀ y : S1x4096.Idx, (y 1).val < 1024 * k → cv y = cv' y

/-- Nothing is asked before the first point. -/
theorem agree_zero (cv cv' : Vec F S1x4096 .f32) : AgreeUpTo 0 cv cv' := fun y h => absurd h (by omega)

/-- From four points on, the columns below `1024 k` are all 4096 of them. -/
theorem agree_all {k : ℕ} (hk : 4 ≤ k) {cv cv' : Vec F S1x4096 .f32} (h : AgreeUpTo k cv cv') : cv = cv' :=
  funext fun y => h y (by have : (y 1).val < 4096 := (y 1).isLt; omega)

/-- Storing one payload into the tile of point `t` of both keeps the agreement and extends it by that tile: among the
    first four points the tile of point `t` is columns `1024 t … 1024 t + 1023`. -/
theorem agree_step (t : Fin cfg0.N) {cv cv' : Vec F S1x4096 .f32} (w : Vec F S1x1024 .f32)
    (h : AgreeUpTo t.val cv cv') :
    AgreeUpTo (t.val + 1) (setTile cv (grid0.coords t) w) (setTile cv' (grid0.coords t) w) := by
  intro y hy
  unfold setTile
  by_cases hin : ∀ a, k0_off1 (grid0.coords t) a ≤ (y a).val ∧ (y a).val < k0_off1 (grid0.coords t) a + S1x1024.size a
  · rw [dif_pos hin, dif_pos hin]
  · rw [dif_neg hin, dif_neg hin]
    refine h y ?_
    obtain ⟨h0, h1⟩ := tileOff t
    have hy1 : (y 1).val < 4096 := (y 1).isLt
    have hy0 : (y 0).val < 1 := (y 0).isLt
    by_contra hlt
    apply hin
    intro a
    fin_cases a
    · show k0_off1 (grid0.coords t) 0 ≤ (y 0).val ∧ (y 0).val < k0_off1 (grid0.coords t) 0 + 1
      rw [h0]; omega
    · show k0_off1 (grid0.coords t) 1 ≤ (y 1).val ∧ (y 1).val < k0_off1 (grid0.coords t) 1 + 1024
      rw [h1]; omega

end Cert.KernelIdeal.Hand

end
-- ==== Proof.KIRunA.lean ====
/-
  The body at the first point of a batch (i = 0, j = 0).
-/
import proofs.«155424_j67413806678291_2_alg».proof.Proof.KIModel

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs holding the first cloud's tile `x0`, the second cloud's tile `y0`, and the state `o, p, cv, xb, q`
    the kernel holds between points, the body runs to its end holding the two tiles as they were and the state this
    kind of point leaves. -/
theorem runA (c : Dev nD) (i : grid0.Coords)
    (arg3 : Memref sig .tc .vmem S1x2048x128 .f32) (harg3 : arg3.IsWhole) (arg4 : Memref sig .tc .vmem S1x1024x128 .f32) (harg4 : arg4.IsWhole)
    (arg5 : Memref sig .tc .vmem S1x8x128 .f32) (harg5 : arg5.IsWhole) (arg6 : Memref sig .tc .vmem S2048x1 .f32) (harg6 : arg6.IsWhole)
    (arg7 : Memref sig .tc .vmem S1x4096 .f32) (harg7 : arg7.IsWhole) (arg8 : Memref sig .tc .vmem S2048x128 .bf16) (harg8 : arg8.IsWhole)
    (arg9 : Memref sig .tc .vmem S2048x1 .f32) (harg9 : arg9.IsWhole)
    (h1 : cFirst i) (h2 : cJ0 i) (h4 : ¬cJpos i) (h5 : ¬cJlast i) (h6 : cI0 i) (h7 : ¬cIpos i) (h8 : ¬cIlast i)
    (x0 : Vec F S1x2048x128 .f32) (y0 : Vec F S1x1024x128 .f32) (o : Vec F S1x8x128 .f32) (p : Vec F S2048x1 .f32)
    (cv : Vec F S1x4096 .f32) (xb : Vec F S2048x128 .bf16) (q : Vec F S2048x1 .f32)
    (E : Set ℕ) (K : PUnit → sProp 𝕄) :
    iprop(owns (c : Thread nD τ) arg3 fullShare x0 ∗ owns (c : Thread nD τ) arg4 fullShare y0
        ∗ owns (c : Thread nD τ) arg5 fullShare o ∗ owns (c : Thread nD τ) arg6 fullShare p
        ∗ owns (c : Thread nD τ) arg7 fullShare cv ∗ owns (c : Thread nD τ) arg8 fullShare xb
        ∗ owns (c : Thread nD τ) arg9 fullShare q
        ∗ (iprop(owns (c : Thread nD τ) arg3 fullShare x0 ∗ owns (c : Thread nD τ) arg4 fullShare y0
            ∗ owns (c : Thread nD τ) arg5 fullShare (stepA i x0 y0 ⟨o, p, cv, xb, q⟩).o ∗ owns (c : Thread nD τ) arg6 fullShare (stepA i x0 y0 ⟨o, p, cv, xb, q⟩).p
            ∗ owns (c : Thread nD τ) arg7 fullShare (stepA i x0 y0 ⟨o, p, cv, xb, q⟩).cv ∗ owns (c : Thread nD τ) arg8 fullShare (stepA i x0 y0 ⟨o, p, cv, xb, q⟩).xb
            ∗ owns (c : Thread nD τ) arg9 fullShare (stepA i x0 y0 ⟨o, p, cv, xb, q⟩).q) -∗ K ⟨⟩))
      ⊢ wp frame (wpE (defs₀ (F := F)) Variants.none c none) E
          (cc0__chamfer_kernel i arg3 harg3 arg4 harg4 arg5 harg5 arg6 harg6 arg7 harg7 arg8 harg8 arg9 harg9) K := by
  simp only [cc0__chamfer_kernel_eq_skeleton]; unfold cc0__chamfer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h4 | exact h5 | exact h6 | exact h7 | exact h8)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    show _ = (stepA i x0 y0 ⟨o, p, cv, xb, q⟩).o
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepA, getTile, off2_eq, off3_eq]
  isplitl [H6]
  · iexists _; isplitr; swap; · iexact H6
    ipureintro
    show _ = (stepA i x0 y0 ⟨o, p, cv, xb, q⟩).p
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepA, getTile, off2_eq, off3_eq]
  isplitl [H7]
  · iexists _; isplitr; swap; · iexact H7
    ipureintro
    show _ = (stepA i x0 y0 ⟨o, p, cv, xb, q⟩).cv
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepA, getTile, off2_eq, off3_eq]
  isplitl [H8]
  · iexists _; isplitr; swap; · iexact H8
    ipureintro
    show _ = (stepA i x0 y0 ⟨o, p, cv, xb, q⟩).xb
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepA, getTile, off2_eq, off3_eq]
  iexists _; isplitr; swap; · iexact H9
  ipureintro
  show _ = (stepA i x0 y0 ⟨o, p, cv, xb, q⟩).q
  sl_unfold_run_names
  simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
  simp only [stepA, getTile, off2_eq, off3_eq]

end Cert.KernelIdeal.Hand

end
-- ==== Proof.KIRunB.lean ====
/-
  The body at the points (0, 1) and (0, 2) of a batch.
-/
import proofs.«155424_j67413806678291_2_alg».proof.Proof.KIModel

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs holding the first cloud's tile `x0`, the second cloud's tile `y0`, and the state `o, p, cv, xb, q`
    the kernel holds between points, the body runs to its end holding the two tiles as they were and the state this
    kind of point leaves. -/
theorem runB (c : Dev nD) (i : grid0.Coords)
    (arg3 : Memref sig .tc .vmem S1x2048x128 .f32) (harg3 : arg3.IsWhole) (arg4 : Memref sig .tc .vmem S1x1024x128 .f32) (harg4 : arg4.IsWhole)
    (arg5 : Memref sig .tc .vmem S1x8x128 .f32) (harg5 : arg5.IsWhole) (arg6 : Memref sig .tc .vmem S2048x1 .f32) (harg6 : arg6.IsWhole)
    (arg7 : Memref sig .tc .vmem S1x4096 .f32) (harg7 : arg7.IsWhole) (arg8 : Memref sig .tc .vmem S2048x128 .bf16) (harg8 : arg8.IsWhole)
    (arg9 : Memref sig .tc .vmem S2048x1 .f32) (harg9 : arg9.IsWhole)
    (h1 : ¬cFirst i) (h2 : ¬cJ0 i) (h4 : cJpos i) (h5 : ¬cJlast i) (h6 : cI0 i) (h7 : ¬cIpos i) (h8 : ¬cIlast i)
    (x0 : Vec F S1x2048x128 .f32) (y0 : Vec F S1x1024x128 .f32) (o : Vec F S1x8x128 .f32) (p : Vec F S2048x1 .f32)
    (cv : Vec F S1x4096 .f32) (xb : Vec F S2048x128 .bf16) (q : Vec F S2048x1 .f32)
    (E : Set ℕ) (K : PUnit → sProp 𝕄) :
    iprop(owns (c : Thread nD τ) arg3 fullShare x0 ∗ owns (c : Thread nD τ) arg4 fullShare y0
        ∗ owns (c : Thread nD τ) arg5 fullShare o ∗ owns (c : Thread nD τ) arg6 fullShare p
        ∗ owns (c : Thread nD τ) arg7 fullShare cv ∗ owns (c : Thread nD τ) arg8 fullShare xb
        ∗ owns (c : Thread nD τ) arg9 fullShare q
        ∗ (iprop(owns (c : Thread nD τ) arg3 fullShare x0 ∗ owns (c : Thread nD τ) arg4 fullShare y0
            ∗ owns (c : Thread nD τ) arg5 fullShare (stepB i y0 ⟨o, p, cv, xb, q⟩).o ∗ owns (c : Thread nD τ) arg6 fullShare (stepB i y0 ⟨o, p, cv, xb, q⟩).p
            ∗ owns (c : Thread nD τ) arg7 fullShare (stepB i y0 ⟨o, p, cv, xb, q⟩).cv ∗ owns (c : Thread nD τ) arg8 fullShare (stepB i y0 ⟨o, p, cv, xb, q⟩).xb
            ∗ owns (c : Thread nD τ) arg9 fullShare (stepB i y0 ⟨o, p, cv, xb, q⟩).q) -∗ K ⟨⟩))
      ⊢ wp frame (wpE (defs₀ (F := F)) Variants.none c none) E
          (cc0__chamfer_kernel i arg3 harg3 arg4 harg4 arg5 harg5 arg6 harg6 arg7 harg7 arg8 harg8 arg9 harg9) K := by
  simp only [cc0__chamfer_kernel_eq_skeleton]; unfold cc0__chamfer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h4 | exact h5 | exact h6 | exact h7 | exact h8)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    show _ = (stepB i y0 ⟨o, p, cv, xb, q⟩).o
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepB, getTile, off2_eq, off3_eq]
  isplitl [H6]
  · iexists _; isplitr; swap; · iexact H6
    ipureintro
    show _ = (stepB i y0 ⟨o, p, cv, xb, q⟩).p
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepB, getTile, off2_eq, off3_eq]
  isplitl [H7]
  · iexists _; isplitr; swap; · iexact H7
    ipureintro
    show _ = (stepB i y0 ⟨o, p, cv, xb, q⟩).cv
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepB, getTile, off2_eq, off3_eq]
  isplitl [H8]
  · iexists _; isplitr; swap; · iexact H8
    ipureintro
    show _ = (stepB i y0 ⟨o, p, cv, xb, q⟩).xb
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepB, getTile, off2_eq, off3_eq]
  iexists _; isplitr; swap; · iexact H9
  ipureintro
  show _ = (stepB i y0 ⟨o, p, cv, xb, q⟩).q
  sl_unfold_run_names
  simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
  simp only [stepB, getTile, off2_eq, off3_eq]

end Cert.KernelIdeal.Hand

end
-- ==== Proof.KIRunC.lean ====
/-
  The body at the point (0, 3) of a batch.
-/
import proofs.«155424_j67413806678291_2_alg».proof.Proof.KIModel

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs holding the first cloud's tile `x0`, the second cloud's tile `y0`, and the state `o, p, cv, xb, q`
    the kernel holds between points, the body runs to its end holding the two tiles as they were and the state this
    kind of point leaves. -/
theorem runC (c : Dev nD) (i : grid0.Coords)
    (arg3 : Memref sig .tc .vmem S1x2048x128 .f32) (harg3 : arg3.IsWhole) (arg4 : Memref sig .tc .vmem S1x1024x128 .f32) (harg4 : arg4.IsWhole)
    (arg5 : Memref sig .tc .vmem S1x8x128 .f32) (harg5 : arg5.IsWhole) (arg6 : Memref sig .tc .vmem S2048x1 .f32) (harg6 : arg6.IsWhole)
    (arg7 : Memref sig .tc .vmem S1x4096 .f32) (harg7 : arg7.IsWhole) (arg8 : Memref sig .tc .vmem S2048x128 .bf16) (harg8 : arg8.IsWhole)
    (arg9 : Memref sig .tc .vmem S2048x1 .f32) (harg9 : arg9.IsWhole)
    (h1 : ¬cFirst i) (h2 : ¬cJ0 i) (h4 : cJpos i) (h5 : cJlast i) (h6 : cI0 i) (h7 : ¬cIpos i) (h8 : ¬cIlast i)
    (x0 : Vec F S1x2048x128 .f32) (y0 : Vec F S1x1024x128 .f32) (o : Vec F S1x8x128 .f32) (p : Vec F S2048x1 .f32)
    (cv : Vec F S1x4096 .f32) (xb : Vec F S2048x128 .bf16) (q : Vec F S2048x1 .f32)
    (E : Set ℕ) (K : PUnit → sProp 𝕄) :
    iprop(owns (c : Thread nD τ) arg3 fullShare x0 ∗ owns (c : Thread nD τ) arg4 fullShare y0
        ∗ owns (c : Thread nD τ) arg5 fullShare o ∗ owns (c : Thread nD τ) arg6 fullShare p
        ∗ owns (c : Thread nD τ) arg7 fullShare cv ∗ owns (c : Thread nD τ) arg8 fullShare xb
        ∗ owns (c : Thread nD τ) arg9 fullShare q
        ∗ (iprop(owns (c : Thread nD τ) arg3 fullShare x0 ∗ owns (c : Thread nD τ) arg4 fullShare y0
            ∗ owns (c : Thread nD τ) arg5 fullShare (stepC i y0 ⟨o, p, cv, xb, q⟩).o ∗ owns (c : Thread nD τ) arg6 fullShare (stepC i y0 ⟨o, p, cv, xb, q⟩).p
            ∗ owns (c : Thread nD τ) arg7 fullShare (stepC i y0 ⟨o, p, cv, xb, q⟩).cv ∗ owns (c : Thread nD τ) arg8 fullShare (stepC i y0 ⟨o, p, cv, xb, q⟩).xb
            ∗ owns (c : Thread nD τ) arg9 fullShare (stepC i y0 ⟨o, p, cv, xb, q⟩).q) -∗ K ⟨⟩))
      ⊢ wp frame (wpE (defs₀ (F := F)) Variants.none c none) E
          (cc0__chamfer_kernel i arg3 harg3 arg4 harg4 arg5 harg5 arg6 harg6 arg7 harg7 arg8 harg8 arg9 harg9) K := by
  simp only [cc0__chamfer_kernel_eq_skeleton]; unfold cc0__chamfer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h4 | exact h5 | exact h6 | exact h7 | exact h8)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    show _ = (stepC i y0 ⟨o, p, cv, xb, q⟩).o
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepC, getTile, off2_eq, off3_eq, read_tile_store arg7.view (harg7.unread cv) cv (harg7.read_unread cv) i,
      readCov_same (S := S1x4096) arg7.view]
  isplitl [H6]
  · iexists _; isplitr; swap; · iexact H6
    ipureintro
    show _ = (stepC i y0 ⟨o, p, cv, xb, q⟩).p
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepC, getTile, off2_eq, off3_eq, read_tile_store arg7.view (harg7.unread cv) cv (harg7.read_unread cv) i,
      readCov_same (S := S1x4096) arg7.view]
  isplitl [H7]
  · iexists _; isplitr; swap; · iexact H7
    ipureintro
    show _ = (stepC i y0 ⟨o, p, cv, xb, q⟩).cv
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepC, getTile, off2_eq, off3_eq, read_tile_store arg7.view (harg7.unread cv) cv (harg7.read_unread cv) i,
      readCov_same (S := S1x4096) arg7.view]
  isplitl [H8]
  · iexists _; isplitr; swap; · iexact H8
    ipureintro
    show _ = (stepC i y0 ⟨o, p, cv, xb, q⟩).xb
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepC, getTile, off2_eq, off3_eq, read_tile_store arg7.view (harg7.unread cv) cv (harg7.read_unread cv) i,
      readCov_same (S := S1x4096) arg7.view]
  iexists _; isplitr; swap; · iexact H9
  ipureintro
  show _ = (stepC i y0 ⟨o, p, cv, xb, q⟩).q
  sl_unfold_run_names
  simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
  simp only [stepC, getTile, off2_eq, off3_eq, read_tile_store arg7.view (harg7.unread cv) cv (harg7.read_unread cv) i,
      readCov_same (S := S1x4096) arg7.view]

end Cert.KernelIdeal.Hand

end
-- ==== Proof.KIRunD.lean ====
/-
  The body at the point (1, 0) of a batch.
-/
import proofs.«155424_j67413806678291_2_alg».proof.Proof.KIModel

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs holding the first cloud's tile `x0`, the second cloud's tile `y0`, and the state `o, p, cv, xb, q`
    the kernel holds between points, the body runs to its end holding the two tiles as they were and the state this
    kind of point leaves. -/
theorem runD (c : Dev nD) (i : grid0.Coords)
    (arg3 : Memref sig .tc .vmem S1x2048x128 .f32) (harg3 : arg3.IsWhole) (arg4 : Memref sig .tc .vmem S1x1024x128 .f32) (harg4 : arg4.IsWhole)
    (arg5 : Memref sig .tc .vmem S1x8x128 .f32) (harg5 : arg5.IsWhole) (arg6 : Memref sig .tc .vmem S2048x1 .f32) (harg6 : arg6.IsWhole)
    (arg7 : Memref sig .tc .vmem S1x4096 .f32) (harg7 : arg7.IsWhole) (arg8 : Memref sig .tc .vmem S2048x128 .bf16) (harg8 : arg8.IsWhole)
    (arg9 : Memref sig .tc .vmem S2048x1 .f32) (harg9 : arg9.IsWhole)
    (h1 : ¬cFirst i) (h2 : cJ0 i) (h4 : ¬cJpos i) (h5 : ¬cJlast i) (h6 : ¬cI0 i) (h7 : cIpos i) (h8 : cIlast i)
    (x0 : Vec F S1x2048x128 .f32) (y0 : Vec F S1x1024x128 .f32) (o : Vec F S1x8x128 .f32) (p : Vec F S2048x1 .f32)
    (cv : Vec F S1x4096 .f32) (xb : Vec F S2048x128 .bf16) (q : Vec F S2048x1 .f32)
    (E : Set ℕ) (K : PUnit → sProp 𝕄) :
    iprop(owns (c : Thread nD τ) arg3 fullShare x0 ∗ owns (c : Thread nD τ) arg4 fullShare y0
        ∗ owns (c : Thread nD τ) arg5 fullShare o ∗ owns (c : Thread nD τ) arg6 fullShare p
        ∗ owns (c : Thread nD τ) arg7 fullShare cv ∗ owns (c : Thread nD τ) arg8 fullShare xb
        ∗ owns (c : Thread nD τ) arg9 fullShare q
        ∗ (iprop(owns (c : Thread nD τ) arg3 fullShare x0 ∗ owns (c : Thread nD τ) arg4 fullShare y0
            ∗ owns (c : Thread nD τ) arg5 fullShare (stepD i x0 y0 ⟨o, p, cv, xb, q⟩).o ∗ owns (c : Thread nD τ) arg6 fullShare (stepD i x0 y0 ⟨o, p, cv, xb, q⟩).p
            ∗ owns (c : Thread nD τ) arg7 fullShare (stepD i x0 y0 ⟨o, p, cv, xb, q⟩).cv ∗ owns (c : Thread nD τ) arg8 fullShare (stepD i x0 y0 ⟨o, p, cv, xb, q⟩).xb
            ∗ owns (c : Thread nD τ) arg9 fullShare (stepD i x0 y0 ⟨o, p, cv, xb, q⟩).q) -∗ K ⟨⟩))
      ⊢ wp frame (wpE (defs₀ (F := F)) Variants.none c none) E
          (cc0__chamfer_kernel i arg3 harg3 arg4 harg4 arg5 harg5 arg6 harg6 arg7 harg7 arg8 harg8 arg9 harg9) K := by
  simp only [cc0__chamfer_kernel_eq_skeleton]; unfold cc0__chamfer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h4 | exact h5 | exact h6 | exact h7 | exact h8)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    show _ = (stepD i x0 y0 ⟨o, p, cv, xb, q⟩).o
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepD, getTile, off2_eq, off3_eq, read_tile_store arg7.view (harg7.unread cv) cv (harg7.read_unread cv) i,
      readCov_same (S := S1x4096) arg7.view]
  isplitl [H6]
  · iexists _; isplitr; swap; · iexact H6
    ipureintro
    show _ = (stepD i x0 y0 ⟨o, p, cv, xb, q⟩).p
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepD, getTile, off2_eq, off3_eq, read_tile_store arg7.view (harg7.unread cv) cv (harg7.read_unread cv) i,
      readCov_same (S := S1x4096) arg7.view]
  isplitl [H7]
  · iexists _; isplitr; swap; · iexact H7
    ipureintro
    show _ = (stepD i x0 y0 ⟨o, p, cv, xb, q⟩).cv
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepD, getTile, off2_eq, off3_eq, read_tile_store arg7.view (harg7.unread cv) cv (harg7.read_unread cv) i,
      readCov_same (S := S1x4096) arg7.view]
    try exact read_tile_store arg7.view (harg7.unread cv) cv (harg7.read_unread cv) i _ _
  isplitl [H8]
  · iexists _; isplitr; swap; · iexact H8
    ipureintro
    show _ = (stepD i x0 y0 ⟨o, p, cv, xb, q⟩).xb
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepD, getTile, off2_eq, off3_eq, read_tile_store arg7.view (harg7.unread cv) cv (harg7.read_unread cv) i,
      readCov_same (S := S1x4096) arg7.view]
  iexists _; isplitr; swap; · iexact H9
  ipureintro
  show _ = (stepD i x0 y0 ⟨o, p, cv, xb, q⟩).q
  sl_unfold_run_names
  simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
  simp only [stepD, getTile, off2_eq, off3_eq, read_tile_store arg7.view (harg7.unread cv) cv (harg7.read_unread cv) i,
      readCov_same (S := S1x4096) arg7.view]

end Cert.KernelIdeal.Hand

end
-- ==== Proof.KIRunE.lean ====
/-
  The body at the points (1, 1) and (1, 2) of a batch.
-/
import proofs.«155424_j67413806678291_2_alg».proof.Proof.KIModel

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs holding the first cloud's tile `x0`, the second cloud's tile `y0`, and the state `o, p, cv, xb, q`
    the kernel holds between points, the body runs to its end holding the two tiles as they were and the state this
    kind of point leaves. -/
theorem runE (c : Dev nD) (i : grid0.Coords)
    (arg3 : Memref sig .tc .vmem S1x2048x128 .f32) (harg3 : arg3.IsWhole) (arg4 : Memref sig .tc .vmem S1x1024x128 .f32) (harg4 : arg4.IsWhole)
    (arg5 : Memref sig .tc .vmem S1x8x128 .f32) (harg5 : arg5.IsWhole) (arg6 : Memref sig .tc .vmem S2048x1 .f32) (harg6 : arg6.IsWhole)
    (arg7 : Memref sig .tc .vmem S1x4096 .f32) (harg7 : arg7.IsWhole) (arg8 : Memref sig .tc .vmem S2048x128 .bf16) (harg8 : arg8.IsWhole)
    (arg9 : Memref sig .tc .vmem S2048x1 .f32) (harg9 : arg9.IsWhole)
    (h1 : ¬cFirst i) (h2 : ¬cJ0 i) (h4 : cJpos i) (h5 : ¬cJlast i) (h6 : ¬cI0 i) (h7 : cIpos i) (h8 : cIlast i)
    (x0 : Vec F S1x2048x128 .f32) (y0 : Vec F S1x1024x128 .f32) (o : Vec F S1x8x128 .f32) (p : Vec F S2048x1 .f32)
    (cv : Vec F S1x4096 .f32) (xb : Vec F S2048x128 .bf16) (q : Vec F S2048x1 .f32)
    (E : Set ℕ) (K : PUnit → sProp 𝕄) :
    iprop(owns (c : Thread nD τ) arg3 fullShare x0 ∗ owns (c : Thread nD τ) arg4 fullShare y0
        ∗ owns (c : Thread nD τ) arg5 fullShare o ∗ owns (c : Thread nD τ) arg6 fullShare p
        ∗ owns (c : Thread nD τ) arg7 fullShare cv ∗ owns (c : Thread nD τ) arg8 fullShare xb
        ∗ owns (c : Thread nD τ) arg9 fullShare q
        ∗ (iprop(owns (c : Thread nD τ) arg3 fullShare x0 ∗ owns (c : Thread nD τ) arg4 fullShare y0
            ∗ owns (c : Thread nD τ) arg5 fullShare (stepE i y0 ⟨o, p, cv, xb, q⟩).o ∗ owns (c : Thread nD τ) arg6 fullShare (stepE i y0 ⟨o, p, cv, xb, q⟩).p
            ∗ owns (c : Thread nD τ) arg7 fullShare (stepE i y0 ⟨o, p, cv, xb, q⟩).cv ∗ owns (c : Thread nD τ) arg8 fullShare (stepE i y0 ⟨o, p, cv, xb, q⟩).xb
            ∗ owns (c : Thread nD τ) arg9 fullShare (stepE i y0 ⟨o, p, cv, xb, q⟩).q) -∗ K ⟨⟩))
      ⊢ wp frame (wpE (defs₀ (F := F)) Variants.none c none) E
          (cc0__chamfer_kernel i arg3 harg3 arg4 harg4 arg5 harg5 arg6 harg6 arg7 harg7 arg8 harg8 arg9 harg9) K := by
  simp only [cc0__chamfer_kernel_eq_skeleton]; unfold cc0__chamfer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h4 | exact h5 | exact h6 | exact h7 | exact h8)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    show _ = (stepE i y0 ⟨o, p, cv, xb, q⟩).o
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepE, getTile, off2_eq, off3_eq, read_tile_store arg7.view (harg7.unread cv) cv (harg7.read_unread cv) i,
      readCov_same (S := S1x4096) arg7.view]
  isplitl [H6]
  · iexists _; isplitr; swap; · iexact H6
    ipureintro
    show _ = (stepE i y0 ⟨o, p, cv, xb, q⟩).p
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepE, getTile, off2_eq, off3_eq, read_tile_store arg7.view (harg7.unread cv) cv (harg7.read_unread cv) i,
      readCov_same (S := S1x4096) arg7.view]
  isplitl [H7]
  · iexists _; isplitr; swap; · iexact H7
    ipureintro
    show _ = (stepE i y0 ⟨o, p, cv, xb, q⟩).cv
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepE, getTile, off2_eq, off3_eq, read_tile_store arg7.view (harg7.unread cv) cv (harg7.read_unread cv) i,
      readCov_same (S := S1x4096) arg7.view]
    try exact read_tile_store arg7.view (harg7.unread cv) cv (harg7.read_unread cv) i _ _
  isplitl [H8]
  · iexists _; isplitr; swap; · iexact H8
    ipureintro
    show _ = (stepE i y0 ⟨o, p, cv, xb, q⟩).xb
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepE, getTile, off2_eq, off3_eq, read_tile_store arg7.view (harg7.unread cv) cv (harg7.read_unread cv) i,
      readCov_same (S := S1x4096) arg7.view]
  iexists _; isplitr; swap; · iexact H9
  ipureintro
  show _ = (stepE i y0 ⟨o, p, cv, xb, q⟩).q
  sl_unfold_run_names
  simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
  simp only [stepE, getTile, off2_eq, off3_eq, read_tile_store arg7.view (harg7.unread cv) cv (harg7.read_unread cv) i,
      readCov_same (S := S1x4096) arg7.view]

end Cert.KernelIdeal.Hand

end
-- ==== Proof.KIRunG.lean ====
/-
  The body at the last point (1, 3) of a batch.
-/
import proofs.«155424_j67413806678291_2_alg».proof.Proof.KIModel

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs holding the first cloud's tile `x0`, the second cloud's tile `y0`, and the state `o, p, cv, xb, q`
    the kernel holds between points, the body runs to its end holding the two tiles as they were and the state this
    kind of point leaves. -/
theorem runG (c : Dev nD) (i : grid0.Coords)
    (arg3 : Memref sig .tc .vmem S1x2048x128 .f32) (harg3 : arg3.IsWhole) (arg4 : Memref sig .tc .vmem S1x1024x128 .f32) (harg4 : arg4.IsWhole)
    (arg5 : Memref sig .tc .vmem S1x8x128 .f32) (harg5 : arg5.IsWhole) (arg6 : Memref sig .tc .vmem S2048x1 .f32) (harg6 : arg6.IsWhole)
    (arg7 : Memref sig .tc .vmem S1x4096 .f32) (harg7 : arg7.IsWhole) (arg8 : Memref sig .tc .vmem S2048x128 .bf16) (harg8 : arg8.IsWhole)
    (arg9 : Memref sig .tc .vmem S2048x1 .f32) (harg9 : arg9.IsWhole)
    (h1 : ¬cFirst i) (h2 : ¬cJ0 i) (h4 : cJpos i) (h5 : cJlast i) (h6 : ¬cI0 i) (h7 : cIpos i) (h8 : cIlast i)
    (x0 : Vec F S1x2048x128 .f32) (y0 : Vec F S1x1024x128 .f32) (o : Vec F S1x8x128 .f32) (p : Vec F S2048x1 .f32)
    (cv : Vec F S1x4096 .f32) (xb : Vec F S2048x128 .bf16) (q : Vec F S2048x1 .f32)
    (E : Set ℕ) (K : PUnit → sProp 𝕄) :
    iprop(owns (c : Thread nD τ) arg3 fullShare x0 ∗ owns (c : Thread nD τ) arg4 fullShare y0
        ∗ owns (c : Thread nD τ) arg5 fullShare o ∗ owns (c : Thread nD τ) arg6 fullShare p
        ∗ owns (c : Thread nD τ) arg7 fullShare cv ∗ owns (c : Thread nD τ) arg8 fullShare xb
        ∗ owns (c : Thread nD τ) arg9 fullShare q
        ∗ (iprop(owns (c : Thread nD τ) arg3 fullShare x0 ∗ owns (c : Thread nD τ) arg4 fullShare y0
            ∗ owns (c : Thread nD τ) arg5 fullShare (stepG i y0 ⟨o, p, cv, xb, q⟩).o ∗ owns (c : Thread nD τ) arg6 fullShare (stepG i y0 ⟨o, p, cv, xb, q⟩).p
            ∗ owns (c : Thread nD τ) arg7 fullShare (stepG i y0 ⟨o, p, cv, xb, q⟩).cv ∗ owns (c : Thread nD τ) arg8 fullShare (stepG i y0 ⟨o, p, cv, xb, q⟩).xb
            ∗ owns (c : Thread nD τ) arg9 fullShare (stepG i y0 ⟨o, p, cv, xb, q⟩).q) -∗ K ⟨⟩))
      ⊢ wp frame (wpE (defs₀ (F := F)) Variants.none c none) E
          (cc0__chamfer_kernel i arg3 harg3 arg4 harg4 arg5 harg5 arg6 harg6 arg7 harg7 arg8 harg8 arg9 harg9) K := by
  simp only [cc0__chamfer_kernel_eq_skeleton]; unfold cc0__chamfer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h4 | exact h5 | exact h6 | exact h7 | exact h8)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    show _ = (stepG i y0 ⟨o, p, cv, xb, q⟩).o
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepG, getTile, off2_eq, off3_eq, read_tile_store arg7.view (harg7.unread cv) cv (harg7.read_unread cv) i,
      readCov_same (S := S1x4096) arg7.view]
  isplitl [H6]
  · iexists _; isplitr; swap; · iexact H6
    ipureintro
    show _ = (stepG i y0 ⟨o, p, cv, xb, q⟩).p
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepG, getTile, off2_eq, off3_eq, read_tile_store arg7.view (harg7.unread cv) cv (harg7.read_unread cv) i,
      readCov_same (S := S1x4096) arg7.view]
  isplitl [H7]
  · iexists _; isplitr; swap; · iexact H7
    ipureintro
    show _ = (stepG i y0 ⟨o, p, cv, xb, q⟩).cv
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepG, getTile, off2_eq, off3_eq, read_tile_store arg7.view (harg7.unread cv) cv (harg7.read_unread cv) i,
      readCov_same (S := S1x4096) arg7.view]
    try exact read_tile_store arg7.view (harg7.unread cv) cv (harg7.read_unread cv) i _ _
  isplitl [H8]
  · iexists _; isplitr; swap; · iexact H8
    ipureintro
    show _ = (stepG i y0 ⟨o, p, cv, xb, q⟩).xb
    sl_unfold_run_names
    simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
    simp only [stepG, getTile, off2_eq, off3_eq, read_tile_store arg7.view (harg7.unread cv) cv (harg7.read_unread cv) i,
      readCov_same (S := S1x4096) arg7.view]
  iexists _; isplitr; swap; · iexact H9
  ipureintro
  show _ = (stepG i y0 ⟨o, p, cv, xb, q⟩).q
  sl_unfold_run_names
  simp only [read_whole_store (S := S1x8x128) _ _ hz3, read_whole_store (S := S2048x1) _ _ hz2, read_whole_store (S := S2048x128) _ _ hz2,
      View.readCov_unit_zero (S := S1x8x128) _ hz3, View.readCov_unit_zero (S := S2048x1) _ hz2, View.readCov_unit_zero (S := S2048x128) _ hz2,
      View.readAt_eq_ld, harg3.read_unread, harg4.read_unread, harg5.read_unread, harg6.read_unread, harg7.read_unread,
      harg8.read_unread, harg9.read_unread,
      View.ld_unit_zero (S := S1x2048x128) hz3, View.ld_unit_zero (S := S1x1024x128) hz3, View.ld_unit_zero (S := S1x8x128) hz3,
      View.ld_unit_zero (S := S2048x1) hz2, View.ld_unit_zero (S := S2048x128) hz2,
      read_tile_store arg7.view (harg7.unread cv) cv (harg7.read_unread cv) i, View.writes_nil,
      off2_eq, off3_eq, readCov_same (S := S1x4096) arg7.view]
  simp only [stepG, getTile, off2_eq, off3_eq, read_tile_store arg7.view (harg7.unread cv) cv (harg7.read_unread cv) i,
      readCov_same (S := S1x4096) arg7.view]

end Cert.KernelIdeal.Hand

end
-- ==== Proof.KIFrame.lean ====
/-
  The frame of the kernel program. Between points the kernel's own buffers hold what `mdl` says (the running column
  minima only on the columns written so far); each of the six kinds of point re-establishes that; the output block's
  staging buffer holds, before a point that is not the first of its batch, what the point before left — through the
  two points of a batch that leave it alone —; and with that the library's launch theorem runs the 64 points and the
  six host lines after them, leaving the two argument arrays as they were.
-/
import proofs.«155424_j67413806678291_2_alg».proof.Proof.KIState
import proofs.«155424_j67413806678291_2_alg».proof.Proof.KIRunA
import proofs.«155424_j67413806678291_2_alg».proof.Proof.KIRunB
import proofs.«155424_j67413806678291_2_alg».proof.Proof.KIRunC
import proofs.«155424_j67413806678291_2_alg».proof.Proof.KIRunD
import proofs.«155424_j67413806678291_2_alg».proof.Proof.KIRunE
import proofs.«155424_j67413806678291_2_alg».proof.Proof.KIRunG

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- What the launch hands the region and takes back: the kernel's four buffers, each whole at some contents, and
    the generator register. -/
theorem PhiA_eq (c : Dev nD) :
    (Pipeline.ΦA spec0 c : sProp 𝕄)
      = iprop(iprop((∃ d, owns (c : Thread nD τ) scP fullShare d) ∗ (∃ d, owns (c : Thread nD τ) scC fullShare d)
          ∗ (∃ d, owns (c : Thread nD τ) scB fullShare d) ∗ (∃ d, owns (c : Thread nD τ) scQ fullShare d)) ∗ (∃ r, prngReg c r)) := by
  unfold Pipeline.ΦA; rw [scopedRest0_eq]; simp only [scP, scC, scB, scQ, owns_whole]; try rfl

/-- Before the first point nothing is known of the kernel's buffers; after `n ≥ 1` points three of them hold what
    `mdl n` says and the running column minima agree with it on the columns below `1024 n`. -/
def PhiS (c : Dev nD) : (n : ℕ) → n ≤ cfg0.N → sProp 𝕄
  | 0, _ => Pipeline.ΦA spec0 c
  | n + 1, hn => iprop(iprop(owns (c : Thread nD τ) scP fullShare (mdl m c (n + 1) hn).p
      ∗ (∃ cv, ⌜AgreeUpTo (n + 1) cv (mdl m c (n + 1) hn).cv⌝ ∗ owns (c : Thread nD τ) scC fullShare cv)
      ∗ owns (c : Thread nD τ) scB fullShare (mdl m c (n + 1) hn).xb
      ∗ owns (c : Thread nD τ) scQ fullShare (mdl m c (n + 1) hn).q) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scP fullShare (mdl m c (n + 1) hn).p
      ∗ (∃ cv, ⌜AgreeUpTo (n + 1) cv (mdl m c (n + 1) hn).cv⌝ ∗ owns (c : Thread nD τ) scC fullShare cv)
      ∗ owns (c : Thread nD τ) scB fullShare (mdl m c (n + 1) hn).xb
      ∗ owns (c : Thread nD τ) scQ fullShare (mdl m c (n + 1) hn).q) ∗ (∃ r, prngReg c r)) := rfl

theorem PhiS_pos (c : Dev nD) (n : ℕ) (h : n ≤ cfg0.N) (hz : n ≠ 0) :
    PhiS m c n h = iprop(iprop(owns (c : Thread nD τ) scP fullShare (mdl m c n h).p
      ∗ (∃ cv, ⌜AgreeUpTo n cv (mdl m c n h).cv⌝ ∗ owns (c : Thread nD τ) scC fullShare cv)
      ∗ owns (c : Thread nD τ) scB fullShare (mdl m c n h).xb
      ∗ owns (c : Thread nD τ) scQ fullShare (mdl m c n h).q) ∗ (∃ r, prngReg c r)) := by
  cases n with
  | zero => exact absurd rfl hz
  | succ n => rfl

/-- Either way the four buffers are held at SOME contents `p, cv, xb, q`, of which, after the first point, three are
    `mdl`'s and the fourth agrees with it on the columns written so far. -/
theorem Phi_open (c : Dev nD) (t : Fin cfg0.N) :
    PhiS m c t.val (Nat.le_of_lt t.isLt) ⊢
      iprop(∃ (p : Vec F S2048x1 .f32) (cv : Vec F S1x4096 .f32) (xb : Vec F S2048x128 .bf16) (q : Vec F S2048x1 .f32),
        ⌜(t.val ≠ 0 → p = (mdl m c t.val (Nat.le_of_lt t.isLt)).p ∧ xb = (mdl m c t.val (Nat.le_of_lt t.isLt)).xb
            ∧ q = (mdl m c t.val (Nat.le_of_lt t.isLt)).q)
          ∧ AgreeUpTo t.val cv (mdl m c t.val (Nat.le_of_lt t.isLt)).cv⌝
        ∗ owns (c : Thread nD τ) scP fullShare p ∗ owns (c : Thread nD τ) scC fullShare cv
        ∗ owns (c : Thread nD τ) scB fullShare xb ∗ owns (c : Thread nD τ) scQ fullShare q ∗ (∃ r, prngReg c r)) := by
  by_cases hz : t.val = 0
  · rw [PhiS_zero m c _ _ hz, PhiA_eq]
    iintro ⟨⟨⟨%p, HP⟩, ⟨%cv, HC⟩, ⟨%xb, HB⟩, ⟨%q, HQ⟩⟩, Hg⟩
    iexists p, cv, xb, q
    isplitr
    · ipureintro; exact ⟨fun h => absurd hz h, fun y hy => absurd hy (by omega)⟩
    isplitl [HP]; · iexact HP
    isplitl [HC]; · iexact HC
    isplitl [HB]; · iexact HB
    isplitl [HQ]; · iexact HQ
    iexact Hg
  · rw [PhiS_pos m c _ _ hz]
    iintro ⟨⟨HP, ⟨%cv, %hA, HC⟩, HB, HQ⟩, Hg⟩
    iexists _, cv, _, _
    isplitr
    · ipureintro; exact ⟨fun _ => ⟨rfl, rfl, rfl⟩, hA⟩
    isplitl [HP]; · iexact HP
    isplitl [HC]; · iexact HC
    isplitl [HB]; · iexact HB
    isplitl [HQ]; · iexact HQ
    iexact Hg

/-! ## The pipeline's proof data -/

/-- The arrays as the region finds them; after the body at a point each input's buffer at its block and the output
    block at what `mdl` says; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (mdl m c (t.val + 1) t.isLt).o
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (mdl m c (t.val + 1) t.isLt).o := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The output block's staging buffer before point `n`: fresh at the first point of a batch (the block before it was
    written back), otherwise what `mdl n` says — the two points of a batch that leave the block alone pass on what
    they found, and `mdl` keeps its output block at them. -/
theorem bef2_aux (c : Dev nD) : ∀ (n : ℕ) (hn : n < cfg0.N) (d),
    (dats m 0 c).before 2 ⟨n, hn⟩ d = if n % 8 = 0 then d else (mdl m c n (Nat.le_of_lt hn)).o := by
  intro n
  induction n with
  | zero =>
    intro hn d
    rw [if_pos (Nat.zero_mod 8)]
    exact (dats m 0 c).before_out_reset 2 rfl ⟨0, hn⟩ (Or.inl rfl) d
  | succ n ih =>
    intro hn d
    have hn' : n < cfg0.N := Nat.lt_of_succ_lt hn
    rw [(dats m 0 c).before_of_pos 2 ⟨n + 1, hn⟩ (Nat.succ_ne_zero n) ((cfg0.win 2).fetch_out rfl _) d]
    show (if (cfg0.win 2).flush ⟨n, hn'⟩ then d else (dats m 0 c).left 2 ⟨n, hn'⟩ d) = _
    by_cases h7 : n % 8 = 7
    · rw [if_pos ((flush0_2 ⟨n, hn'⟩).mpr h7), if_pos (by omega)]
    · rw [if_neg (fun h => h7 ((flush0_2 ⟨n, hn'⟩).mp h)), if_neg (by omega)]
      unfold Dat.left
      by_cases hid : n % 8 = 1 ∨ n % 8 = 2
      · rw [(idle2 ⟨n, hn'⟩).mpr hid]
        show (dats m 0 c).before 2 ⟨n, hn'⟩ d = _
        rw [ih hn' d, if_neg (by omega), mdl_B m c ⟨n, hn'⟩ hid]
        rfl
      · rw [show cfg0.idle 2 (grid0.coords ⟨n, hn'⟩) = false from by
          rcases Bool.eq_false_or_eq_true (cfg0.idle 2 (grid0.coords ⟨n, hn'⟩)) with h | h
          · exact absurd ((idle2 ⟨n, hn'⟩).mp h) hid
          · exact h]
        show (dats m 0 c).kept 2 ⟨n, hn'⟩ d = _
        unfold Dat.kept
        rw [Pipeline.fill_of_clip_none (cfg := cfg0) 2 _ (fun _ => rfl) d ((dats m 0 c).after 2 ⟨n, hn'⟩), Window.fill_cut, after2]

theorem bef2 (c : Dev nD) (t : Fin cfg0.N) (d) :
    (dats m 0 c).before 2 t d = if t.val % 8 = 0 then d else (mdl m c t.val (Nat.le_of_lt t.isLt)).o :=
  bef2_aux m c t.val t.isLt d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 8000000 in
/-- The body at any point: the kind of point is read off its number; the invariant hands the body the kernel's four
    buffers and takes them back at what the point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [PhiS_castSucc m c t]
  have hN : t.val < 64 := lt_of_lt_of_eq t.isLt (show cfg0.N = 64 from N_0)
  have hcase : t.val % 8 = 0 ∨ (t.val % 8 = 1 ∨ t.val % 8 = 2) ∨ t.val % 8 = 3 ∨ t.val % 8 = 4
      ∨ (t.val % 8 = 5 ∨ t.val % 8 = 6) ∨ t.val % 8 = 7 := by omega
  rcases hcase with hk | hk | hk | hk | hk | hk
  · -- The body at the first point of a batch (i = 0, j = 0).
    have c1 : cFirst (grid0.coords t) := (hFirst t).mpr (by omega)
    have c2 : cJ0 (grid0.coords t) := (hJ0 t).mpr (by omega)
    have c4 : ¬cJpos (grid0.coords t) := fun h => by have := (hJpos t).mp h; omega
    have c5 : ¬cJlast (grid0.coords t) := fun h => by have := (hJlast t).mp h; omega
    have c6 : cI0 (grid0.coords t) := (hI0 t).mpr (by omega)
    have c7 : ¬cIpos (grid0.coords t) := fun h => by have := (hIpos t).mp h; omega
    have c8 : ¬cIlast (grid0.coords t) := fun h => by have := (hIlast t).mp h; omega
    rw [show (dats m 0 c).leavesExact 2 t = owns (c : Thread nD τ) (ms2 t) fullShare ((dats m 0 c).after 2 t) from by
      unfold Dat.leavesExact
      rw [show cfg0.idle 2 (grid0.coords t) = false from by
        rcases Bool.eq_false_or_eq_true (cfg0.idle 2 (grid0.coords t)) with h | h
        · have := (idle2 t).mp h; omega
        · exact h], after2]
    rw [mdl_A m c t hk]
    simp only [bef2 m c t, if_pos hk]
    refine (sep_mono_left (Phi_open m c t)).trans ?_
    iintro ⟨⟨%p, %cv, %xb, %q, %hP, HP, HC, HB, HQ, Hg⟩, Ho, ⟨%d0, H0⟩, ⟨%d1, H1⟩, ⟨%d2, H2⟩⟩

    iapply (runA c (grid0.coords t) (ms0 t) (hs0 t) (ms1 t) (hs1 t) (ms2 t) (hs2 t) scP (Memref.isWhole_whole _) scC (Memref.isWhole_whole _)
      scB (Memref.isWhole_whole _) scQ (Memref.isWhole_whole _) c1 c2 c4 c5 c6 c7 c8 (iblk m c 0 t) (iblk m c 1 t) d2 _ _ _ _ Set.univ _)
    isplitl [H0]; · iexact H0
    isplitl [H1]; · iexact H1
    isplitl [H2]; · iexact H2
    isplitl [HP]; · iexact HP
    isplitl [HC]; · iexact HC
    isplitl [HB]; · iexact HB
    isplitl [HQ]; · iexact HQ
    iintro ⟨H0, H1, H2, HP, HC, HB, HQ⟩
    isplitl [HP HC HB HQ Hg]
    · isplitr [Hg]
      · isplitl [HP]; · iexact HP
        isplitl [HC]
        · iexists _; isplitr
          · ipureintro; exact agree_step t _ hP.2
          iexact HC
        isplitl [HB]; · iexact HB
        iexact HQ
      · iexact Hg
    isplitl [Ho]; · iexact Ho
    isplitl [H0]; · iexact H0
    isplitl [H1]; · iexact H1
    iexact H2
  · -- The body at the points (0, 1) and (0, 2) of a batch.
    have c1 : ¬cFirst (grid0.coords t) := fun h => by have := (hFirst t).mp h; omega
    have c2 : ¬cJ0 (grid0.coords t) := fun h => by have := (hJ0 t).mp h; omega
    have c4 : cJpos (grid0.coords t) := (hJpos t).mpr (by omega)
    have c5 : ¬cJlast (grid0.coords t) := fun h => by have := (hJlast t).mp h; omega
    have c6 : cI0 (grid0.coords t) := (hI0 t).mpr (by omega)
    have c7 : ¬cIpos (grid0.coords t) := fun h => by have := (hIpos t).mp h; omega
    have c8 : ¬cIlast (grid0.coords t) := fun h => by have := (hIlast t).mp h; omega
    rw [Dat.leavesExact_idle (dats m 0 c) 2 t ((idle2 t).mpr hk) (by
      rcases Bool.eq_false_or_eq_true ((cfg0.win 2).flush t) with h | h
      · have := (flush0_2 t).mp h; omega
      · exact h)]
    rw [mdl_B m c t hk]
    simp only [bef2 m c t, if_neg (show ¬ t.val % 8 = 0 by omega)]
    refine (sep_mono_left (Phi_open m c t)).trans ?_
    iintro ⟨⟨%p, %cv, %xb, %q, %hP, HP, HC, HB, HQ, Hg⟩, Ho, ⟨%d0, H0⟩, ⟨%d1, H1⟩, ⟨%d2, H2⟩⟩
    obtain ⟨hp, hxb, hq⟩ := hP.1 (by omega)
    subst hp hxb hq

    iapply (runB c (grid0.coords t) (ms0 t) (hs0 t) (ms1 t) (hs1 t) (ms2 t) (hs2 t) scP (Memref.isWhole_whole _) scC (Memref.isWhole_whole _)
      scB (Memref.isWhole_whole _) scQ (Memref.isWhole_whole _) c1 c2 c4 c5 c6 c7 c8 (iblk m c 0 t) (iblk m c 1 t) (mdl m c t.val (Nat.le_of_lt t.isLt)).o _ _ _ _ Set.univ _)
    isplitl [H0]; · iexact H0
    isplitl [H1]; · iexact H1
    isplitl [H2]; · iexact H2
    isplitl [HP]; · iexact HP
    isplitl [HC]; · iexact HC
    isplitl [HB]; · iexact HB
    isplitl [HQ]; · iexact HQ
    iintro ⟨H0, H1, H2, HP, HC, HB, HQ⟩
    isplitl [HP HC HB HQ Hg]
    · isplitr [Hg]
      · isplitl [HP]; · iexact HP
        isplitl [HC]
        · iexists _; isplitr
          · ipureintro; exact agree_step t _ hP.2
          iexact HC
        isplitl [HB]; · iexact HB
        iexact HQ
      · iexact Hg
    isplitl [Ho]; · iexact Ho
    isplitl [H0]; · iexact H0
    isplitl [H1]; · iexact H1
    iexists d2; iexact H2
  · -- The body at the point (0, 3) of a batch.
    have c1 : ¬cFirst (grid0.coords t) := fun h => by have := (hFirst t).mp h; omega
    have c2 : ¬cJ0 (grid0.coords t) := fun h => by have := (hJ0 t).mp h; omega
    have c4 : cJpos (grid0.coords t) := (hJpos t).mpr (by omega)
    have c5 : cJlast (grid0.coords t) := (hJlast t).mpr (by omega)
    have c6 : cI0 (grid0.coords t) := (hI0 t).mpr (by omega)
    have c7 : ¬cIpos (grid0.coords t) := fun h => by have := (hIpos t).mp h; omega
    have c8 : ¬cIlast (grid0.coords t) := fun h => by have := (hIlast t).mp h; omega
    rw [show (dats m 0 c).leavesExact 2 t = owns (c : Thread nD τ) (ms2 t) fullShare ((dats m 0 c).after 2 t) from by
      unfold Dat.leavesExact
      rw [show cfg0.idle 2 (grid0.coords t) = false from by
        rcases Bool.eq_false_or_eq_true (cfg0.idle 2 (grid0.coords t)) with h | h
        · have := (idle2 t).mp h; omega
        · exact h], after2]
    rw [mdl_C m c t hk]
    simp only [bef2 m c t, if_neg (show ¬ t.val % 8 = 0 by omega)]
    refine (sep_mono_left (Phi_open m c t)).trans ?_
    iintro ⟨⟨%p, %cv, %xb, %q, %hP, HP, HC, HB, HQ, Hg⟩, Ho, ⟨%d0, H0⟩, ⟨%d1, H1⟩, ⟨%d2, H2⟩⟩
    obtain ⟨hp, hxb, hq⟩ := hP.1 (by omega)
    subst hp hxb hq

    iapply (runC c (grid0.coords t) (ms0 t) (hs0 t) (ms1 t) (hs1 t) (ms2 t) (hs2 t) scP (Memref.isWhole_whole _) scC (Memref.isWhole_whole _)
      scB (Memref.isWhole_whole _) scQ (Memref.isWhole_whole _) c1 c2 c4 c5 c6 c7 c8 (iblk m c 0 t) (iblk m c 1 t) (mdl m c t.val (Nat.le_of_lt t.isLt)).o _ _ _ _ Set.univ _)
    isplitl [H0]; · iexact H0
    isplitl [H1]; · iexact H1
    isplitl [H2]; · iexact H2
    isplitl [HP]; · iexact HP
    isplitl [HC]; · iexact HC
    isplitl [HB]; · iexact HB
    isplitl [HQ]; · iexact HQ
    iintro ⟨H0, H1, H2, HP, HC, HB, HQ⟩
    isplitl [HP HC HB HQ Hg]
    · isplitr [Hg]
      · isplitl [HP]; · iexact HP
        isplitl [HC]
        · iexists _; isplitr
          · ipureintro; exact agree_step t _ hP.2
          iexact HC
        isplitl [HB]; · iexact HB
        iexact HQ
      · iexact Hg
    isplitl [Ho]; · iexact Ho
    isplitl [H0]; · iexact H0
    isplitl [H1]; · iexact H1
    iexact H2
  · -- The body at the point (1, 0) of a batch.
    have c1 : ¬cFirst (grid0.coords t) := fun h => by have := (hFirst t).mp h; omega
    have c2 : cJ0 (grid0.coords t) := (hJ0 t).mpr (by omega)
    have c4 : ¬cJpos (grid0.coords t) := fun h => by have := (hJpos t).mp h; omega
    have c5 : ¬cJlast (grid0.coords t) := fun h => by have := (hJlast t).mp h; omega
    have c6 : ¬cI0 (grid0.coords t) := fun h => by have := (hI0 t).mp h; omega
    have c7 : cIpos (grid0.coords t) := (hIpos t).mpr (by omega)
    have c8 : cIlast (grid0.coords t) := (hIlast t).mpr (by omega)
    rw [show (dats m 0 c).leavesExact 2 t = owns (c : Thread nD τ) (ms2 t) fullShare ((dats m 0 c).after 2 t) from by
      unfold Dat.leavesExact
      rw [show cfg0.idle 2 (grid0.coords t) = false from by
        rcases Bool.eq_false_or_eq_true (cfg0.idle 2 (grid0.coords t)) with h | h
        · have := (idle2 t).mp h; omega
        · exact h], after2]
    rw [mdl_D m c t hk]
    simp only [bef2 m c t, if_neg (show ¬ t.val % 8 = 0 by omega)]
    refine (sep_mono_left (Phi_open m c t)).trans ?_
    iintro ⟨⟨%p, %cv, %xb, %q, %hP, HP, HC, HB, HQ, Hg⟩, Ho, ⟨%d0, H0⟩, ⟨%d1, H1⟩, ⟨%d2, H2⟩⟩
    obtain ⟨hp, hxb, hq⟩ := hP.1 (by omega)
    subst hp hxb hq
    have hcv := agree_all (by omega : 4 ≤ t.val) hP.2
    subst hcv
    iapply (runD c (grid0.coords t) (ms0 t) (hs0 t) (ms1 t) (hs1 t) (ms2 t) (hs2 t) scP (Memref.isWhole_whole _) scC (Memref.isWhole_whole _)
      scB (Memref.isWhole_whole _) scQ (Memref.isWhole_whole _) c1 c2 c4 c5 c6 c7 c8 (iblk m c 0 t) (iblk m c 1 t) (mdl m c t.val (Nat.le_of_lt t.isLt)).o _ _ _ _ Set.univ _)
    isplitl [H0]; · iexact H0
    isplitl [H1]; · iexact H1
    isplitl [H2]; · iexact H2
    isplitl [HP]; · iexact HP
    isplitl [HC]; · iexact HC
    isplitl [HB]; · iexact HB
    isplitl [HQ]; · iexact HQ
    iintro ⟨H0, H1, H2, HP, HC, HB, HQ⟩
    isplitl [HP HC HB HQ Hg]
    · isplitr [Hg]
      · isplitl [HP]; · iexact HP
        isplitl [HC]
        · iexists _; isplitr
          · ipureintro; exact fun _ _ => rfl
          iexact HC
        isplitl [HB]; · iexact HB
        iexact HQ
      · iexact Hg
    isplitl [Ho]; · iexact Ho
    isplitl [H0]; · iexact H0
    isplitl [H1]; · iexact H1
    iexact H2
  · -- The body at the points (1, 1) and (1, 2) of a batch.
    have c1 : ¬cFirst (grid0.coords t) := fun h => by have := (hFirst t).mp h; omega
    have c2 : ¬cJ0 (grid0.coords t) := fun h => by have := (hJ0 t).mp h; omega
    have c4 : cJpos (grid0.coords t) := (hJpos t).mpr (by omega)
    have c5 : ¬cJlast (grid0.coords t) := fun h => by have := (hJlast t).mp h; omega
    have c6 : ¬cI0 (grid0.coords t) := fun h => by have := (hI0 t).mp h; omega
    have c7 : cIpos (grid0.coords t) := (hIpos t).mpr (by omega)
    have c8 : cIlast (grid0.coords t) := (hIlast t).mpr (by omega)
    rw [show (dats m 0 c).leavesExact 2 t = owns (c : Thread nD τ) (ms2 t) fullShare ((dats m 0 c).after 2 t) from by
      unfold Dat.leavesExact
      rw [show cfg0.idle 2 (grid0.coords t) = false from by
        rcases Bool.eq_false_or_eq_true (cfg0.idle 2 (grid0.coords t)) with h | h
        · have := (idle2 t).mp h; omega
        · exact h], after2]
    rw [mdl_E m c t hk]
    simp only [bef2 m c t, if_neg (show ¬ t.val % 8 = 0 by omega)]
    refine (sep_mono_left (Phi_open m c t)).trans ?_
    iintro ⟨⟨%p, %cv, %xb, %q, %hP, HP, HC, HB, HQ, Hg⟩, Ho, ⟨%d0, H0⟩, ⟨%d1, H1⟩, ⟨%d2, H2⟩⟩
    obtain ⟨hp, hxb, hq⟩ := hP.1 (by omega)
    subst hp hxb hq
    have hcv := agree_all (by omega : 4 ≤ t.val) hP.2
    subst hcv
    iapply (runE c (grid0.coords t) (ms0 t) (hs0 t) (ms1 t) (hs1 t) (ms2 t) (hs2 t) scP (Memref.isWhole_whole _) scC (Memref.isWhole_whole _)
      scB (Memref.isWhole_whole _) scQ (Memref.isWhole_whole _) c1 c2 c4 c5 c6 c7 c8 (iblk m c 0 t) (iblk m c 1 t) (mdl m c t.val (Nat.le_of_lt t.isLt)).o _ _ _ _ Set.univ _)
    isplitl [H0]; · iexact H0
    isplitl [H1]; · iexact H1
    isplitl [H2]; · iexact H2
    isplitl [HP]; · iexact HP
    isplitl [HC]; · iexact HC
    isplitl [HB]; · iexact HB
    isplitl [HQ]; · iexact HQ
    iintro ⟨H0, H1, H2, HP, HC, HB, HQ⟩
    isplitl [HP HC HB HQ Hg]
    · isplitr [Hg]
      · isplitl [HP]; · iexact HP
        isplitl [HC]
        · iexists _; isplitr
          · ipureintro; exact fun _ _ => rfl
          iexact HC
        isplitl [HB]; · iexact HB
        iexact HQ
      · iexact Hg
    isplitl [Ho]; · iexact Ho
    isplitl [H0]; · iexact H0
    isplitl [H1]; · iexact H1
    iexact H2
  · -- The body at the last point (1, 3) of a batch.
    have c1 : ¬cFirst (grid0.coords t) := fun h => by have := (hFirst t).mp h; omega
    have c2 : ¬cJ0 (grid0.coords t) := fun h => by have := (hJ0 t).mp h; omega
    have c4 : cJpos (grid0.coords t) := (hJpos t).mpr (by omega)
    have c5 : cJlast (grid0.coords t) := (hJlast t).mpr (by omega)
    have c6 : ¬cI0 (grid0.coords t) := fun h => by have := (hI0 t).mp h; omega
    have c7 : cIpos (grid0.coords t) := (hIpos t).mpr (by omega)
    have c8 : cIlast (grid0.coords t) := (hIlast t).mpr (by omega)
    rw [show (dats m 0 c).leavesExact 2 t = owns (c : Thread nD τ) (ms2 t) fullShare ((dats m 0 c).after 2 t) from by
      unfold Dat.leavesExact
      rw [show cfg0.idle 2 (grid0.coords t) = false from by
        rcases Bool.eq_false_or_eq_true (cfg0.idle 2 (grid0.coords t)) with h | h
        · have := (idle2 t).mp h; omega
        · exact h], after2]
    rw [mdl_G m c t hk]
    simp only [bef2 m c t, if_neg (show ¬ t.val % 8 = 0 by omega)]
    refine (sep_mono_left (Phi_open m c t)).trans ?_
    iintro ⟨⟨%p, %cv, %xb, %q, %hP, HP, HC, HB, HQ, Hg⟩, Ho, ⟨%d0, H0⟩, ⟨%d1, H1⟩, ⟨%d2, H2⟩⟩
    obtain ⟨hp, hxb, hq⟩ := hP.1 (by omega)
    subst hp hxb hq
    have hcv := agree_all (by omega : 4 ≤ t.val) hP.2
    subst hcv
    iapply (runG c (grid0.coords t) (ms0 t) (hs0 t) (ms1 t) (hs1 t) (ms2 t) (hs2 t) scP (Memref.isWhole_whole _) scC (Memref.isWhole_whole _)
      scB (Memref.isWhole_whole _) scQ (Memref.isWhole_whole _) c1 c2 c4 c5 c6 c7 c8 (iblk m c 0 t) (iblk m c 1 t) (mdl m c t.val (Nat.le_of_lt t.isLt)).o _ _ _ _ Set.univ _)
    isplitl [H0]; · iexact H0
    isplitl [H1]; · iexact H1
    isplitl [H2]; · iexact H2
    isplitl [HP]; · iexact HP
    isplitl [HC]; · iexact HC
    isplitl [HB]; · iexact HB
    isplitl [HQ]; · iexact HQ
    iintro ⟨H0, H1, H2, HP, HC, HB, HQ⟩
    isplitl [HP HC HB HQ Hg]
    · isplitr [Hg]
      · isplitl [HP]; · iexact HP
        isplitl [HC]
        · iexists _; isplitr
          · ipureintro; exact fun _ _ => rfl
          iexact HC
        isplitl [HB]; · iexact HB
        iexact HQ
      · iexact Hg
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: what the buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨⟨HP, ⟨%cv, %hA, HC⟩, HB, HQ⟩, Hg⟩
  isplitl [HP HC HB HQ]
  · isplitl [HP]; · iexists _; iexact HP
    isplitl [HC]; · iexists _; iexact HC
    isplitl [HB]; · iexists _; iexact HB
    iexists _; iexact HQ
  iexact Hg

/-! ## The run and the frame -/

set_option backward.isDefEq.respectTransparency.types false in
/-- Every weakly fair execution of @main terminates, nothing faulting, with every array of the pipeline at what the
    library computes from the proof data and every other unscoped buffer as the six lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim, at any instance of the floating-point operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Spec.lean ====
/-
  The Chamfer distance between two batches of point clouds, written twice as one function of the two argument
  arrays on the extended reals.

  Both arrays hold 8 clouds of 4096 points in 128 dimensions. For a batch `b`, a point `n` of the first cloud and a
  point `m` of the second, the squared Euclidean distance is expanded as |x|² + |y|² − 2⟨x, y⟩. It is clamped at zero
  and its square root taken; for every point of one cloud the distance to the nearest point of the other is kept, the
  nearest-point distances of each side are averaged over the side's 4096 points, the two averages are added, and the
  sums are averaged over the 8 batches.

  `refValue` spells this with the clamp and the root taken of every pair before the minimum, the factor 2 outside the
  inner product, and each average as a quotient. `kerValue` spells it with the minimum taken of the SQUARED distances
  and the clamp and root taken once of each minimum (the clamp and the root are monotone), the factor −2 inside the
  inner product, and each average over 4096 as a product with 1/4096.
-/
import Idealize.ShloMosaic.PureOps.Ideal
import Idealize.ShloMosaic.Lib.ValueIdx

noncomputable section

namespace Cert.Chamfer

open Idealize.ShloMosaic Idealize.ShloMosaic.ValueIdx

/-- The shape of both argument arrays: 8 clouds of 4096 points in 128 dimensions. -/
abbrev Cloud : Shape := ⟨3, ![8, 4096, 128]⟩

/-- The squared norm of point `n` of cloud `b`. -/
def sq (a : Cloud.Idx → EReal) (b : Fin 8) (n : Fin 4096) : EReal :=
  ∑ d : Fin 128, a (ix3 b n d) * a (ix3 b n d)

/-- The inner product of point `n` of `x`'s cloud `b` with point `m` of `y`'s. -/
def dot (x y : Cloud.Idx → EReal) (b : Fin 8) (n m : Fin 4096) : EReal :=
  ∑ d : Fin 128, x (ix3 b n d) * y (ix3 b m d)

/-- The squared distance with the factor 2 outside the inner product. -/
def dist2 (x y : Cloud.Idx → EReal) (b : Fin 8) (n m : Fin 4096) : EReal :=
  (sq x b n + sq y b m) - ((2 : ℝ) : EReal) * dot x y b n m

/-- The squared distance with the factor −2 inside the inner product. -/
def dist2K (x y : Cloud.Idx → EReal) (b : Fin 8) (n m : Fin 4096) : EReal :=
  (sq x b n + sq y b m) + ∑ d : Fin 128, x (ix3 b n d) * (((-2 : ℝ) : EReal) * y (ix3 b m d))

/-- Clamp at zero, then the square root: monotone, and never negative. -/
def root (t : EReal) : EReal := Ideal.sqrt (max t 0)

/-- The distance of every pair first, the nearest point after; averages as quotients. -/
def refValue (x y : Cloud.Idx → EReal) : EReal :=
  Ideal.div (∑ b : Fin 8,
      (Ideal.div (∑ m : Fin 4096, Finset.univ.inf fun n : Fin 4096 => root (dist2 x y b n m)) ((4096 : ℝ) : EReal)
        + Ideal.div (∑ n : Fin 4096, Finset.univ.inf fun m : Fin 4096 => root (dist2 x y b n m)) ((4096 : ℝ) : EReal)))
    ((8 : ℝ) : EReal)

/-- One batch with the nearest SQUARED distance first, clamp and root after; averages as products with 1/4096:
    the first cloud's side (for each `n` the nearest `m`), then the second's. -/
def kerBatch (x y : Cloud.Idx → EReal) (b : Fin 8) : EReal :=
  (∑ n : Fin 4096, root (Finset.univ.inf fun m : Fin 4096 => dist2K x y b n m)) * ((1 / 4096 : ℝ) : EReal)
    + (∑ m : Fin 4096, root (Finset.univ.inf fun n : Fin 4096 => dist2K x y b n m)) * ((1 / 4096 : ℝ) : EReal)

/-- The batches' sums averaged. -/
def kerValue (x y : Cloud.Idx → EReal) : EReal :=
  Ideal.div (∑ b : Fin 8, kerBatch x y b) ((8 : ℝ) : EReal)

end Cert.Chamfer

end
-- ==== Proof.Literals.lean ====
/-
  The floating-point literals the two programs spell, as the extended reals their bit patterns denote:
  2, −2, 1/4096, 4096, 8, +∞ and 0. Each is a power of two (or its negative), so the pattern's exponent field alone
  fixes the value.
-/
import Idealize.ShloMosaic.PureOps.Ideal

noncomputable section

namespace Cert.Chamfer

open Idealize.ShloMosaic

/-- The pattern of `2.0` denotes the real 2. -/
theorem ofBits_two : Ideal.ofBits .f32 0x40000000#32 = ((2 : ℝ) : EReal) := by
  simp [Ideal.ofBits, Ideal.ieee, -EReal.coe_mul]; norm_num

/-- The pattern of `-2.0` denotes the real −2. -/
theorem ofBits_neg_two : Ideal.ofBits .f32 0xC0000000#32 = ((-2 : ℝ) : EReal) := by
  simp [Ideal.ofBits, Ideal.ieee, -EReal.coe_mul]; norm_num

/-- The pattern of `2⁻¹²` denotes the real 1/4096. -/
theorem ofBits_inv_4096 : Ideal.ofBits .f32 0x39800000#32 = ((1 / 4096 : ℝ) : EReal) := by
  simp [Ideal.ofBits, Ideal.ieee, -EReal.coe_mul]; norm_num

/-- The pattern of `4096.0` denotes the real 4096. -/
theorem ofBits_4096 : Ideal.ofBits .f32 0x45800000#32 = ((4096 : ℝ) : EReal) := by
  simp [Ideal.ofBits, Ideal.ieee, -EReal.coe_mul]; norm_num

/-- The pattern of `8.0` denotes the real 8. -/
theorem ofBits_eight : Ideal.ofBits .f32 0x41000000#32 = ((8 : ℝ) : EReal) := by
  simp [Ideal.ofBits, Ideal.ieee, -EReal.coe_mul]; norm_num

/-- The pattern of `+∞` denotes the top element. -/
theorem ofBits_top : Ideal.ofBits .f32 0x7F800000#32 = (⊤ : EReal) := by
  simp [Ideal.ofBits, Ideal.ieee]

/-- The pattern of `+0.0` denotes 0. -/
theorem ofBits_zero : Ideal.ofBits .f32 0x00000000#32 = (0 : EReal) := by
  simp [Ideal.ofBits, Ideal.ieee]

end Cert.Chamfer

end
-- ==== Proof.HostTail.lean ====
/-
  The six operations that follow the kernel's one region, read at the ideal values.

  The region leaves an [8, 8, 128] array whose entry (b, 0, 0) is batch b's value. Slicing out the entries (b, 0, 0),
  reading the [8, 1, 1] slice as a vector of eight, summing the vector from zero and dividing by 8 gives the mean of
  the eight batch values; with the batch values of the second spelling of the Chamfer distance, that is the distance.
-/
import proofs.«155424_j67413806678291_2_alg».proof.Proof.Gen.KernelIdeal
import proofs.«155424_j67413806678291_2_alg».proof.Proof.Spec
import proofs.«155424_j67413806678291_2_alg».proof.Proof.Literals
import Idealize.ShloMosaic.Lib.Pipeline.Value
import Idealize.ShloMosaic.Lib.ValueIdx
import Idealize.ShloMosaic.PureOps.Ideal.Laws

noncomputable section

namespace Cert.Chamfer

open Idealize.ShloMosaic Idealize.ShloMosaic.ValueIdx Cert.KernelIdeal Cert.KernelIdeal.Gen

/-- A sum over the indices of a vector of eight entries is the sum over its eight coordinates. -/
theorem sum_vec8 (g : (⟨1, ![8]⟩ : Shape).Idx → EReal) : ∑ j : (⟨1, ![8]⟩ : Shape).Idx, g j = ∑ b : Fin 8, g (ix1 b) := by
  refine Fintype.sum_equiv ⟨fun j => j 0, fun b => ix1 b, fun j => (eq_ix1 j).symm, fun b => rfl⟩ _ _ fun j => ?_
  exact congrArg g (eq_ix1 j)

/-- Entry b of the sliced and reshaped vector is entry (b, 0, 0) of the region's array. -/
theorem tail_vec_apply (O : (⟨S8x8x128, .f32⟩ : BufTy).Contents (Elt Ideal)) (b : Fin 8) :
    shapeCast S8 (extractStridedSlice S8x1x1 ![0, 0, 0] O slices_S8x8x128_S8x1x1_0_0_0) shapeCasts_S8x1x1_S8 (ix1 b)
      = O (ix3 b (0 : Fin 8) (0 : Fin 128)) := by
  refine (shapeCast_apply _ shapeCasts_S8x1x1_S8 (ix1 b) (ix3 b (0 : Fin 1) (0 : Fin 1)) ?_).trans ?_
  · rw [Shape.rowMajor_val_three, Shape.rowMajor_val_one]
    show (b.val * 1 + 0) * 1 + 0 = b.val
    omega
  · refine extractStridedSlice_apply _ O slices_S8x8x128_S8x1x1_0_0_0 (ix3 b (0 : Fin 1) (0 : Fin 1))
      (ix3 b (0 : Fin 8) (0 : Fin 128)) fun a => ?_
    match a with
    | ⟨0, _⟩ => show b.val = 0 + b.val; omega
    | ⟨1, _⟩ => show 0 = 0 + 0; rfl
    | ⟨2, _⟩ => show 0 = 0 + 0; rfl

/-- A vector of eight summed from the zero word into a scalar is the sum of its eight entries. -/
theorem tail_sum_apply (v : (⟨S8, .f32⟩ : BufTy).Contents (Elt Ideal)) (i : S_.Idx) :
    Host.reduceAdd (F := Ideal) v (constant (F := Ideal) S_ .f32 0x00000000#32) reducesTo_S8_S_d0 h_S_ i
      = ∑ b : Fin 8, v (ix1 b) := by
  have h : Host.reduceAdd (F := Ideal) v (constant (F := Ideal) S_ .f32 0x00000000#32) reducesTo_S8_S_d0 h_S_ i
      = constant (F := Ideal) S_ .f32 0x00000000#32 (Shape.Idx.first h_S_) + ∑ j : S8.Idx, v j := by
    simp only [Host.reduceAdd, Ideal.hostReduceAdd_def]
    exact Ideal.hostReduceAdd_total reducesTo_S8_S_d0 (fun b => b.elim0) v _ i
  rw [h, constant_apply, ofBits_zero, zero_add, sum_vec8]

/-- The operations after the region compute the mean of the eight entries (b, 0, 0) of the region's array. -/
theorem host_tail (O : (⟨S8x8x128, .f32⟩ : BufTy).Contents (Elt Ideal)) (g : Fin 8 → EReal)
    (hO : ∀ b : Fin 8, O (ix3 b (0 : Fin 8) (0 : Fin 128)) = g b) :
    Host.divf (F := Ideal)
        (Host.reduceAdd (F := Ideal)
          (shapeCast S8 (extractStridedSlice S8x1x1 ![0, 0, 0] O slices_S8x8x128_S8x1x1_0_0_0) shapeCasts_S8x1x1_S8)
          (constant (F := Ideal) S_ .f32 0x00000000#32) reducesTo_S8_S_d0 h_S_)
        (constant (F := Ideal) S_ .f32 0x41000000#32)
      = fun _ => Ideal.div (∑ b : Fin 8, g b) ((8 : ℝ) : EReal) := by
  funext i
  show Ideal.div (Host.reduceAdd (F := Ideal)
      (shapeCast S8 (extractStridedSlice S8x1x1 ![0, 0, 0] O slices_S8x8x128_S8x1x1_0_0_0) shapeCasts_S8x1x1_S8)
      (constant (F := Ideal) S_ .f32 0x00000000#32) reducesTo_S8_S_d0 h_S_ i)
    (constant (F := Ideal) S_ .f32 0x41000000#32 i) = _
  rw [tail_sum_apply, constant_apply, ofBits_eight]
  exact congrArg (fun s => Ideal.div s ((8 : ℝ) : EReal))
    (Finset.sum_congr rfl fun b _ => (tail_vec_apply O b).trans (hO b))

/-- With the batch values of the second spelling at the entries (b, 0, 0), the operations after the region compute the
    Chamfer distance in that spelling. -/
theorem host_tail_kerValue (O : (⟨S8x8x128, .f32⟩ : BufTy).Contents (Elt Ideal)) (x y : Cloud.Idx → EReal)
    (hO : ∀ b : Fin 8, O (ix3 b (0 : Fin 8) (0 : Fin 128)) = kerBatch x y b) :
    Host.divf (F := Ideal)
        (Host.reduceAdd (F := Ideal)
          (shapeCast S8 (extractStridedSlice S8x1x1 ![0, 0, 0] O slices_S8x8x128_S8x1x1_0_0_0) shapeCasts_S8x1x1_S8)
          (constant (F := Ideal) S_ .f32 0x00000000#32) reducesTo_S8_S_d0 h_S_)
        (constant (F := Ideal) S_ .f32 0x41000000#32)
      = fun _ => kerValue x y :=
  host_tail O (kerBatch x y) hO

end Cert.Chamfer

end
-- ==== Proof.KIValue.lean ====
/-
  The value the kernel program returns, at the instance where floats are extended reals.

  After the 64 points the result array holds, at entry (b, 0, 0), batch b's sum of the two sides' means (the value
  of eight points of the state recursion); the six host lines after the region take those eight entries, add them
  from zero and divide by eight. So the program returns the mean over the batches, as `kerValue` writes it, of the
  two argument arrays — which it leaves as they were.
-/
import proofs.«155424_j67413806678291_2_alg».proof.Proof.KIFrame
import proofs.«155424_j67413806678291_2_alg».proof.Proof.HostTail
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo Idealize.ShloMosaic.ValueIdx

variable (m : (ℓ : Loc nD τ sig) → Buf (Elt Ideal) ℓ) (ρ : Dev nD → PrngReg)

/-- The six host lines read off any contents `W` of the core's buffers: the result is the tail's arithmetic of the
    result array `W main_v0`. -/
theorem tail_of (W : Valuation τ sig (Elt Ideal)) :
    (StableHlo.after (hostOps1 (F := Ideal)) W (Proc.devRef .tc main_v4) : S_.Idx → EReal)
      = Host.divf (F := Ideal) (Host.reduceAdd (F := Ideal)
          (shapeCast S8 (extractStridedSlice S8x1x1 ![0, 0, 0] (W (Proc.devRef .tc main_v0) : S8x8x128.Idx → EReal) slices_S8x8x128_S8x1x1_0_0_0) shapeCasts_S8x1x1_S8)
          (constant (F := Ideal) S_ .f32 0x00000000#32) reducesTo_S8_S_d0 h_S_) (constant (F := Ideal) S_ .f32 0x41000000#32) := by
  after_results; rfl

/-- THE VALUE OF THE RUN: given that entry (b, 0, 0) of the result array the region leaves is batch b's share, the
    program ends with its result at the batches' mean and its two argument arrays unchanged. -/
theorem run_value
    (hO : ∀ (c : Dev nD) (b : Fin 8), ((dats m 0 c).arrAt 2 cfg0.N : S8x8x128.Idx → EReal) (ix3 b (0 : Fin 8) (0 : Fin 128))
      = Cert.Chamfer.kerBatch (m ((c : Thread nD τ).loc main_arg0)) (m ((c : Thread nD τ).loc main_arg1)) b) :
    θ_run defs (onTc (τ := τ) (main (F := Ideal))) ⟨m, fun _ => 0, ρ⟩ (fun r => ∀ c : Dev nD,
      r.2.mem ((c.tc : Thread nD τ).loc main_v4)
          = (fun _ => Cert.Chamfer.kerValue (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_main (F := Ideal) m ρ)
  · have h4 : main_v4 ∈ Pipeline.restRefs sig spec0 :=
      Pipeline.mem_restRefs_of main_v4 rfl (fun w => by fin_cases w <;> decide)
    rw [(h c).2 main_v4 h4]
    unfold Pipeline.afterTail₀
    show StableHlo.after (hostOps1 (F := Ideal)) _ (Proc.devRef .tc main_v4) = _
    rw [tail_of]
    refine Cert.Chamfer.host_tail_kerValue _ _ _ (fun b => ?_)
    have e := Pipeline.withArrays_arr spec0 launch0.win.arr_inj c (V0 m c) (fun w => (dats m 0 c).arrAt w cfg0.N) 2
    exact (congrFun e (ix3 b (0 : Fin 8) (0 : Fin 128))).trans (hO c b)
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.KernelIdeal.Hand

end
-- ==== Proof.InputBlocks.lean ====
/-
  The two input windows' blocks, read at an index.

  The 64 grid points are visited in the order t = 8·b + 4·i + j over batches b, tiles i of 2048 points of the first
  cloud and tiles j of 1024 points of the second. At point t the first window holds rows 2048·i … 2048·i + 2047 of
  batch b of the first argument, and the second window rows 1024·j … 1024·j + 1023 of batch b of the second: a block's
  coordinate on an axis is the block's index there times the block's extent plus the coordinate inside the block.
-/
import proofs.«155424_j67413806678291_2_alg».proof.Proof.Gen.KernelIdeal.Frame
import Idealize.ShloMosaic.Lib.ValueIdx

noncomputable section

namespace Cert.Chamfer

open Idealize.ShloMosaic Idealize.ShloMosaic.ValueIdx Idealize.ShloMosaic.TcCoe Idealize.SL.Sem
open Cert.KernelIdeal Cert.KernelIdeal.Gen

variable {F : FTy → Type} [FloatOps F]
variable (m : (ℓ : Loc nD τ sig) → Buf (Elt F) ℓ)

/-- The grid point's coordinates: batch, tile of the first cloud, tile of the second. -/
theorem coords_facts : ∀ t : Fin cfg0.N, ((grid0.coords t) 0).val = t.val / 8
    ∧ ((grid0.coords t) 1).val = (t.val % 8) / 4 ∧ ((grid0.coords t) 2).val = t.val % 4 :=
  (by decide +kernel : ∀ t : Fin grid0.N, _)

/-- The last grid coordinate is the tile of the second cloud. -/
theorem coords_two (t : Fin cfg0.N) : ((grid0.coords t) 2).val = t.val % 4 := (coords_facts t).2.2

/-- The first window's block indices at every grid point: batch, tile of the first cloud, zero. -/
theorem idx_facts_first : ∀ t : Fin cfg0.N, win0_0.index t (0 : Fin 3) = t.val / 8
    ∧ win0_0.index t (1 : Fin 3) = (t.val % 8) / 4 ∧ win0_0.index t (2 : Fin 3) = 0 :=
  (by decide +kernel : ∀ t : Fin grid0.N, _)

/-- The second window's block indices at every grid point: batch, tile of the second cloud, zero. -/
theorem idx_facts_second : ∀ t : Fin cfg0.N, win0_1.index t (0 : Fin 3) = t.val / 8
    ∧ win0_1.index t (1 : Fin 3) = t.val % 4 ∧ win0_1.index t (2 : Fin 3) = 0 :=
  (by decide +kernel : ∀ t : Fin grid0.N, _)

/-- The first window's block at point t, at row n and coordinate d: row 2048·i + n of batch b of the first argument. -/
theorem iblk_first_apply (c : Dev nD) (t : Fin cfg0.N) (n : Fin 2048) (d : Fin 128) :
    (iblk m c 0 t : S1x2048x128.Idx → Elt F .f32) (ix3 (0 : Fin 1) n d)
      = m ((c : Thread nD τ).loc main_arg0)
          (ix3 (⟨t.val / 8, by have h : t.val < 64 := lt_of_lt_of_eq t.isLt N_0; omega⟩ : Fin 8)
            (⟨2048 * ((t.val % 8) / 4) + n.val, by have := n.isLt; omega⟩ : Fin 4096) d) := by
  obtain ⟨e0, e1, e2⟩ := idx_facts_first t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 8; rw [e0]; omega
  | ⟨1, _⟩ => show win0_0.index t 1 * 2048 + 1 * n.val = 2048 * ((t.val % 8) / 4) + n.val; rw [e1]; omega
  | ⟨2, _⟩ => show win0_0.index t 2 * 128 + 1 * d.val = d.val; rw [e2]; omega

/-- The second window's block at point t, at row k and coordinate d: row 1024·j + k of batch b of the second argument. -/
theorem iblk_second_apply (c : Dev nD) (t : Fin cfg0.N) (k : Fin 1024) (d : Fin 128) :
    (iblk m c 1 t : S1x1024x128.Idx → Elt F .f32) (ix3 (0 : Fin 1) k d)
      = m ((c : Thread nD τ).loc main_arg1)
          (ix3 (⟨t.val / 8, by have h : t.val < 64 := lt_of_lt_of_eq t.isLt N_0; omega⟩ : Fin 8)
            (⟨1024 * (t.val % 4) + k.val, by have := k.isLt; omega⟩ : Fin 4096) d) := by
  obtain ⟨e0, e1, e2⟩ := idx_facts_second t
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 8; rw [e0]; omega
  | ⟨1, _⟩ => show win0_1.index t 1 * 1024 + 1 * k.val = 1024 * (t.val % 4) + k.val; rw [e1]; omega
  | ⟨2, _⟩ => show win0_1.index t 2 * 128 + 1 * d.val = d.val; rw [e2]; omega

end Cert.Chamfer

end
-- ==== Proof.BodyTile.lean ====
/-
  One tile of the running column minima: reading it, and reading it back after a tile has been replaced.

  The 4096 running column minima are cut into four tiles of 1024; the tile a grid point touches starts at column
  1024·j, where j is the point's last coordinate. Reading tile j at local column m is reading the whole row at column
  1024·j + m. Replacing a tile and then reading the tile with the same j gives back what was put; reading a tile with
  another j sees what was there before, because two tiles with different j share no column.
-/
import proofs.«155424_j67413806678291_2_alg».proof.Proof.KIModel
import Idealize.ShloMosaic.Lib.ValueIdx

set_option synthInstance.maxSize 4096

noncomputable section

namespace Cert.Chamfer.Body

open Idealize.ShloMosaic Idealize.ShloMosaic.ValueIdx Idealize.SL.Sem
open Cert.KernelIdeal Cert.KernelIdeal.Gen Cert.KernelIdeal.Hand

variable {F : FTy → Type} [FloatOps F]

/-- A tile's offsets: row 0, column 1024·j. -/
theorem off_row (i : grid0.Coords) : k0_off1 i (0 : Fin 2) = 0 := by rw [k0_off1_eq i]; rfl
theorem off_col (i : grid0.Coords) : k0_off1 i (1 : Fin 2) = 1024 * (i 2).val := by rw [k0_off1_eq i]; rfl

/-- The offsets depend on the last coordinate only. -/
theorem off_congr {i i' : grid0.Coords} (h : (i 2).val = (i' 2).val) : k0_off1 i = k0_off1 i' := by
  rw [k0_off1_eq i, k0_off1_eq i', h]

/-- The last coordinate is below 4. -/
theorem j_lt (i : grid0.Coords) : (i 2).val < 4 := (i 2).isLt

/-- Column 1024·j + m lies inside the 4096 columns. -/
theorem tile_lt (i : grid0.Coords) (m : Fin 1024) : 1024 * (i 2).val + m.val < 4096 := by
  have := j_lt i; have := m.isLt; omega

/-- Tile j read at local column m is the row read at column 1024·j + m. -/
theorem getTile_apply (cv : Vec F S1x4096 .f32) (i : grid0.Coords) (m : Fin 1024) :
    getTile cv i (ix2 (0 : Fin 1) m) = cv (ix2 (0 : Fin 1) ⟨1024 * (i 2).val + m.val, tile_lt i m⟩) := by
  unfold getTile
  show cv ((tileRect i).idx (ix2 (0 : Fin 1) m)) = _
  refine congrArg cv (funext fun a => Fin.ext ?_)
  match a with
  | ⟨0, _⟩ =>
    show k0_off1 i (0 : Fin 2) + 1 * 0 = 0
    rw [off_row]
  | ⟨1, _⟩ =>
    show k0_off1 i (1 : Fin 2) + 1 * m.val = 1024 * (i 2).val + m.val
    rw [off_col, Nat.one_mul]

/-- After tile j is replaced by `w`, a tile with the same j reads `w`. -/
theorem getTile_setTile_eq (cv : Vec F S1x4096 .f32) (i i' : grid0.Coords) (w : Vec F S1x1024 .f32)
    (h : (i 2).val = (i' 2).val) : getTile (setTile cv i w) i' = w := by
  funext x
  have hoff : k0_off1 i = k0_off1 i' := off_congr h
  have hin : ∀ a, k0_off1 i a ≤ ((tileRect i').idx x a).val
      ∧ ((tileRect i').idx x a).val < k0_off1 i a + S1x1024.size a := fun a => by
    show k0_off1 i a ≤ k0_off1 i' a + 1 * (x a).val ∧ k0_off1 i' a + 1 * (x a).val < k0_off1 i a + S1x1024.size a
    have := (x a).isLt
    rw [hoff]
    omega
  unfold getTile setTile
  show (if h : ∀ a, k0_off1 i a ≤ ((tileRect i').idx x a).val
        ∧ ((tileRect i').idx x a).val < k0_off1 i a + S1x1024.size a then
      w (Rect.unitLocal (s := S1x4096) (off := k0_off1 i) (size := S1x1024.size) ((tileRect i').idx x) h)
    else cv ((tileRect i').idx x)) = w x
  rw [dif_pos hin]
  refine congrArg w (funext fun a => Fin.ext ?_)
  show k0_off1 i' a + 1 * (x a).val - k0_off1 i a = (x a).val
  rw [hoff]
  omega

/-- After tile j is replaced, the tile with the same coordinates reads what was put. -/
theorem getTile_setTile_same (cv : Vec F S1x4096 .f32) (i : grid0.Coords) (w : Vec F S1x1024 .f32) :
    getTile (setTile cv i w) i = w := getTile_setTile_eq cv i i w rfl

/-- After tile j is replaced, a tile with another j reads what was there before. -/
theorem getTile_setTile_ne (cv : Vec F S1x4096 .f32) (i i' : grid0.Coords) (w : Vec F S1x1024 .f32)
    (h : (i 2).val ≠ (i' 2).val) : getTile (setTile cv i w) i' = getTile cv i' := by
  funext x
  have hout : ¬ ∀ a, k0_off1 i a ≤ ((tileRect i').idx x a).val
      ∧ ((tileRect i').idx x a).val < k0_off1 i a + S1x1024.size a := fun hall => by
    have h1 : k0_off1 i (1 : Fin 2) ≤ k0_off1 i' (1 : Fin 2) + 1 * (x (1 : Fin 2)).val
        ∧ k0_off1 i' (1 : Fin 2) + 1 * (x (1 : Fin 2)).val < k0_off1 i (1 : Fin 2) + 1024 := hall (1 : Fin 2)
    have hx : (x (1 : Fin 2)).val < 1024 := (x (1 : Fin 2)).isLt
    rw [off_col, off_col] at h1
    omega
  unfold getTile setTile
  show (if h : ∀ a, k0_off1 i a ≤ ((tileRect i').idx x a).val
        ∧ ((tileRect i').idx x a).val < k0_off1 i a + S1x1024.size a then
      w (Rect.unitLocal (s := S1x4096) (off := k0_off1 i) (size := S1x1024.size) ((tileRect i').idx x) h)
    else cv ((tileRect i').idx x)) = cv ((tileRect i').idx x)
  rw [dif_neg hout]

end Cert.Chamfer.Body

end
-- ==== Proof.BodyMin.lean ====
/-
  The running minima the kernel keeps between its column blocks, read at an entry.

  After the first block the kernel folds each new block's row minima into the stored ones, and each new block's
  column minima into the stored ones, by an entrywise minimum; the casts around them are to the same shape and
  move nothing. On the extended reals the entrywise minimum is `min`.
-/
import proofs.«155424_j67413806678291_2_alg».proof.Proof.Gen.KernelIdeal.Skeleton
import Idealize.ShloMosaic.Lib.ValueIdx
import Idealize.ShloMosaic.Lib.Pipeline.Value

set_option synthInstance.maxSize 4096

noncomputable section

namespace Cert.Chamfer.Body

open Idealize.ShloMosaic Idealize.ShloMosaic.ValueIdx Idealize.SL.Sem
open Cert.KernelIdeal Cert.KernelIdeal.Gen

/-- The updated row minima at row `n`: the smaller of the stored value and the new block's. -/
theorem pay1_apply (v26 : FVec Ideal S2048x1 .f32) (P : Vec Ideal S2048x1 .f32) (n : Fin 2048) :
    k0_pay1 v26 P (ix2 n (0 : Fin 1)) = min (P (ix2 n (0 : Fin 1))) (v26 (ix2 n (0 : Fin 1))) := by
  unfold k0_pay1
  rw [shapeCast_self]
  rfl

/-- The first block's column minima are stored as they are. -/
theorem pay3_eq (v28 : FVec Ideal S1x1024 .f32) : k0_pay3 v28 = v28 := by
  unfold k0_pay3
  exact shapeCast_self _ _

/-- The updated column minima at column `m`: the smaller of the stored value and the new block's. -/
theorem pay4_apply (v28 : FVec Ideal S1x1024 .f32) (Cs : Vec Ideal S1x1024 .f32) (m : Fin 1024) :
    k0_pay4 v28 Cs (ix2 (0 : Fin 1) m) = min (Cs (ix2 (0 : Fin 1) m)) (v28 (ix2 (0 : Fin 1) m)) := by
  unfold k0_pay4
  rw [shapeCast_self]
  rfl

end Cert.Chamfer.Body

end
-- ==== Proof.LibColumnSum.lean ====
/-
  The second half of a sum that keeps its axes: a column [a, 1] summed along its rows into a one-element
  array. At exact arithmetic the float sum into an array whose every axis has extent one is the sum over
  every entry of the operand; for a column that is the sum over its row coordinate. And the one-element
  array cast to 1×1 moves no value (the cast of a vector to a column, at a = 1).
-/
import Idealize.ShloMosaic.Lib.ValueLayout
import Idealize.ShloMosaic.PureOps.Ideal.Laws

namespace Cert.Lib.ColumnSum

open Idealize.ShloMosaic Idealize.ShloMosaic.ValueIdx

/-- A float sum of a column [a, 1] over its rows from the zero word, at exact arithmetic, is at its one index
    the sum of the column's entries. -/
theorem colSum_apply {a : ℕ} (src : FVec Ideal ⟨2, ![a, 1]⟩ .f32)
    (h : (⟨2, ![a, 1]⟩ : Shape).Reduces [0] (⟨1, ![1]⟩ : Shape)) (hφ : FKind.Formats .f32)
    (hacc : (0x00000000#32 : BitVec 32) = 0x00000000#32) (u : Fin 1) :
    multiReduction .add [0] ⟨1, ![1]⟩ src 0x00000000#32 h hφ hacc (ix1 u) = ∑ p : Fin a, src (ix2 p (0 : Fin 1)) := by
  refine (Ideal.multiReduction_add_total src 0x00000000#32 h (fun b => by fin_cases b; rfl) hφ hacc (ix1 u)).trans ?_
  rw [sum_idx2]
  exact Finset.sum_congr rfl fun p _ => Fin.sum_univ_one _

end Cert.Lib.ColumnSum
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.BodyOut.lean ====
/-
  The kernel's contribution to the output tile, read at the tile's first entry.

  The output tile of a batch element is first cleared. When the row minima of a batch element are complete the
  kernel adds, into entry (0, 0) of the tile only, the sum over the 2048 rows of the square root of the row
  minimum clamped below at 0, scaled by 1/4096; when the column minima of a block are complete it adds there the
  same expression over the block's 1024 columns. The entry is singled out by a mask comparing the two coordinate
  arrays of the tile with 0: at (0, 0) both comparisons hold.
-/
import proofs.«155424_j67413806678291_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«155424_j67413806678291_2_alg».proof.Proof.LibColumnSum
import proofs.«155424_j67413806678291_2_alg».proof.Proof.LibKeepdims
import proofs.«155424_j67413806678291_2_alg».proof.Proof.Literals

set_option synthInstance.maxSize 4096

noncomputable section

namespace Cert.Chamfer.Body

open Idealize.ShloMosaic Idealize.ShloMosaic.ValueIdx Idealize.SL.Sem
open Cert.KernelIdeal Cert.KernelIdeal.Gen

open Cert.Lib.Keepdims Cert.Lib.ColumnSum

/-- The cleared tile is 0 at its first entry. -/
theorem pay6_apply : k0_pay6 (F := Ideal) (ix3 (0 : Fin 1) (0 : Fin 8) (0 : Fin 128)) = 0 := by
  unfold k0_pay6
  refine (shapeCast_ab_1ab_apply _ _ (0 : Fin 1) (0 : Fin 8) (0 : Fin 128)).trans ?_
  exact Ideal.ofBits_zero_f32

/-- At entry (0, 0) of the tile both coordinates are 0, so the mask that singles the entry out holds there. -/
theorem mask_00 :
    andi (cmpi .eq (iota .tc S8x128 32 [0] iota_S8x128_d0_w32) (broadcast S8x128 0#32))
        (cmpi .eq (iota .tc S8x128 32 [1] iota_S8x128_d1_w32) (broadcast S8x128 0#32)) (ix2 (0 : Fin 8) (0 : Fin 128)) = 1#1 := by
  decide

/-- Adding a 1×1 value `c` into entry (0, 0) of the tile `O`: at that entry the result is `O + c`. -/
theorem add_at_00 (O : Vec Ideal S1x8x128 .f32) (c : FVec Ideal S1x1 .f32) :
    shapeCast S1x8x128
        (addf (shapeCast S8x128 O shapeCasts_S1x8x128_S8x128)
          (select
            (andi (cmpi .eq (iota .tc S8x128 32 [0] iota_S8x128_d0_w32) (broadcast S8x128 0#32))
              (cmpi .eq (iota .tc S8x128 32 [1] iota_S8x128_d1_w32) (broadcast S8x128 0#32)))
            (broadcastTo S8x128 (shapeCast S1x1 c shapeCasts_S1x1_S1x1) broadcasts_S1x1_S8x128)
            (broadcast S8x128 (Scalar.ofBits (F := Ideal) .f32 0x00000000#32))))
        shapeCasts_S8x128_S1x8x128 (ix3 (0 : Fin 1) (0 : Fin 8) (0 : Fin 128))
      = O (ix3 (0 : Fin 1) (0 : Fin 8) (0 : Fin 128)) + c (ix2 (0 : Fin 1) (0 : Fin 1)) := by
  refine (shapeCast_ab_1ab_apply _ _ (0 : Fin 1) (0 : Fin 8) (0 : Fin 128)).trans ?_
  rw [addf_apply, select_apply, mask_00, select_one, shapeCast_self,
    shapeCast_1ab_ab_apply O shapeCasts_S1x8x128_S8x128 (0 : Fin 8) (0 : Fin 128)]
  refine congrArg (O (ix3 (0 : Fin 1) (0 : Fin 8) (0 : Fin 128)) + ·) ?_
  exact broadcastTo_apply c broadcasts_S1x1_S8x128 _ (ix2 (0 : Fin 1) (0 : Fin 1)) fun a =>
    match a with | ⟨0, _⟩ => rfl | ⟨1, _⟩ => rfl

/-- The row-minima contribution: at entry (0, 0) the tile gains the sum over the rows of `√(max P 0)`, times 1/4096. -/
theorem pay2_apply (P : Vec Ideal S2048x1 .f32) (O : Vec Ideal S1x8x128 .f32) :
    k0_pay2 P O (ix3 (0 : Fin 1) (0 : Fin 8) (0 : Fin 128))
      = O (ix3 (0 : Fin 1) (0 : Fin 8) (0 : Fin 128))
        + (∑ n : Fin 2048, Ideal.sqrt (max (P (ix2 n (0 : Fin 1))) 0)) * ((1 / 4096 : ℝ) : EReal) := by
  unfold k0_pay2
  refine (add_at_00 O _).trans ?_
  refine congrArg (O (ix3 (0 : Fin 1) (0 : Fin 8) (0 : Fin 128)) + ·) ?_
  rw [mulf_apply, broadcast_apply]
  refine congr (congrArg HMul.hMul ?_) Cert.Chamfer.ofBits_inv_4096
  refine (shapeCast_a_a1_apply _ shapeCasts_S1_S1x1 (0 : Fin 1) (0 : Fin 1)).trans ?_
  refine (colSum_apply _ reduces_S2048x1_S1 (.inl rfl) rfl (0 : Fin 1)).trans ?_
  refine Finset.sum_congr rfl fun n _ => ?_
  show Ideal.sqrt (max (P (ix2 n (0 : Fin 1))) (Ideal.ofBits .f32 0x00000000#32)) = _
  rw [Ideal.ofBits_zero_f32]

/-- The column-minima contribution: at entry (0, 0) the tile gains the sum over the block's columns of `√(max Cs 0)`,
    times 1/4096. -/
theorem pay5_apply (Cs : Vec Ideal S1x1024 .f32) (O : Vec Ideal S1x8x128 .f32) :
    k0_pay5 Cs O (ix3 (0 : Fin 1) (0 : Fin 8) (0 : Fin 128))
      = O (ix3 (0 : Fin 1) (0 : Fin 8) (0 : Fin 128))
        + (∑ m : Fin 1024, Ideal.sqrt (max (Cs (ix2 (0 : Fin 1) m)) 0)) * ((1 / 4096 : ℝ) : EReal) := by
  unfold k0_pay5
  refine (add_at_00 O _).trans ?_
  refine congrArg (O (ix3 (0 : Fin 1) (0 : Fin 8) (0 : Fin 128)) + ·) ?_
  rw [mulf_apply, broadcast_apply]
  refine congr (congrArg HMul.hMul ?_) Cert.Chamfer.ofBits_inv_4096
  refine (shapeCast_a_a1_apply _ shapeCasts_S1_S1x1 (0 : Fin 1) (0 : Fin 1)).trans ?_
  refine (rowSum_apply _ reduces_S1x1024_S1 (.inl rfl) rfl (0 : Fin 1)).trans ?_
  refine Finset.sum_congr rfl fun m _ => ?_
  show Ideal.sqrt (max (Cs (ix2 (0 : Fin 1) m)) (Ideal.ofBits .f32 0x00000000#32)) = _
  rw [Ideal.ofBits_zero_f32]

end Cert.Chamfer.Body

end
-- ==== Proof.LibMinReduce.lean ====
/-
  Minimum reductions over one axis, read at the ideal values.

  At the ideal instance `minimumf` is `min` on the extended reals, so a `vector.multi_reduction <minimumf>` over one
  axis is, at each result index, the fold of `min` from the accumulator's value over that axis's coordinates
  (`multiReduction_minimumf_single`, the counterpart of the library's maximum form); from the word of +∞ that fold is
  the infimum (`fold_min_top`, `ofBits_inf_f32`). For a matrix [A, B] this gives the row minima
  (`min_cols_apply`: reduce axis 1, read at row r) and the column minima (`min_rows_apply`: reduce axis 0, read at
  column n) as `Finset.inf` over `Fin B` / `Fin A` of the entries.
-/
import Idealize.ShloMosaic.PureOps.Ideal.Laws
import Idealize.ShloMosaic.Lib.ValueIdx

noncomputable section

namespace Cert.LibMinReduce

open Idealize.ShloMosaic Idealize.ShloMosaic.ValueIdx

/-- The f32 word of +∞ denotes `⊤`. -/
theorem ofBits_inf_f32 : Ideal.ofBits .f32 0x7F800000#32 = (⊤ : EReal) := by
  simp [Ideal.ofBits, Ideal.ieee]

/-- A fold of `min` from +∞ over a finite set is the set's infimum. -/
theorem fold_min_top {ι : Type*} [DecidableEq ι] (s : Finset ι) (f : ι → EReal) : s.fold min ⊤ f = s.inf f := by
  induction s using Finset.induction_on with
  | empty => simp
  | insert a s ha ih => rw [Finset.fold_insert ha, Finset.inf_insert, ih]

/-- A `<minimumf>` reduction over ONE axis, at the ideal values: the fold of `min` from the accumulator's value over
    that axis's coordinates (any rank, axis and extents). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum along axis 1 of an `[A, B]` matrix from +∞, at row `r`: the infimum of the row's entries. -/
theorem min_cols_apply {A B : ℕ} (src : FVec Ideal ⟨2, ![A, B]⟩ .f32)
    (h : (⟨2, ![A, B]⟩ : Shape).Reduces [1] ⟨1, ![A]⟩) (hφ : FKind.Formats .f32)
    (hacc : (0x7F800000#32 : BitVec 32) = FKind.minimumf.neutral .f32 hφ) (r : Fin A) :
    multiReduction .minimumf [1] ⟨1, ![A]⟩ src 0x7F800000#32 h hφ hacc (ix1 r) = Finset.univ.inf fun n : Fin B => src (ix2 r n) := by
  refine (multiReduction_minimumf_single src _ h hφ hacc (ix1 r)).trans ?_
  have e : (Finset.univ : Finset (Fin B)).fold min (FloatOps.ofBits .f32 0x7F800000#32) (fun n => src (h.lift (ix1 r) n))
      = Finset.univ.inf fun n => src (h.lift (ix1 r) n) := by
    rw [show (FloatOps.ofBits .f32 0x7F800000#32 : Ideal .f32) = (⊤ : EReal) from ofBits_inf_f32]; exact fold_min_top _ _
  refine e.trans ?_
  refine Finset.inf_congr rfl fun n _ => congrArg src ?_
  funext a
  match a with
  | ⟨0, _⟩ => exact Fin.ext rfl
  | ⟨1, _⟩ => exact Fin.ext rfl

/-- The minimum along axis 0 of an `[A, B]` matrix from +∞, at column `n`: the infimum of the column's entries. -/
theorem min_rows_apply {A B : ℕ} (src : FVec Ideal ⟨2, ![A, B]⟩ .f32)
    (h : (⟨2, ![A, B]⟩ : Shape).Reduces [0] ⟨1, ![B]⟩) (hφ : FKind.Formats .f32)
    (hacc : (0x7F800000#32 : BitVec 32) = FKind.minimumf.neutral .f32 hφ) (n : Fin B) :
    multiReduction .minimumf [0] ⟨1, ![B]⟩ src 0x7F800000#32 h hφ hacc (ix1 n) = Finset.univ.inf fun r : Fin A => src (ix2 r n) := by
  refine (multiReduction_minimumf_single src _ h hφ hacc (ix1 n)).trans ?_
  have e : (Finset.univ : Finset (Fin A)).fold min (FloatOps.ofBits .f32 0x7F800000#32) (fun r => src (h.lift (ix1 n) r))
      = Finset.univ.inf fun r => src (h.lift (ix1 n) r) := by
    rw [show (FloatOps.ofBits .f32 0x7F800000#32 : Ideal .f32) = (⊤ : EReal) from ofBits_inf_f32]; exact fold_min_top _ _
  refine e.trans ?_
  refine Finset.inf_congr rfl fun r _ => congrArg src ?_
  funext a
  match a with
  | ⟨0, _⟩ => exact Fin.ext rfl
  | ⟨1, _⟩ => exact Fin.ext rfl

end Cert.LibMinReduce

end
-- ==== Proof.BodyInf.lean ====
/-
  The minima of a block of squared distances, read at an entry.

  From the block `D` of squared distances (2048 rows by 1024 columns) the kernel takes, starting from +∞, the minimum
  along each row and the minimum along each column. On the extended reals a minimum from +∞ over a finite range is
  the infimum over that range. The casts to a column and to a row keep each value at its coordinate.
-/
import proofs.«155424_j67413806678291_2_alg».proof.Proof.Gen.KernelIdeal.Skeleton
import Idealize.ShloMosaic.Lib.ValueIdx
import Idealize.ShloMosaic.Lib.Pipeline.Value
import Idealize.ShloMosaic.Lib.ValueLayout
import proofs.«155424_j67413806678291_2_alg».proof.Proof.LibMinReduce
import proofs.«155424_j67413806678291_2_alg».proof.Proof.LibKeepdims

set_option synthInstance.maxSize 4096

noncomputable section

namespace Cert.Chamfer.Body

open Idealize.ShloMosaic Idealize.ShloMosaic.ValueIdx Idealize.SL.Sem
open Cert.KernelIdeal Cert.KernelIdeal.Gen

open Cert.Lib.Keepdims Cert.LibMinReduce

/-- The row minima at row `n`: the infimum over the block's 1024 columns of the squared distances in that row. -/
theorem pay11_apply (xb : Vec Ideal S2048x128 .bf16) (x2 : Vec Ideal S2048x1 .f32) (Y : Vec Ideal S1x1024x128 .f32)
    (n : Fin 2048) :
    k0_pay11 xb x2 Y (ix2 n (0 : Fin 1)) = Finset.univ.inf fun m : Fin 1024 => k0_pay10 xb x2 Y (ix2 n m) := by
  unfold k0_pay11
  refine (shapeCast_a_a1_apply _ shapeCasts_S2048_S2048x1 n (0 : Fin 1)).trans ?_
  exact min_cols_apply (k0_pay10 xb x2 Y) reduces_S2048x1024_S2048 (.inl rfl) rfl n

/-- The column minima at column `m`: the infimum over the 2048 rows of the squared distances in that column. -/
theorem pay12_apply (xb : Vec Ideal S2048x128 .bf16) (x2 : Vec Ideal S2048x1 .f32) (Y : Vec Ideal S1x1024x128 .f32)
    (m : Fin 1024) :
    k0_pay12 xb x2 Y (ix2 (0 : Fin 1) m) = Finset.univ.inf fun n : Fin 2048 => k0_pay10 xb x2 Y (ix2 n m) := by
  unfold k0_pay12
  refine (shapeCast_a_1a_apply _ shapeCasts_S1024_S1x1024 (0 : Fin 1) m).trans ?_
  exact min_rows_apply (k0_pay10 xb x2 Y) reduces_S2048x1024_S1024 (.inl rfl) rfl m

/-- The first block's row minima are stored as they are. -/
theorem pay13_eq (xb : Vec Ideal S2048x128 .bf16) (x2 : Vec Ideal S2048x1 .f32) (Y : Vec Ideal S1x1024x128 .f32) :
    k0_pay13 xb x2 Y = k0_pay11 xb x2 Y := by
  unfold k0_pay13
  exact shapeCast_self _ _

end Cert.Chamfer.Body

end
-- ==== Proof.BodySq.lean ====
/-
  The first operand's block prepared once per batch element, read at an entry.

  The block `X` of 2048 points with 128 coordinates is kept twice: rounded to the narrower float format (a change of
  format is the identity on the extended reals) and as the column of squared norms, the sum over the 128 coordinates
  of the square of each. The sum starts from the zero word, which is 0.
-/
import proofs.«155424_j67413806678291_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«155424_j67413806678291_2_alg».proof.Proof.LibKeepdims

set_option synthInstance.maxSize 4096

noncomputable section

namespace Cert.Chamfer.Body

open Idealize.ShloMosaic Idealize.ShloMosaic.ValueIdx Idealize.SL.Sem
open Cert.KernelIdeal Cert.KernelIdeal.Gen

open Cert.Lib.Keepdims

/-- The block with its leading unit axis dropped, at (n, d). -/
theorem pay7_apply (X : Vec Ideal S1x2048x128 .f32) (n : Fin 2048) (d : Fin 128) :
    k0_pay7 X (ix2 n d) = X (ix3 (0 : Fin 1) n d) := by
  unfold k0_pay7
  exact shapeCast_1ab_ab_apply X shapeCasts_S1x2048x128_S2048x128 n d

/-- The stored narrow copy of the block, at (n, d): the block's entry. -/
theorem pay8_apply (X : Vec Ideal S1x2048x128 .f32) (n : Fin 2048) (d : Fin 128) :
    k0_pay8 X (ix2 n d) = X (ix3 (0 : Fin 1) n d) := by
  unfold k0_pay8
  rw [shapeCast_self, truncf_apply]
  exact pay7_apply X n d

/-- The stored squared norms, at row n: the sum of the squares of the row's 128 coordinates. -/
theorem pay9_apply (X : Vec Ideal S1x2048x128 .f32) (n : Fin 2048) :
    k0_pay9 X (ix2 n (0 : Fin 1)) = ∑ d : Fin 128, X (ix3 (0 : Fin 1) n d) * X (ix3 (0 : Fin 1) n d) := by
  unfold k0_pay9
  rw [shapeCast_self]
  refine (shapeCast_a_a1_apply _ shapeCasts_S2048_S2048x1 n (0 : Fin 1)).trans ?_
  refine (rowSum_apply _ reduces_S2048x128_S2048 (.inl rfl) rfl n).trans ?_
  refine Finset.sum_congr rfl fun d _ => ?_
  rw [mulf_apply, pay7_apply]

end Cert.Chamfer.Body

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.BodyDist.lean ====
/-
  The block of squared distances, read at an entry.

  For rows n of the first operand (kept narrow as `xb`, with squared norms `x2`) and columns m of the second operand's
  block `Y`, the kernel forms ‖x_n‖² + ‖y_m‖² + Σ_d x_n,d · (−2 · y_m,d): the squared norms of `Y`'s rows are summed
  from the zero word and turned into a row, the factor −2 is folded into `Y` before it is transposed, and the product
  accumulates into the zero matrix. The two transposes, the casts and the two broadcasts move values between
  coordinates and change none; the changes of float format are the identity on the extended reals.
-/
import proofs.«155424_j67413806678291_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«155424_j67413806678291_2_alg».proof.Proof.LibKeepdims
import proofs.«155424_j67413806678291_2_alg».proof.Proof.LibPlainDot
import proofs.«155424_j67413806678291_2_alg».proof.Proof.Literals

set_option synthInstance.maxSize 4096

noncomputable section

namespace Cert.Chamfer.Body

open Idealize.ShloMosaic Idealize.ShloMosaic.ValueIdx Idealize.SL.Sem
open Cert.KernelIdeal Cert.KernelIdeal.Gen

open Cert.Lib.Keepdims Cert.Lib.PlainDot

/-- The product's dimension numbers are those of a plain 2048×128 by 128×1024 product. -/
theorem dot_eq_plain : dot_S2048x128_S128x1024_S2048x1024_1_0_0_1_n_n = DotDims.plain 2048 128 1024 := rfl

/-- The squared norms of the second operand's rows, as a row: at column m, the sum of the squares of `Y`'s row m. -/
theorem ynorm_apply (Y : Vec Ideal S1x1024x128 .f32) (m : Fin 1024) :
    transpose S1x1024 [1, 0]
        (shapeCast S1024x1
          (multiReduction (F := Ideal) .add [1] S1024
            (mulf (shapeCast S1024x128 Y shapeCasts_S1x1024x128_S1024x128)
              (shapeCast S1024x128 Y shapeCasts_S1x1024x128_S1024x128))
            0x00000000#32 reduces_S1024x128_S1024 (.inl rfl) rfl)
          shapeCasts_S1024_S1024x1)
        transposes_S1024x1_p1_0_S1x1024 (ix2 (0 : Fin 1) m)
      = ∑ d : Fin 128, Y (ix3 (0 : Fin 1) m d) * Y (ix3 (0 : Fin 1) m d) := by
  refine (transpose_ix2_apply _ transposes_S1024x1_p1_0_S1x1024 (0 : Fin 1) m).trans ?_
  refine (shapeCast_a_a1_apply _ shapeCasts_S1024_S1024x1 m (0 : Fin 1)).trans ?_
  refine (rowSum_apply _ reduces_S1024x128_S1024 (.inl rfl) rfl m).trans ?_
  refine Finset.sum_congr rfl fun d _ => ?_
  rw [mulf_apply, shapeCast_1ab_ab_apply Y shapeCasts_S1x1024x128_S1024x128 m d]

/-- The second factor of the product: `Y` scaled by −2, narrowed and transposed, at (d, m). -/
theorem yscaled_apply (Y : Vec Ideal S1x1024x128 .f32) (d : Fin 128) (m : Fin 1024) :
    transpose S128x1024 [1, 0]
        (truncf .bf16
          (mulf (broadcast S1024x128 (Scalar.ofBits (F := Ideal) .f32 0xC0000000#32))
            (shapeCast S1024x128 Y shapeCasts_S1x1024x128_S1024x128))
          bitsLt_bf16_f32)
        transposes_S1024x128_p1_0_S128x1024 (ix2 d m)
      = ((-2 : ℝ) : EReal) * Y (ix3 (0 : Fin 1) m d) := by
  refine (transpose_ix2_apply _ transposes_S1024x128_p1_0_S128x1024 d m).trans ?_
  rw [truncf_apply, mulf_apply, broadcast_apply, shapeCast_1ab_ab_apply Y shapeCasts_S1x1024x128_S1024x128 m d]
  exact congrArg (· * Y (ix3 (0 : Fin 1) m d)) Cert.Chamfer.ofBits_neg_two

/-- The squared distance the kernel forms for row n and column m. -/
theorem pay10_apply (xb : Vec Ideal S2048x128 .bf16) (x2 : Vec Ideal S2048x1 .f32) (Y : Vec Ideal S1x1024x128 .f32)
    (n : Fin 2048) (m : Fin 1024) :
    k0_pay10 xb x2 Y (ix2 n m)
      = (x2 (ix2 n (0 : Fin 1)) + ∑ d : Fin 128, Y (ix3 (0 : Fin 1) m d) * Y (ix3 (0 : Fin 1) m d))
        + ∑ d : Fin 128, xb (ix2 n d) * (((-2 : ℝ) : EReal) * Y (ix3 (0 : Fin 1) m d)) := by
  unfold k0_pay10
  rw [addf_apply, addf_apply]
  refine congr (congrArg HAdd.hAdd (congr (congrArg HAdd.hAdd ?_) ?_)) ?_
  · exact broadcastTo_a1_ab_apply x2 broadcasts_S2048x1_S2048x1024 n m
  · refine (broadcastTo_1b_ab_apply _ broadcasts_S1x1024_S2048x1024 n m).trans ?_
    exact ynorm_apply Y m
  · rw [dot_eq_plain]
    refine (matmul_plain_zero_apply none xb _ n m).trans ?_
    refine Finset.sum_congr rfl fun d _ => ?_
    exact congrArg (xb (ix2 n d) * ·) (yscaled_apply Y d m)

end Cert.Chamfer.Body

end
-- ==== Proof.BodyBatch.lean ====
/-
  One batch of the kernel, as a pure function of the six tiles it is handed, read at the first entry of its output
  block.

  A batch visits the two tiles of 2048 points of the first cloud and, for each, the four tiles of 1024 points of the
  second. For a tile X of the first cloud and a tile Y of the second, D X Y n m is the squared distance the kernel
  forms between point n of X and point m of Y. Along a tile X of the first cloud the running row minimum at n is
  lowered tile after tile of the second cloud, and after the fourth tile the sum over n of the root of the clamped
  minimum, scaled by 1/4096, is added to the output (Prow). Along a tile Y of the second cloud the column minimum at m
  over the first tile of the first cloud is kept in the tile's columns of the running column minima, is lowered by
  the minimum over the second tile, and the sum over m of the root of the clamped minimum, scaled by 1/4096, is added
  to the output (Qcol). Tiles with different positions share no column, so what a tile kept is what it reads back.
-/
import proofs.«155424_j67413806678291_2_alg».proof.Proof.KIModel
import proofs.«155424_j67413806678291_2_alg».proof.Proof.Spec
import proofs.«155424_j67413806678291_2_alg».proof.Proof.BodyTile
import proofs.«155424_j67413806678291_2_alg».proof.Proof.BodyMin
import proofs.«155424_j67413806678291_2_alg».proof.Proof.BodyOut
import proofs.«155424_j67413806678291_2_alg».proof.Proof.BodyInf
import proofs.«155424_j67413806678291_2_alg».proof.Proof.BodySq
import proofs.«155424_j67413806678291_2_alg».proof.Proof.BodyDist

set_option synthInstance.maxSize 4096
set_option maxRecDepth 16384

noncomputable section

namespace Cert.Chamfer.Body

open Idealize.ShloMosaic Idealize.ShloMosaic.ValueIdx Idealize.SL.Sem
open Cert.KernelIdeal Cert.KernelIdeal.Gen Cert.KernelIdeal.Hand

/-- The squared distance the kernel forms between point n of the first cloud's tile X and point m of the second
    cloud's tile Y. -/
def D (X : Vec Ideal S1x2048x128 .f32) (Y : Vec Ideal S1x1024x128 .f32) (n : Fin 2048) (m : Fin 1024) : EReal :=
  k0_pay10 (k0_pay8 X) (k0_pay9 X) Y (ix2 n m)

/-- The squared distance in entries of the two tiles: |x_n|² + |y_m|² + Σ_d x_n,d · (−2 · y_m,d). -/
theorem D_eq (X : Vec Ideal S1x2048x128 .f32) (Y : Vec Ideal S1x1024x128 .f32) (n : Fin 2048) (m : Fin 1024) :
    D X Y n m
      = ((∑ d : Fin 128, X (ix3 (0 : Fin 1) n d) * X (ix3 (0 : Fin 1) n d))
          + ∑ d : Fin 128, Y (ix3 (0 : Fin 1) m d) * Y (ix3 (0 : Fin 1) m d))
        + ∑ d : Fin 128, X (ix3 (0 : Fin 1) n d) * (((-2 : ℝ) : EReal) * Y (ix3 (0 : Fin 1) m d)) := by
  unfold D
  rw [pay10_apply, pay9_apply]
  simp only [pay8_apply]

/-- The first cloud's side of a tile X against the four tiles of the second cloud: the sum over the tile's points of
    the root of the clamped least squared distance, the minimum lowered tile after tile. -/
def Prow (X : Vec Ideal S1x2048x128 .f32) (Y0 Y1 Y2 Y3 : Vec Ideal S1x1024x128 .f32) : EReal :=
  ∑ n : Fin 2048, Cert.Chamfer.root
    (min (min (min (Finset.univ.inf fun m : Fin 1024 => D X Y0 n m) (Finset.univ.inf fun m : Fin 1024 => D X Y1 n m))
      (Finset.univ.inf fun m : Fin 1024 => D X Y2 n m)) (Finset.univ.inf fun m : Fin 1024 => D X Y3 n m))

/-- The second cloud's side of a tile Y against the two tiles of the first cloud. -/
def Qcol (X0 X1 : Vec Ideal S1x2048x128 .f32) (Y : Vec Ideal S1x1024x128 .f32) : EReal :=
  ∑ m : Fin 1024, Cert.Chamfer.root
    (min (Finset.univ.inf fun n : Fin 2048 => D X0 Y n m) (Finset.univ.inf fun n : Fin 2048 => D X1 Y n m))

/-! ### The running minima, one point at a time -/

/-- Row minima started by a tile pair. -/
theorem rows_start (X : Vec Ideal S1x2048x128 .f32) (Y : Vec Ideal S1x1024x128 .f32) (n : Fin 2048) :
    k0_pay13 (k0_pay8 X) (k0_pay9 X) Y (ix2 n (0 : Fin 1)) = Finset.univ.inf fun m : Fin 1024 => D X Y n m := by
  rw [pay13_eq]
  exact pay11_apply _ _ _ n

/-- Row minima lowered by a tile pair. -/
theorem rows_lower (X : Vec Ideal S1x2048x128 .f32) (Y : Vec Ideal S1x1024x128 .f32) (P : Vec Ideal S2048x1 .f32)
    (n : Fin 2048) :
    k0_pay1 (k0_pay11 (k0_pay8 X) (k0_pay9 X) Y) P (ix2 n (0 : Fin 1))
      = min (P (ix2 n (0 : Fin 1))) (Finset.univ.inf fun m : Fin 1024 => D X Y n m) := by
  rw [pay1_apply, pay11_apply]
  rfl

/-- Column minima started by a tile pair. -/
theorem cols_start (X : Vec Ideal S1x2048x128 .f32) (Y : Vec Ideal S1x1024x128 .f32) (m : Fin 1024) :
    k0_pay3 (k0_pay12 (k0_pay8 X) (k0_pay9 X) Y) (ix2 (0 : Fin 1) m) = Finset.univ.inf fun n : Fin 2048 => D X Y n m := by
  rw [pay3_eq]
  exact pay12_apply _ _ _ m

/-- Column minima lowered by a tile pair. -/
theorem cols_lower (X : Vec Ideal S1x2048x128 .f32) (Y : Vec Ideal S1x1024x128 .f32) (Cs : Vec Ideal S1x1024 .f32)
    (m : Fin 1024) :
    k0_pay4 (k0_pay12 (k0_pay8 X) (k0_pay9 X) Y) Cs (ix2 (0 : Fin 1) m)
      = min (Cs (ix2 (0 : Fin 1) m)) (Finset.univ.inf fun n : Fin 2048 => D X Y n m) := by
  rw [pay4_apply, pay12_apply]
  rfl

/-- Adding the first side's share of a tile whose running row minima are P. -/
theorem add_rows (P : Vec Ideal S2048x1 .f32) (O : Vec Ideal S1x8x128 .f32) (f : Fin 2048 → EReal)
    (hP : ∀ n, P (ix2 n (0 : Fin 1)) = f n) :
    k0_pay2 P O (ix3 (0 : Fin 1) (0 : Fin 8) (0 : Fin 128))
      = O (ix3 (0 : Fin 1) (0 : Fin 8) (0 : Fin 128))
        + (∑ n : Fin 2048, Cert.Chamfer.root (f n)) * ((1 / 4096 : ℝ) : EReal) := by
  rw [pay2_apply]
  refine congrArg (fun t => _ + t * _) (Finset.sum_congr rfl fun n _ => ?_)
  rw [hP n]
  rfl

/-- Adding the second side's share of a tile whose running column minima are Cs. -/
theorem add_cols (Cs : Vec Ideal S1x1024 .f32) (O : Vec Ideal S1x8x128 .f32) (f : Fin 1024 → EReal)
    (hC : ∀ m, Cs (ix2 (0 : Fin 1) m) = f m) :
    k0_pay5 Cs O (ix3 (0 : Fin 1) (0 : Fin 8) (0 : Fin 128))
      = O (ix3 (0 : Fin 1) (0 : Fin 8) (0 : Fin 128))
        + (∑ m : Fin 1024, Cert.Chamfer.root (f m)) * ((1 / 4096 : ℝ) : EReal) := by
  rw [pay5_apply]
  refine congrArg (fun t => _ + t * _) (Finset.sum_congr rfl fun m _ => ?_)
  rw [hC m]
  rfl

/-! ### One batch -/

/-- The eight points of a batch in the order the grid visits them. -/
def batchRun (c00 c01 c02 c03 c10 c11 c12 c13 : grid0.Coords) (X0 X1 : Vec Ideal S1x2048x128 .f32)
    (Y0 Y1 Y2 Y3 : Vec Ideal S1x1024x128 .f32) (s : St Ideal) : St Ideal :=
  stepG c13 Y3 (stepE c12 Y2 (stepE c11 Y1 (stepD c10 X1 Y0
    (stepC c03 Y3 (stepB c02 Y2 (stepB c01 Y1 (stepA c00 X0 Y0 s)))))))

section Batch

variable (c00 c01 c02 c03 c10 c11 c12 c13 : grid0.Coords) (X0 X1 : Vec Ideal S1x2048x128 .f32)
  (Y0 Y1 Y2 Y3 : Vec Ideal S1x1024x128 .f32) (s : St Ideal)

local notation "σ1" => stepA c00 X0 Y0 s
local notation "σ2" => stepB c01 Y1 (stepA c00 X0 Y0 s)
local notation "σ3" => stepB c02 Y2 (stepB c01 Y1 (stepA c00 X0 Y0 s))
local notation "σ4" => stepC c03 Y3 (stepB c02 Y2 (stepB c01 Y1 (stepA c00 X0 Y0 s)))
local notation "σ5" => stepD c10 X1 Y0 (stepC c03 Y3 (stepB c02 Y2 (stepB c01 Y1 (stepA c00 X0 Y0 s))))
local notation "σ6" => stepE c11 Y1 (stepD c10 X1 Y0 (stepC c03 Y3 (stepB c02 Y2 (stepB c01 Y1 (stepA c00 X0 Y0 s)))))
local notation "σ7" =>
  stepE c12 Y2 (stepE c11 Y1 (stepD c10 X1 Y0 (stepC c03 Y3 (stepB c02 Y2 (stepB c01 Y1 (stepA c00 X0 Y0 s))))))

/-- The running row minima after the four points of the first tile of the first cloud. -/
theorem rows_tile0 (n : Fin 2048) :
    St.p (σ4) (ix2 n (0 : Fin 1))
      = min (min (min (Finset.univ.inf fun m : Fin 1024 => D X0 Y0 n m) (Finset.univ.inf fun m : Fin 1024 => D X0 Y1 n m))
          (Finset.univ.inf fun m : Fin 1024 => D X0 Y2 n m)) (Finset.univ.inf fun m : Fin 1024 => D X0 Y3 n m) := by
  dsimp only [stepC, stepB, stepA]
  rw [rows_lower, rows_lower, rows_lower, rows_start]

/-- The running row minima after the four points of the second tile of the first cloud. -/
theorem rows_tile1 (n : Fin 2048) :
    k0_pay1 (k0_pay11 (St.xb (σ7)) (St.q (σ7)) Y3) (St.p (σ7)) (ix2 n (0 : Fin 1))
      = min (min (min (Finset.univ.inf fun m : Fin 1024 => D X1 Y0 n m) (Finset.univ.inf fun m : Fin 1024 => D X1 Y1 n m))
          (Finset.univ.inf fun m : Fin 1024 => D X1 Y2 n m)) (Finset.univ.inf fun m : Fin 1024 => D X1 Y3 n m) := by
  dsimp only [stepE, stepD]
  rw [rows_lower, rows_lower, rows_lower, rows_start]

variable (h00 : (c00 2).val = 0) (h01 : (c01 2).val = 1) (h02 : (c02 2).val = 2) (h03 : (c03 2).val = 3)
  (h10 : (c10 2).val = 0) (h11 : (c11 2).val = 1) (h12 : (c12 2).val = 2) (h13 : (c13 2).val = 3)

include h00 h01 h02 h03 h10 in
/-- What tile 0 of the running column minima holds when the second tile of the first cloud reaches it. -/
theorem cols_tile0 : getTile (St.cv (σ4)) c10 = k0_pay3 (k0_pay12 (k0_pay8 X0) (k0_pay9 X0) Y0) := by
  show getTile (setTile (setTile (setTile (setTile s.cv c00 _) c01 _) c02 _) c03 _) c10 = _
  rw [getTile_setTile_ne _ _ _ _ (by omega), getTile_setTile_ne _ _ _ _ (by omega),
    getTile_setTile_ne _ _ _ _ (by omega), getTile_setTile_eq _ _ _ _ (by omega)]

include h00 h01 h02 h03 h10 h11 in
/-- Tile 1 likewise. -/
theorem cols_tile1 : getTile (St.cv (σ5)) c11 = k0_pay3 (k0_pay12 (k0_pay8 X0) (k0_pay9 X0) Y1) := by
  show getTile (setTile (setTile (setTile (setTile (setTile s.cv c00 _) c01 _) c02 _) c03 _) c10 _) c11 = _
  rw [getTile_setTile_ne _ _ _ _ (by omega), getTile_setTile_ne _ _ _ _ (by omega),
    getTile_setTile_ne _ _ _ _ (by omega), getTile_setTile_eq _ _ _ _ (by omega)]
  rfl

include h00 h01 h02 h03 h10 h11 h12 in
/-- Tile 2 likewise. -/
theorem cols_tile2 : getTile (St.cv (σ6)) c12 = k0_pay3 (k0_pay12 (k0_pay8 X0) (k0_pay9 X0) Y2) := by
  show getTile (setTile (setTile (setTile (setTile (setTile (setTile s.cv c00 _) c01 _) c02 _) c03 _) c10 _) c11 _) c12 = _
  rw [getTile_setTile_ne _ _ _ _ (by omega), getTile_setTile_ne _ _ _ _ (by omega),
    getTile_setTile_ne _ _ _ _ (by omega), getTile_setTile_eq _ _ _ _ (by omega)]
  rfl

include h00 h01 h02 h03 h10 h11 h12 h13 in
/-- Tile 3 likewise. -/
theorem cols_tile3 : getTile (St.cv (σ7)) c13 = k0_pay3 (k0_pay12 (k0_pay8 X0) (k0_pay9 X0) Y3) := by
  show getTile (setTile (setTile (setTile (setTile (setTile (setTile (setTile s.cv c00 _) c01 _) c02 _) c03 _) c10 _) c11 _)
      c12 _) c13 = _
  rw [getTile_setTile_ne _ _ _ _ (by omega), getTile_setTile_ne _ _ _ _ (by omega),
    getTile_setTile_ne _ _ _ _ (by omega), getTile_setTile_eq _ _ _ _ (by omega)]
  rfl

/-- The share of the second side a tile Y adds, once the tile reads back the first tile's column minima. -/
theorem cols_share (Y : Vec Ideal S1x1024x128 .f32) (T : Vec Ideal S1x1024 .f32) (O : Vec Ideal S1x8x128 .f32)
    (hT : T = k0_pay3 (k0_pay12 (k0_pay8 X0) (k0_pay9 X0) Y)) :
    k0_pay5 (k0_pay4 (k0_pay12 (k0_pay8 X1) (k0_pay9 X1) Y) T) O (ix3 (0 : Fin 1) (0 : Fin 8) (0 : Fin 128))
      = O (ix3 (0 : Fin 1) (0 : Fin 8) (0 : Fin 128)) + Qcol X0 X1 Y * ((1 / 4096 : ℝ) : EReal) := by
  refine add_cols _ O _ fun m => ?_
  rw [cols_lower, hT, cols_start]

include h00 h01 h02 h03 h10 h11 h12 h13 in
/-- Entry (0, 0, 0) of the output block after a batch: the six shares in the order the grid adds them, from 0. -/
theorem batchRun_o :
    (batchRun c00 c01 c02 c03 c10 c11 c12 c13 X0 X1 Y0 Y1 Y2 Y3 s).o (ix3 (0 : Fin 1) (0 : Fin 8) (0 : Fin 128))
      = ((((((0 + Prow X0 Y0 Y1 Y2 Y3 * ((1 / 4096 : ℝ) : EReal)) + Qcol X0 X1 Y0 * ((1 / 4096 : ℝ) : EReal))
            + Qcol X0 X1 Y1 * ((1 / 4096 : ℝ) : EReal)) + Qcol X0 X1 Y2 * ((1 / 4096 : ℝ) : EReal))
          + Prow X1 Y0 Y1 Y2 Y3 * ((1 / 4096 : ℝ) : EReal)) + Qcol X0 X1 Y3 * ((1 / 4096 : ℝ) : EReal)) := by
  have o4 : St.o (σ4) (ix3 (0 : Fin 1) (0 : Fin 8) (0 : Fin 128))
      = 0 + Prow X0 Y0 Y1 Y2 Y3 * ((1 / 4096 : ℝ) : EReal) := by
    show k0_pay2 (St.p (σ4)) (k0_pay6 (F := Ideal)) (ix3 (0 : Fin 1) (0 : Fin 8) (0 : Fin 128)) = _
    rw [add_rows _ _ _ (rows_tile0 c00 c01 c02 c03 X0 Y0 Y1 Y2 Y3 s), pay6_apply]
    rfl
  have o5 : St.o (σ5) (ix3 (0 : Fin 1) (0 : Fin 8) (0 : Fin 128))
      = St.o (σ4) (ix3 (0 : Fin 1) (0 : Fin 8) (0 : Fin 128)) + Qcol X0 X1 Y0 * ((1 / 4096 : ℝ) : EReal) :=
    cols_share X0 X1 Y0 _ _ (cols_tile0 c00 c01 c02 c03 c10 X0 Y0 Y1 Y2 Y3 s h00 h01 h02 h03 h10)
  have o6 : St.o (σ6) (ix3 (0 : Fin 1) (0 : Fin 8) (0 : Fin 128))
      = St.o (σ5) (ix3 (0 : Fin 1) (0 : Fin 8) (0 : Fin 128)) + Qcol X0 X1 Y1 * ((1 / 4096 : ℝ) : EReal) :=
    cols_share X0 X1 Y1 _ _ (cols_tile1 c00 c01 c02 c03 c10 c11 X0 X1 Y0 Y1 Y2 Y3 s h00 h01 h02 h03 h10 h11)
  have o7 : St.o (σ7) (ix3 (0 : Fin 1) (0 : Fin 8) (0 : Fin 128))
      = St.o (σ6) (ix3 (0 : Fin 1) (0 : Fin 8) (0 : Fin 128)) + Qcol X0 X1 Y2 * ((1 / 4096 : ℝ) : EReal) :=
    cols_share X0 X1 Y2 _ _ (cols_tile2 c00 c01 c02 c03 c10 c11 c12 X0 X1 Y0 Y1 Y2 Y3 s h00 h01 h02 h03 h10 h11 h12)
  have o8 : (batchRun c00 c01 c02 c03 c10 c11 c12 c13 X0 X1 Y0 Y1 Y2 Y3 s).o (ix3 (0 : Fin 1) (0 : Fin 8) (0 : Fin 128))
      = (St.o (σ7) (ix3 (0 : Fin 1) (0 : Fin 8) (0 : Fin 128)) + Prow X1 Y0 Y1 Y2 Y3 * ((1 / 4096 : ℝ) : EReal))
        + Qcol X0 X1 Y3 * ((1 / 4096 : ℝ) : EReal) := by
    show k0_pay5 (k0_pay4 (k0_pay12 (k0_pay8 X1) (k0_pay9 X1) Y3) (getTile (St.cv (σ7)) c13))
        (k0_pay2 (k0_pay1 (k0_pay11 (St.xb (σ7)) (St.q (σ7)) Y3) (St.p (σ7))) (St.o (σ7)))
        (ix3 (0 : Fin 1) (0 : Fin 8) (0 : Fin 128)) = _
    rw [cols_share X0 X1 Y3 _ _
        (cols_tile3 c00 c01 c02 c03 c10 c11 c12 c13 X0 X1 Y0 Y1 Y2 Y3 s h00 h01 h02 h03 h10 h11 h12 h13),
      add_rows _ _ _ (rows_tile1 c00 c01 c02 c03 c10 c11 c12 X0 X1 Y0 Y1 Y2 Y3 s)]
    rfl
  rw [o8, o7, o6, o5, o4]

end Batch

end Cert.Chamfer.Body

end
-- ==== Proof.Regroup.lean ====
/-
  Minima and sums over 4096 indices taken tile by tile.

  When the 4096 indices are cut into two consecutive tiles of 2048 or four of 1024, the minimum over all of them is
  the minimum of the tiles' minima, and the sum over all of them is the sum of the tiles' sums. A tile is given by any
  map from the tile's local index to the global one whose value is the tile's offset plus the local index, so the
  statements do not depend on how the offset arithmetic is spelt. For nonnegative terms, multiplying each tile's sum
  by a common factor and adding is multiplying the whole sum by it (multiplication distributes over sums of
  nonnegative extended reals).
-/
import Mathlib.Data.EReal.Operations
import Mathlib.Algebra.BigOperators.Fin
import Mathlib.Algebra.Order.BigOperators.Group.Finset
import Mathlib.Data.Finset.Lattice.Fold
import Mathlib.Tactic.Abel

noncomputable section

namespace Cert.Chamfer

/-- Index k of tile s when 4096 indices are cut into two tiles of 2048. -/
def tile2 (s : Fin 2) (k : Fin 2048) : Fin 4096 :=
  ⟨2048 * s.val + k.val, by have := s.isLt; have := k.isLt; omega⟩

/-- Index k of tile s when 4096 indices are cut into four tiles of 1024. -/
def tile4 (s : Fin 4) (k : Fin 1024) : Fin 4096 :=
  ⟨1024 * s.val + k.val, by have := s.isLt; have := k.isLt; omega⟩

/-! ### Minima -/

/-- The minimum over 4096 indices is the minimum of the minima over two consecutive tiles of 2048. -/
theorem inf_two_tiles (f : Fin 4096 → EReal) (e0 e1 : Fin 2048 → Fin 4096)
    (h0 : ∀ k, (e0 k).val = k.val) (h1 : ∀ k, (e1 k).val = 2048 + k.val) :
    min (Finset.univ.inf fun k : Fin 2048 => f (e0 k)) (Finset.univ.inf fun k : Fin 2048 => f (e1 k))
      = Finset.univ.inf f := by
  apply le_antisymm
  · refine Finset.le_inf fun n _ => ?_
    have hn := n.isLt
    by_cases c1 : n.val < 2048
    · have en : e0 ⟨n.val, c1⟩ = n := Fin.ext (h0 _)
      exact (min_le_left _ _).trans
        ((Finset.inf_le (Finset.mem_univ (⟨n.val, c1⟩ : Fin 2048))).trans (le_of_eq (congrArg f en)))
    · have c2 : n.val - 2048 < 2048 := by omega
      have en : e1 ⟨n.val - 2048, c2⟩ = n := Fin.ext (by rw [h1]; show 2048 + (n.val - 2048) = n.val; omega)
      exact (min_le_right _ _).trans
        ((Finset.inf_le (Finset.mem_univ (⟨n.val - 2048, c2⟩ : Fin 2048))).trans (le_of_eq (congrArg f en)))
  · exact le_min (Finset.le_inf fun k _ => Finset.inf_le (Finset.mem_univ _))
      (Finset.le_inf fun k _ => Finset.inf_le (Finset.mem_univ _))

/-- The minimum over 4096 indices is the minimum, taken tile after tile, of the minima over four consecutive tiles
    of 1024. -/
theorem inf_four_tiles (f : Fin 4096 → EReal) (e0 e1 e2 e3 : Fin 1024 → Fin 4096)
    (h0 : ∀ k, (e0 k).val = k.val) (h1 : ∀ k, (e1 k).val = 1024 + k.val)
    (h2 : ∀ k, (e2 k).val = 2048 + k.val) (h3 : ∀ k, (e3 k).val = 3072 + k.val) :
    min (min (min (Finset.univ.inf fun k : Fin 1024 => f (e0 k)) (Finset.univ.inf fun k : Fin 1024 => f (e1 k)))
        (Finset.univ.inf fun k : Fin 1024 => f (e2 k))) (Finset.univ.inf fun k : Fin 1024 => f (e3 k))
      = Finset.univ.inf f := by
  apply le_antisymm
  · refine Finset.le_inf fun n _ => ?_
    have hn := n.isLt
    by_cases c1 : n.val < 1024
    · have en : e0 ⟨n.val, c1⟩ = n := Fin.ext (h0 _)
      exact (min_le_left _ _).trans ((min_le_left _ _).trans ((min_le_left _ _).trans
        ((Finset.inf_le (Finset.mem_univ (⟨n.val, c1⟩ : Fin 1024))).trans (le_of_eq (congrArg f en)))))
    · by_cases c2 : n.val < 2048
      · have d : n.val - 1024 < 1024 := by omega
        have en : e1 ⟨n.val - 1024, d⟩ = n := Fin.ext (by rw [h1]; show 1024 + (n.val - 1024) = n.val; omega)
        exact (min_le_left _ _).trans ((min_le_left _ _).trans ((min_le_right _ _).trans
          ((Finset.inf_le (Finset.mem_univ (⟨n.val - 1024, d⟩ : Fin 1024))).trans (le_of_eq (congrArg f en)))))
      · by_cases c3 : n.val < 3072
        · have d : n.val - 2048 < 1024 := by omega
          have en : e2 ⟨n.val - 2048, d⟩ = n := Fin.ext (by rw [h2]; show 2048 + (n.val - 2048) = n.val; omega)
          exact (min_le_left _ _).trans ((min_le_right _ _).trans
            ((Finset.inf_le (Finset.mem_univ (⟨n.val - 2048, d⟩ : Fin 1024))).trans (le_of_eq (congrArg f en))))
        · have d : n.val - 3072 < 1024 := by omega
          have en : e3 ⟨n.val - 3072, d⟩ = n := Fin.ext (by rw [h3]; show 3072 + (n.val - 3072) = n.val; omega)
          exact (min_le_right _ _).trans
            ((Finset.inf_le (Finset.mem_univ (⟨n.val - 3072, d⟩ : Fin 1024))).trans (le_of_eq (congrArg f en)))
  · exact le_min (le_min (le_min (Finset.le_inf fun k _ => Finset.inf_le (Finset.mem_univ _))
      (Finset.le_inf fun k _ => Finset.inf_le (Finset.mem_univ _)))
      (Finset.le_inf fun k _ => Finset.inf_le (Finset.mem_univ _)))
      (Finset.le_inf fun k _ => Finset.inf_le (Finset.mem_univ _))

/-- The two-tile minimum, with the tiles spelt by `tile2`. -/
theorem inf_tile2 (f : Fin 4096 → EReal) :
    min (Finset.univ.inf fun k : Fin 2048 => f (tile2 0 k)) (Finset.univ.inf fun k : Fin 2048 => f (tile2 1 k))
      = Finset.univ.inf f :=
  inf_two_tiles f (tile2 0) (tile2 1) (fun k => by show 2048 * 0 + k.val = k.val; omega)
    (fun k => by show 2048 * 1 + k.val = 2048 + k.val; omega)

/-- The four-tile minimum, with the tiles spelt by `tile4`. -/
theorem inf_tile4 (f : Fin 4096 → EReal) :
    min (min (min (Finset.univ.inf fun k : Fin 1024 => f (tile4 0 k)) (Finset.univ.inf fun k : Fin 1024 => f (tile4 1 k)))
        (Finset.univ.inf fun k : Fin 1024 => f (tile4 2 k))) (Finset.univ.inf fun k : Fin 1024 => f (tile4 3 k))
      = Finset.univ.inf f :=
  inf_four_tiles f (tile4 0) (tile4 1) (tile4 2) (tile4 3) (fun k => by show 1024 * 0 + k.val = k.val; omega)
    (fun k => by show 1024 * 1 + k.val = 1024 + k.val; omega)
    (fun k => by show 1024 * 2 + k.val = 2048 + k.val; omega)
    (fun k => by show 1024 * 3 + k.val = 3072 + k.val; omega)

/-! ### Sums -/

/-- A sum over a + b indices is the sum over the first a plus the sum over the last b. -/
theorem sum_split {M : Type*} [AddCommMonoid M] (a b : ℕ) (g : Fin (a + b) → M) (e0 : Fin a → Fin (a + b))
    (e1 : Fin b → Fin (a + b)) (h0 : ∀ k, (e0 k).val = k.val) (h1 : ∀ k, (e1 k).val = a + k.val) :
    (∑ k : Fin a, g (e0 k)) + (∑ k : Fin b, g (e1 k)) = ∑ n : Fin (a + b), g n := by
  rw [Fin.sum_univ_add]
  refine congrArg₂ (· + ·) (Finset.sum_congr rfl fun k _ => congrArg g (Fin.ext ?_))
    (Finset.sum_congr rfl fun k _ => congrArg g (Fin.ext ?_))
  · rw [h0, Fin.val_castAdd]
  · rw [h1, Fin.val_natAdd]

/-- The sum over 4096 indices is the sum of the sums over two consecutive tiles of 2048. -/
theorem sum_two_tiles {M : Type*} [AddCommMonoid M] (g : Fin 4096 → M) (e0 e1 : Fin 2048 → Fin 4096)
    (h0 : ∀ k, (e0 k).val = k.val) (h1 : ∀ k, (e1 k).val = 2048 + k.val) :
    (∑ k : Fin 2048, g (e0 k)) + (∑ k : Fin 2048, g (e1 k)) = ∑ n : Fin 4096, g n :=
  sum_split 2048 2048 g e0 e1 h0 h1

/-- The sum over 4096 indices is the sum, tile after tile, of the sums over four consecutive tiles of 1024. -/
theorem sum_four_tiles {M : Type*} [AddCommMonoid M] (g : Fin 4096 → M) (e0 e1 e2 e3 : Fin 1024 → Fin 4096)
    (h0 : ∀ k, (e0 k).val = k.val) (h1 : ∀ k, (e1 k).val = 1024 + k.val)
    (h2 : ∀ k, (e2 k).val = 2048 + k.val) (h3 : ∀ k, (e3 k).val = 3072 + k.val) :
    (∑ k : Fin 1024, g (e0 k)) + (∑ k : Fin 1024, g (e1 k)) + (∑ k : Fin 1024, g (e2 k)) + (∑ k : Fin 1024, g (e3 k))
      = ∑ n : Fin 4096, g n := by
  have hlo : ∀ k : Fin 2048, k.val < 4096 := fun k => by have := k.isLt; omega
  have hhi : ∀ k : Fin 2048, 2048 + k.val < 4096 := fun k => by have := k.isLt; omega
  have hk : ∀ k : Fin 1024, k.val < 2048 := fun k => by have := k.isLt; omega
  have hk' : ∀ k : Fin 1024, 1024 + k.val < 2048 := fun k => by have := k.isLt; omega
  have lo : (∑ k : Fin 1024, g (e0 k)) + (∑ k : Fin 1024, g (e1 k)) = ∑ k : Fin 2048, g ⟨k.val, hlo k⟩ :=
    sum_split 1024 1024 (fun k : Fin 2048 => g ⟨k.val, hlo k⟩) (fun k => ⟨k.val, hk k⟩) (fun k => ⟨1024 + k.val, hk' k⟩)
      (fun _ => rfl) (fun _ => rfl) ▸ by
      refine congrArg₂ (· + ·) (Finset.sum_congr rfl fun k _ => congrArg g (Fin.ext ?_))
        (Finset.sum_congr rfl fun k _ => congrArg g (Fin.ext ?_))
      · exact h0 k
      · exact h1 k
  have hi : (∑ k : Fin 1024, g (e2 k)) + (∑ k : Fin 1024, g (e3 k)) = ∑ k : Fin 2048, g ⟨2048 + k.val, hhi k⟩ :=
    sum_split 1024 1024 (fun k : Fin 2048 => g ⟨2048 + k.val, hhi k⟩) (fun k => ⟨k.val, hk k⟩) (fun k => ⟨1024 + k.val, hk' k⟩)
      (fun _ => rfl) (fun _ => rfl) ▸ by
      refine congrArg₂ (· + ·) (Finset.sum_congr rfl fun k _ => congrArg g (Fin.ext ?_))
        (Finset.sum_congr rfl fun k _ => congrArg g (Fin.ext ?_))
      · exact h2 k
      · rw [h3]; show 3072 + k.val = 2048 + (1024 + k.val); omega
  rw [add_assoc, lo, hi]
  exact sum_two_tiles g (fun k => ⟨k.val, hlo k⟩) (fun k => ⟨2048 + k.val, hhi k⟩) (fun _ => rfl) (fun _ => rfl)

/-! ### Scaled sums of nonnegative terms -/

/-- Two tiles' sums of nonnegative terms, each scaled by c and added, are the whole sum scaled by c. -/
theorem scaled_sum_two_tiles (g : Fin 4096 → EReal) (hg : ∀ n, 0 ≤ g n) (c : EReal) (e0 e1 : Fin 2048 → Fin 4096)
    (h0 : ∀ k, (e0 k).val = k.val) (h1 : ∀ k, (e1 k).val = 2048 + k.val) :
    (∑ k : Fin 2048, g (e0 k)) * c + (∑ k : Fin 2048, g (e1 k)) * c = (∑ n : Fin 4096, g n) * c := by
  rw [← EReal.right_distrib_of_nonneg (Finset.sum_nonneg fun k _ => hg _) (Finset.sum_nonneg fun k _ => hg _),
    sum_two_tiles g e0 e1 h0 h1]

/-- Four tiles' sums of nonnegative terms, each scaled by c and added tile after tile, are the whole sum scaled by c. -/
theorem scaled_sum_four_tiles (g : Fin 4096 → EReal) (hg : ∀ n, 0 ≤ g n) (c : EReal) (e0 e1 e2 e3 : Fin 1024 → Fin 4096)
    (h0 : ∀ k, (e0 k).val = k.val) (h1 : ∀ k, (e1 k).val = 1024 + k.val)
    (h2 : ∀ k, (e2 k).val = 2048 + k.val) (h3 : ∀ k, (e3 k).val = 3072 + k.val) :
    (∑ k : Fin 1024, g (e0 k)) * c + (∑ k : Fin 1024, g (e1 k)) * c + (∑ k : Fin 1024, g (e2 k)) * c
        + (∑ k : Fin 1024, g (e3 k)) * c
      = (∑ n : Fin 4096, g n) * c := by
  have n0 : (0 : EReal) ≤ ∑ k : Fin 1024, g (e0 k) := Finset.sum_nonneg fun k _ => hg _
  have n1 : (0 : EReal) ≤ ∑ k : Fin 1024, g (e1 k) := Finset.sum_nonneg fun k _ => hg _
  have n2 : (0 : EReal) ≤ ∑ k : Fin 1024, g (e2 k) := Finset.sum_nonneg fun k _ => hg _
  have n3 : (0 : EReal) ≤ ∑ k : Fin 1024, g (e3 k) := Finset.sum_nonneg fun k _ => hg _
  rw [← EReal.right_distrib_of_nonneg n0 n1, ← EReal.right_distrib_of_nonneg (add_nonneg n0 n1) n2,
    ← EReal.right_distrib_of_nonneg (add_nonneg (add_nonneg n0 n1) n2) n3, sum_four_tiles g e0 e1 e2 e3 h0 h1 h2 h3]

/-- Six contributions added from zero in the order first side, second side thrice, first side, second side, regrouped
    side by side. -/
theorem regroup_six (p0 p1 c0 c1 c2 c3 : EReal) :
    0 + p0 + c0 + c1 + c2 + p1 + c3 = (p0 + p1) + (c0 + c1 + c2 + c3) := by
  rw [zero_add]; abel

end Cert.Chamfer

end
-- ==== Proof.Algebra.lean ====
/-
  The law joining the two spellings of the Chamfer distance.

  On finite inputs the squared distance with the factor −2 carried inside the inner product is the one with the
  factor 2 outside it (both are the same real number). Clamping at zero and taking the square root is a monotone map
  of the extended reals that fixes the top element, so it commutes with a minimum over a finite family: the root of
  the least squared distance is the least distance. Multiplying by 1/4096 is dividing by 4096. Together these turn
  the spelling that reduces squared distances first into the one that takes the distance of every pair first.
-/
import proofs.«155424_j67413806678291_2_alg».proof.Proof.Spec

noncomputable section

namespace Cert.Chamfer

open Idealize.ShloMosaic Idealize.ShloMosaic.ValueIdx

/-- The inclusion of the reals in the extended reals carries finite sums to finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On real-valued inputs the two spellings of the squared distance agree. -/
theorem dist2K_eq_dist2 (x y : Cloud.Idx → EReal) (hx : ∀ i, ∃ r : ℝ, x i = (r : EReal))
    (hy : ∀ i, ∃ r : ℝ, y i = (r : EReal)) (b : Fin 8) (n m : Fin 4096) :
    dist2K x y b n m = dist2 x y b n m := by
  choose fx hfx using hx
  choose fy hfy using hy
  have hsum : (∑ d : Fin 128, fx (ix3 b n d) * (-2 * fy (ix3 b m d)))
      = -(2 * ∑ d : Fin 128, fx (ix3 b n d) * fy (ix3 b m d)) := by
    rw [Finset.mul_sum, ← Finset.sum_neg_distrib]
    exact Finset.sum_congr rfl fun d _ => by ring
  unfold dist2K dist2 sq dot
  simp only [hfx, hfy, ← EReal.coe_mul, ← coe_finset_sum, ← EReal.coe_add, ← EReal.coe_sub]
  rw [hsum]
  exact congrArg _ (by ring)

/-- The square root of the extended reals is monotone. -/
theorem sqrt_mono {s t : EReal} (h : s ≤ t) : Ideal.sqrt s ≤ Ideal.sqrt t := by
  induction s using EReal.rec with
  | bot => exact bot_le
  | top => rw [top_le_iff.mp h]
  | coe a =>
    induction t using EReal.rec with
    | bot => exact absurd (le_bot_iff.mp h) (EReal.coe_ne_bot a)
    | top => exact le_top
    | coe c =>
      have hac : a ≤ c := EReal.coe_le_coe_iff.mp h
      rw [Ideal.sqrt_coe, Ideal.sqrt_coe]
      by_cases ha : a < 0
      · rw [if_pos ha]; exact bot_le
      · rw [if_neg ha, if_neg (by linarith)]
        exact EReal.coe_le_coe_iff.mpr (Real.sqrt_le_sqrt hac)

/-- Clamping at zero and rooting is monotone. -/
theorem root_mono : Monotone root := fun _ _ h => sqrt_mono (max_le_max h le_rfl)

/-- The root is never negative. -/
theorem root_nonneg (t : EReal) : 0 ≤ root t := by
  have h0 : (0 : EReal) ≤ max t 0 := le_max_right _ _
  unfold root
  generalize max t 0 = u at h0
  induction u using EReal.rec with
  | bot => exact absurd (le_bot_iff.mp h0) (by simp)
  | top => exact le_top
  | coe a =>
    have ha : 0 ≤ a := EReal.coe_nonneg.mp h0
    rw [Ideal.sqrt_coe, if_neg (by linarith)]
    exact EReal.coe_nonneg.mpr (Real.sqrt_nonneg a)

/-- The root fixes the top element. -/
theorem root_top : root ⊤ = ⊤ := by
  unfold root
  rw [max_eq_left le_top, Ideal.sqrt_top]

/-- The root of a finite family's infimum is the infimum of the roots. -/
theorem root_inf {ι : Type*} (s : Finset ι) (f : ι → EReal) :
    root (s.inf f) = s.inf fun k => root (f k) :=
  Finset.comp_inf_eq_inf_comp_of_is_total root root_mono root_top

/-- Over 4096 indices: the root of the least value is the least root. -/
theorem root_inf_4096 (f : Fin 4096 → EReal) :
    root (Finset.univ.inf f) = Finset.univ.inf fun k : Fin 4096 => root (f k) :=
  root_inf Finset.univ f

/-- Multiplying by 1/4096 is dividing by 4096, at the infinities too. -/
theorem mul_inv_4096 (t : EReal) : t * ((1 / 4096 : ℝ) : EReal) = Ideal.div t ((4096 : ℝ) : EReal) :=
  (Ideal.div_coe (by norm_num) t).symm

/-- One batch of the spelling that reduces squared distances first, as the other spelling writes it. -/
theorem kerBatch_eq (x y : Cloud.Idx → EReal) (hx : ∀ i, ∃ r : ℝ, x i = (r : EReal))
    (hy : ∀ i, ∃ r : ℝ, y i = (r : EReal)) (b : Fin 8) :
    kerBatch x y b
      = Ideal.div (∑ m : Fin 4096, Finset.univ.inf fun n : Fin 4096 => root (dist2 x y b n m)) ((4096 : ℝ) : EReal)
        + Ideal.div (∑ n : Fin 4096, Finset.univ.inf fun m : Fin 4096 => root (dist2 x y b n m)) ((4096 : ℝ) : EReal) := by
  unfold kerBatch
  simp only [dist2K_eq_dist2 x y hx hy, root_inf, mul_inv_4096]
  exact add_comm _ _

/-- On real-valued inputs the two spellings of the Chamfer distance agree. -/
theorem ker_eq_ref (x y : Cloud.Idx → EReal) (hx : ∀ i, ∃ r : ℝ, x i = (r : EReal))
    (hy : ∀ i, ∃ r : ℝ, y i = (r : EReal)) : kerValue x y = refValue x y := by
  unfold kerValue refValue
  exact congrArg (fun s => Ideal.div s ((8 : ℝ) : EReal)) (Finset.sum_congr rfl fun b _ => kerBatch_eq x y hx hy b)

end Cert.Chamfer

end
-- ==== Proof.BodyKer.lean ====
/-
  One batch of the kernel is one batch of the Chamfer distance.

  When the six tiles a batch is handed are the two halves of cloud b of the first array and the four quarters of cloud
  b of the second, the squared distance the kernel forms between point n of a tile and point m of a tile is the squared
  distance of the two points of the clouds. A minimum lowered tile after tile over the four quarters is the minimum
  over the cloud, and so is a minimum over the two halves; the sums over the tiles' points, each scaled by 1/4096 and
  added in the order the grid visits them, regroup into the two sides' sums over the clouds, because every term is a
  root, hence nonnegative, and multiplication distributes over sums of nonnegative extended reals.
-/
import proofs.«155424_j67413806678291_2_alg».proof.Proof.BodyBatch
import proofs.«155424_j67413806678291_2_alg».proof.Proof.Regroup
import proofs.«155424_j67413806678291_2_alg».proof.Proof.Algebra

set_option synthInstance.maxSize 4096

noncomputable section

namespace Cert.Chamfer.Body

open Idealize.ShloMosaic Idealize.ShloMosaic.ValueIdx Idealize.SL.Sem
open Cert.KernelIdeal Cert.KernelIdeal.Gen Cert.KernelIdeal.Hand
open Cert.Chamfer

section

variable (x y : Cloud.Idx → EReal) (b : Fin 8)

/-- Between a tile of cloud b of `x` and a tile of cloud b of `y`, the kernel's squared distance is the clouds'. -/
theorem D_eq_dist2K (X : Vec Ideal S1x2048x128 .f32) (Y : Vec Ideal S1x1024x128 .f32)
    (ex : Fin 2048 → Fin 4096) (ey : Fin 1024 → Fin 4096)
    (hX : ∀ n d, X (ix3 (0 : Fin 1) n d) = x (ix3 b (ex n) d))
    (hY : ∀ m d, Y (ix3 (0 : Fin 1) m d) = y (ix3 b (ey m) d)) (n : Fin 2048) (m : Fin 1024) :
    D X Y n m = dist2K x y b (ex n) (ey m) := by
  rw [D_eq]
  unfold dist2K sq
  refine congr (congrArg HAdd.hAdd (congr (congrArg HAdd.hAdd ?_) ?_)) ?_
  · exact Finset.sum_congr rfl fun d _ => by rw [hX n d]
  · exact Finset.sum_congr rfl fun d _ => by rw [hY m d]
  · exact Finset.sum_congr rfl fun d _ => by rw [hX n d, hY m d]

variable (X0 X1 : Vec Ideal S1x2048x128 .f32) (Y0 Y1 Y2 Y3 : Vec Ideal S1x1024x128 .f32)
  (ex0 ex1 : Fin 2048 → Fin 4096) (ey0 ey1 ey2 ey3 : Fin 1024 → Fin 4096)

/-- The row minimum lowered over the four quarters of the second cloud is the minimum over the cloud. -/
theorem row_min_eq (X : Vec Ideal S1x2048x128 .f32) (ex : Fin 2048 → Fin 4096)
    (hX : ∀ n d, X (ix3 (0 : Fin 1) n d) = x (ix3 b (ex n) d))
    (hY0 : ∀ m d, Y0 (ix3 (0 : Fin 1) m d) = y (ix3 b (ey0 m) d))
    (hY1 : ∀ m d, Y1 (ix3 (0 : Fin 1) m d) = y (ix3 b (ey1 m) d))
    (hY2 : ∀ m d, Y2 (ix3 (0 : Fin 1) m d) = y (ix3 b (ey2 m) d))
    (hY3 : ∀ m d, Y3 (ix3 (0 : Fin 1) m d) = y (ix3 b (ey3 m) d))
    (hy0 : ∀ k, (ey0 k).val = k.val) (hy1 : ∀ k, (ey1 k).val = 1024 + k.val)
    (hy2 : ∀ k, (ey2 k).val = 2048 + k.val) (hy3 : ∀ k, (ey3 k).val = 3072 + k.val) (n : Fin 2048) :
    min (min (min (Finset.univ.inf fun m : Fin 1024 => D X Y0 n m) (Finset.univ.inf fun m : Fin 1024 => D X Y1 n m))
        (Finset.univ.inf fun m : Fin 1024 => D X Y2 n m)) (Finset.univ.inf fun m : Fin 1024 => D X Y3 n m)
      = Finset.univ.inf fun M : Fin 4096 => dist2K x y b (ex n) M := by
  rw [show (fun m : Fin 1024 => D X Y0 n m) = fun m => dist2K x y b (ex n) (ey0 m) from
      funext fun m => D_eq_dist2K x y b X Y0 ex ey0 hX hY0 n m,
    show (fun m : Fin 1024 => D X Y1 n m) = fun m => dist2K x y b (ex n) (ey1 m) from
      funext fun m => D_eq_dist2K x y b X Y1 ex ey1 hX hY1 n m,
    show (fun m : Fin 1024 => D X Y2 n m) = fun m => dist2K x y b (ex n) (ey2 m) from
      funext fun m => D_eq_dist2K x y b X Y2 ex ey2 hX hY2 n m,
    show (fun m : Fin 1024 => D X Y3 n m) = fun m => dist2K x y b (ex n) (ey3 m) from
      funext fun m => D_eq_dist2K x y b X Y3 ex ey3 hX hY3 n m]
  exact inf_four_tiles (fun M : Fin 4096 => dist2K x y b (ex n) M) ey0 ey1 ey2 ey3 hy0 hy1 hy2 hy3

/-- The column minimum lowered over the two halves of the first cloud is the minimum over the cloud. -/
theorem col_min_eq (Y : Vec Ideal S1x1024x128 .f32) (ey : Fin 1024 → Fin 4096)
    (hX0 : ∀ n d, X0 (ix3 (0 : Fin 1) n d) = x (ix3 b (ex0 n) d))
    (hX1 : ∀ n d, X1 (ix3 (0 : Fin 1) n d) = x (ix3 b (ex1 n) d))
    (hY : ∀ m d, Y (ix3 (0 : Fin 1) m d) = y (ix3 b (ey m) d))
    (hx0 : ∀ k, (ex0 k).val = k.val) (hx1 : ∀ k, (ex1 k).val = 2048 + k.val) (m : Fin 1024) :
    min (Finset.univ.inf fun n : Fin 2048 => D X0 Y n m) (Finset.univ.inf fun n : Fin 2048 => D X1 Y n m)
      = Finset.univ.inf fun N : Fin 4096 => dist2K x y b N (ey m) := by
  rw [show (fun n : Fin 2048 => D X0 Y n m) = fun n => dist2K x y b (ex0 n) (ey m) from
      funext fun n => D_eq_dist2K x y b X0 Y ex0 ey hX0 hY n m,
    show (fun n : Fin 2048 => D X1 Y n m) = fun n => dist2K x y b (ex1 n) (ey m) from
      funext fun n => D_eq_dist2K x y b X1 Y ex1 ey hX1 hY n m]
  exact inf_two_tiles (fun N : Fin 4096 => dist2K x y b N (ey m)) ex0 ex1 hx0 hx1

variable (c00 c01 c02 c03 c10 c11 c12 c13 : grid0.Coords) (s : St Ideal)

/-- Entry (0, 0, 0) of the output block after the batch of cloud b is the batch's Chamfer sum: the first cloud's side
    plus the second's, each the sum of the nearest-point distances scaled by 1/4096. -/
theorem batchRun_eq_kerBatch
    (hx0 : ∀ k, (ex0 k).val = k.val) (hx1 : ∀ k, (ex1 k).val = 2048 + k.val)
    (hy0 : ∀ k, (ey0 k).val = k.val) (hy1 : ∀ k, (ey1 k).val = 1024 + k.val)
    (hy2 : ∀ k, (ey2 k).val = 2048 + k.val) (hy3 : ∀ k, (ey3 k).val = 3072 + k.val)
    (hX0 : ∀ n d, X0 (ix3 (0 : Fin 1) n d) = x (ix3 b (ex0 n) d))
    (hX1 : ∀ n d, X1 (ix3 (0 : Fin 1) n d) = x (ix3 b (ex1 n) d))
    (hY0 : ∀ m d, Y0 (ix3 (0 : Fin 1) m d) = y (ix3 b (ey0 m) d))
    (hY1 : ∀ m d, Y1 (ix3 (0 : Fin 1) m d) = y (ix3 b (ey1 m) d))
    (hY2 : ∀ m d, Y2 (ix3 (0 : Fin 1) m d) = y (ix3 b (ey2 m) d))
    (hY3 : ∀ m d, Y3 (ix3 (0 : Fin 1) m d) = y (ix3 b (ey3 m) d))
    (h00 : (c00 2).val = 0) (h01 : (c01 2).val = 1) (h02 : (c02 2).val = 2) (h03 : (c03 2).val = 3)
    (h10 : (c10 2).val = 0) (h11 : (c11 2).val = 1) (h12 : (c12 2).val = 2) (h13 : (c13 2).val = 3) :
    (batchRun c00 c01 c02 c03 c10 c11 c12 c13 X0 X1 Y0 Y1 Y2 Y3 s).o (ix3 (0 : Fin 1) (0 : Fin 8) (0 : Fin 128))
      = kerBatch x y b := by
  rw [batchRun_o c00 c01 c02 c03 c10 c11 c12 c13 X0 X1 Y0 Y1 Y2 Y3 s h00 h01 h02 h03 h10 h11 h12 h13, regroup_six]
  have hP : ∀ (X : Vec Ideal S1x2048x128 .f32) (ex : Fin 2048 → Fin 4096)
      (hX : ∀ n d, X (ix3 (0 : Fin 1) n d) = x (ix3 b (ex n) d)),
      Prow X Y0 Y1 Y2 Y3
        = ∑ k : Fin 2048, (fun N : Fin 4096 => root (Finset.univ.inf fun M : Fin 4096 => dist2K x y b N M)) (ex k) :=
    fun X ex hX => Finset.sum_congr rfl fun n _ => congrArg root
      (row_min_eq x y b Y0 Y1 Y2 Y3 ey0 ey1 ey2 ey3 X ex hX hY0 hY1 hY2 hY3 hy0 hy1 hy2 hy3 n)
  have hQ : ∀ (Y : Vec Ideal S1x1024x128 .f32) (ey : Fin 1024 → Fin 4096)
      (hY : ∀ m d, Y (ix3 (0 : Fin 1) m d) = y (ix3 b (ey m) d)),
      Qcol X0 X1 Y
        = ∑ k : Fin 1024, (fun M : Fin 4096 => root (Finset.univ.inf fun N : Fin 4096 => dist2K x y b N M)) (ey k) :=
    fun Y ey hY => Finset.sum_congr rfl fun m _ => congrArg root
      (col_min_eq x y b X0 X1 ex0 ex1 Y ey hX0 hX1 hY hx0 hx1 m)
  rw [hP X0 ex0 hX0, hP X1 ex1 hX1, hQ Y0 ey0 hY0, hQ Y1 ey1 hY1, hQ Y2 ey2 hY2, hQ Y3 ey3 hY3,
    scaled_sum_two_tiles (fun N : Fin 4096 => root (Finset.univ.inf fun M : Fin 4096 => dist2K x y b N M))
      (fun N => root_nonneg _) _ ex0 ex1 hx0 hx1,
    scaled_sum_four_tiles (fun M : Fin 4096 => root (Finset.univ.inf fun N : Fin 4096 => dist2K x y b N M))
      (fun M => root_nonneg _) _ ey0 ey1 ey2 ey3 hy0 hy1 hy2 hy3]
  rfl

/-- The same with the tiles named as the two halves and the four quarters of 4096 points. -/
theorem batchRun_eq_kerBatch_tiles
    (hX0 : ∀ n d, X0 (ix3 (0 : Fin 1) n d) = x (ix3 b (tile2 0 n) d))
    (hX1 : ∀ n d, X1 (ix3 (0 : Fin 1) n d) = x (ix3 b (tile2 1 n) d))
    (hY0 : ∀ m d, Y0 (ix3 (0 : Fin 1) m d) = y (ix3 b (tile4 0 m) d))
    (hY1 : ∀ m d, Y1 (ix3 (0 : Fin 1) m d) = y (ix3 b (tile4 1 m) d))
    (hY2 : ∀ m d, Y2 (ix3 (0 : Fin 1) m d) = y (ix3 b (tile4 2 m) d))
    (hY3 : ∀ m d, Y3 (ix3 (0 : Fin 1) m d) = y (ix3 b (tile4 3 m) d))
    (h00 : (c00 2).val = 0) (h01 : (c01 2).val = 1) (h02 : (c02 2).val = 2) (h03 : (c03 2).val = 3)
    (h10 : (c10 2).val = 0) (h11 : (c11 2).val = 1) (h12 : (c12 2).val = 2) (h13 : (c13 2).val = 3) :
    (batchRun c00 c01 c02 c03 c10 c11 c12 c13 X0 X1 Y0 Y1 Y2 Y3 s).o (ix3 (0 : Fin 1) (0 : Fin 8) (0 : Fin 128))
      = kerBatch x y b :=
  batchRun_eq_kerBatch x y b X0 X1 Y0 Y1 Y2 Y3 (tile2 0) (tile2 1) (tile4 0) (tile4 1) (tile4 2) (tile4 3)
    c00 c01 c02 c03 c10 c11 c12 c13 s
    (fun k => by show 2048 * 0 + k.val = k.val; omega) (fun k => by show 2048 * 1 + k.val = 2048 + k.val; omega)
    (fun k => by show 1024 * 0 + k.val = k.val; omega) (fun k => by show 1024 * 1 + k.val = 1024 + k.val; omega)
    (fun k => by show 1024 * 2 + k.val = 2048 + k.val; omega) (fun k => by show 1024 * 3 + k.val = 3072 + k.val; omega)
    hX0 hX1 hY0 hY1 hY2 hY3 h00 h01 h02 h03 h10 h11 h12 h13

end

end Cert.Chamfer.Body

end
-- ==== Proof.BodyGrid.lean ====
/-
  A batch of eight grid points is one batch of the Chamfer distance.

  The 64 grid points are visited in the order t = 8·b + 4·i + j. What the kernel holds after the eight points of
  batch b is the batch function applied to what it held before them, on the two halves of cloud b of the first
  argument and the four quarters of cloud b of the second: the second sweep over the quarters is handed the same
  quarters as the first, because the second window's block does not depend on i. Hence entry (0, 0, 0) of the output
  block after batch b is the batch's Chamfer sum of the two argument arrays.
-/
import proofs.«155424_j67413806678291_2_alg».proof.Proof.KIState
import proofs.«155424_j67413806678291_2_alg».proof.Proof.InputBlocks
import proofs.«155424_j67413806678291_2_alg».proof.Proof.BodyKer

set_option synthInstance.maxSize 4096
set_option maxRecDepth 16384

noncomputable section

namespace Cert.Chamfer.Body

open Idealize.ShloMosaic Idealize.ShloMosaic.ValueIdx Idealize.ShloMosaic.TcCoe Idealize.SL.Sem
open Cert.KernelIdeal Cert.KernelIdeal.Gen Cert.KernelIdeal.Hand
open Cert.Chamfer

variable (m : (ℓ : Loc nD τ sig) → Buf (Elt Ideal) ℓ) (c : Dev nD)

/-- Point k of batch b is among the 64 points. -/
theorem pt_lt (b : Fin 8) (k : ℕ) (hk : k < 8) : 8 * b.val + k < cfg0.N := by
  have h : cfg0.N = 64 := N_0
  have := b.isLt
  omega

/-- Point k of batch b. -/
abbrev pt (b : Fin 8) (k : ℕ) (hk : k < 8) : Fin cfg0.N := ⟨8 * b.val + k, pt_lt b k hk⟩

/-- The first k points of batch b are among the 64 points. -/
theorem upto_le (b : Fin 8) (k : ℕ) (hk : k ≤ 8) : 8 * b.val + k ≤ cfg0.N := by
  have h : cfg0.N = 64 := N_0
  have := b.isLt
  omega

/-- The first window's block at a point of batch b, at row n and coordinate d. -/
theorem blk_first (t : Fin cfg0.N) (b : Fin 8) (hb : t.val / 8 = b.val) (n : Fin 2048) (d : Fin 128) (e : Fin 4096)
    (he : e.val = 2048 * ((t.val % 8) / 4) + n.val) :
    (iblk m c 0 t : Vec Ideal S1x2048x128 .f32) (ix3 (0 : Fin 1) n d)
      = m ((c : Thread nD τ).loc main_arg0) (ix3 b e d) := by
  refine (iblk_first_apply m c t n d).trans ?_
  exact congrArg₂ (fun B E => m ((c : Thread nD τ).loc main_arg0) (ix3 B E d)) (Fin.ext hb) (Fin.ext he.symm)

/-- The second window's block at a point of batch b, at row k and coordinate d. -/
theorem blk_second (t : Fin cfg0.N) (b : Fin 8) (hb : t.val / 8 = b.val) (k : Fin 1024) (d : Fin 128) (e : Fin 4096)
    (he : e.val = 1024 * (t.val % 4) + k.val) :
    (iblk m c 1 t : Vec Ideal S1x1024x128 .f32) (ix3 (0 : Fin 1) k d)
      = m ((c : Thread nD τ).loc main_arg1) (ix3 b e d) := by
  refine (iblk_second_apply m c t k d).trans ?_
  exact congrArg₂ (fun B E => m ((c : Thread nD τ).loc main_arg1) (ix3 B E d)) (Fin.ext hb) (Fin.ext he.symm)

/-- Two points with the same batch and the same tile of the second cloud are handed the same block of it. -/
theorem blk_second_congr (t t' : Fin cfg0.N) (h8 : t.val / 8 = t'.val / 8) (h4 : t.val % 4 = t'.val % 4) :
    (iblk m c 1 t : Vec Ideal S1x1024x128 .f32) = (iblk m c 1 t' : Vec Ideal S1x1024x128 .f32) := by
  refine funext fun (i : S1x1024x128.Idx) => ?_
  obtain ⟨u, k, d, rfl⟩ : ∃ (u : Fin 1) (k : Fin 1024) (d : Fin 128), i = ix3 u k d := ⟨i 0, i 1, i 2, eq_ix3 i⟩
  have hu : u = (0 : Fin 1) := Subsingleton.elim _ _
  subst hu
  refine (iblk_second_apply m c t k d).trans ((iblk_second_apply m c t' k d).trans ?_).symm
  exact congrArg₂ (fun B E => m ((c : Thread nD τ).loc main_arg1) (ix3 B E d)) (Fin.ext h8.symm)
    (Fin.ext (by show 1024 * (t'.val % 4) + k.val = 1024 * (t.val % 4) + k.val; rw [h4]))

/-- What the kernel holds after the eight points of batch b, from what it held before them. -/
theorem mdl_batch (b : Fin 8) :
    mdl m c (8 * b.val + 8) (upto_le b 8 (by omega))
      = batchRun (grid0.coords (pt b 0 (by omega))) (grid0.coords (pt b 1 (by omega))) (grid0.coords (pt b 2 (by omega)))
          (grid0.coords (pt b 3 (by omega))) (grid0.coords (pt b 4 (by omega))) (grid0.coords (pt b 5 (by omega)))
          (grid0.coords (pt b 6 (by omega))) (grid0.coords (pt b 7 (by omega)))
          (iblk m c 0 (pt b 0 (by omega))) (iblk m c 0 (pt b 4 (by omega)))
          (iblk m c 1 (pt b 0 (by omega))) (iblk m c 1 (pt b 1 (by omega))) (iblk m c 1 (pt b 2 (by omega)))
          (iblk m c 1 (pt b 3 (by omega)))
          (mdl m c (8 * b.val) (upto_le b 0 (by omega))) := by
  have e8 := mdl_G m c (pt b 7 (by omega)) (by show (8 * b.val + 7) % 8 = 7; omega)
  have e7 := mdl_E m c (pt b 6 (by omega)) (by show (8 * b.val + 6) % 8 = 5 ∨ (8 * b.val + 6) % 8 = 6; omega)
  have e6 := mdl_E m c (pt b 5 (by omega)) (by show (8 * b.val + 5) % 8 = 5 ∨ (8 * b.val + 5) % 8 = 6; omega)
  have e5 := mdl_D m c (pt b 4 (by omega)) (by show (8 * b.val + 4) % 8 = 4; omega)
  have e4 := mdl_C m c (pt b 3 (by omega)) (by show (8 * b.val + 3) % 8 = 3; omega)
  have e3 := mdl_B m c (pt b 2 (by omega)) (by show (8 * b.val + 2) % 8 = 1 ∨ (8 * b.val + 2) % 8 = 2; omega)
  have e2 := mdl_B m c (pt b 1 (by omega)) (by show (8 * b.val + 1) % 8 = 1 ∨ (8 * b.val + 1) % 8 = 2; omega)
  have e1 := mdl_A m c (pt b 0 (by omega)) (by show (8 * b.val + 0) % 8 = 0; omega)
  unfold batchRun
  refine e8.trans ?_
  rw [blk_second_congr m c (pt b 7 (by omega)) (pt b 3 (by omega))
      (by show (8 * b.val + 7) / 8 = (8 * b.val + 3) / 8; omega) (by show (8 * b.val + 7) % 4 = (8 * b.val + 3) % 4; omega)]
  refine congrArg (stepG _ _) (e7.trans ?_)
  rw [blk_second_congr m c (pt b 6 (by omega)) (pt b 2 (by omega))
      (by show (8 * b.val + 6) / 8 = (8 * b.val + 2) / 8; omega) (by show (8 * b.val + 6) % 4 = (8 * b.val + 2) % 4; omega)]
  refine congrArg (stepE _ _) (e6.trans ?_)
  rw [blk_second_congr m c (pt b 5 (by omega)) (pt b 1 (by omega))
      (by show (8 * b.val + 5) / 8 = (8 * b.val + 1) / 8; omega) (by show (8 * b.val + 5) % 4 = (8 * b.val + 1) % 4; omega)]
  refine congrArg (stepE _ _) (e5.trans ?_)
  rw [blk_second_congr m c (pt b 4 (by omega)) (pt b 0 (by omega))
      (by show (8 * b.val + 4) / 8 = (8 * b.val + 0) / 8; omega) (by show (8 * b.val + 4) % 4 = (8 * b.val + 0) % 4; omega)]
  refine congrArg (stepD _ _ _) (e4.trans ?_)
  refine congrArg (stepC _ _) (e3.trans ?_)
  refine congrArg (stepB _ _) (e2.trans ?_)
  exact congrArg (stepB _ _) e1

/-- Entry (0, 0, 0) of the output block after batch b is the batch's Chamfer sum of the two argument arrays. -/
theorem mdl_batch_o (b : Fin 8) :
    (mdl m c (8 * b.val + 8) (upto_le b 8 (by omega))).o (ix3 (0 : Fin 1) (0 : Fin 8) (0 : Fin 128))
      = kerBatch (m ((c : Thread nD τ).loc main_arg0)) (m ((c : Thread nD τ).loc main_arg1)) b := by
  rw [mdl_batch m c b]
  refine batchRun_eq_kerBatch_tiles (m ((c : Thread nD τ).loc main_arg0)) (m ((c : Thread nD τ).loc main_arg1)) b
    _ _ _ _ _ _ _ _ _ _ _ _ _ _ _ ?_ ?_ ?_ ?_ ?_ ?_ ?_ ?_ ?_ ?_ ?_ ?_ ?_ ?_
  · exact fun n d => blk_first m c (pt b 0 (by omega)) b (by show (8 * b.val + 0) / 8 = b.val; omega) n d (tile2 0 n)
      (by show 2048 * 0 + n.val = 2048 * ((8 * b.val + 0) % 8 / 4) + n.val; omega)
  · exact fun n d => blk_first m c (pt b 4 (by omega)) b (by show (8 * b.val + 4) / 8 = b.val; omega) n d (tile2 1 n)
      (by show 2048 * 1 + n.val = 2048 * ((8 * b.val + 4) % 8 / 4) + n.val; omega)
  · exact fun k d => blk_second m c (pt b 0 (by omega)) b (by show (8 * b.val + 0) / 8 = b.val; omega) k d (tile4 0 k)
      (by show 1024 * 0 + k.val = 1024 * ((8 * b.val + 0) % 4) + k.val; omega)
  · exact fun k d => blk_second m c (pt b 1 (by omega)) b (by show (8 * b.val + 1) / 8 = b.val; omega) k d (tile4 1 k)
      (by show 1024 * 1 + k.val = 1024 * ((8 * b.val + 1) % 4) + k.val; omega)
  · exact fun k d => blk_second m c (pt b 2 (by omega)) b (by show (8 * b.val + 2) / 8 = b.val; omega) k d (tile4 2 k)
      (by show 1024 * 2 + k.val = 1024 * ((8 * b.val + 2) % 4) + k.val; omega)
  · exact fun k d => blk_second m c (pt b 3 (by omega)) b (by show (8 * b.val + 3) / 8 = b.val; omega) k d (tile4 3 k)
      (by show 1024 * 3 + k.val = 1024 * ((8 * b.val + 3) % 4) + k.val; omega)
  · exact (coords_two (pt b 0 (by omega))).trans (by show (8 * b.val + 0) % 4 = 0; omega)
  · exact (coords_two (pt b 1 (by omega))).trans (by show (8 * b.val + 1) % 4 = 1; omega)
  · exact (coords_two (pt b 2 (by omega))).trans (by show (8 * b.val + 2) % 4 = 2; omega)
  · exact (coords_two (pt b 3 (by omega))).trans (by show (8 * b.val + 3) % 4 = 3; omega)
  · exact (coords_two (pt b 4 (by omega))).trans (by show (8 * b.val + 4) % 4 = 0; omega)
  · exact (coords_two (pt b 5 (by omega))).trans (by show (8 * b.val + 5) % 4 = 1; omega)
  · exact (coords_two (pt b 6 (by omega))).trans (by show (8 * b.val + 6) % 4 = 2; omega)
  · exact (coords_two (pt b 7 (by omega))).trans (by show (8 * b.val + 7) % 4 = 3; omega)

end Cert.Chamfer.Body

end
-- ==== Proof.BodyOutArr.lean ====
/-
  The result array after the region, read at the first entry of each batch's block.

  The result array holds one 8 × 128 block per batch. The block of batch b is written back once, after the last of the
  batch's eight grid points, and holds what the kernel's output block held then. No other point writes that block, so
  after all 64 points entry (b, 0, 0) of the array is entry (0, 0, 0) of the output block after batch b — the batch's
  Chamfer sum of the two argument arrays.
-/
import proofs.«155424_j67413806678291_2_alg».proof.Proof.KIFrame
import proofs.«155424_j67413806678291_2_alg».proof.Proof.BodyGrid

set_option synthInstance.maxSize 4096
set_option maxRecDepth 16384

noncomputable section

namespace Cert.Chamfer.Body

open Idealize.ShloMosaic Idealize.ShloMosaic.ValueIdx Idealize.ShloMosaic.TcCoe Idealize.SL.Sem
open Cert.KernelIdeal Cert.KernelIdeal.Gen Cert.KernelIdeal.Hand
open Idealize.ShloMosaic.Pipeline (Dat Cfg Window)
open Cert.Chamfer

variable (m : (ℓ : Loc nD τ sig) → Buf (Elt Ideal) ℓ) (c : Dev nD)

/-- The output window's block indices at every grid point: the batch, zero, zero. -/
theorem idx_facts_out : ∀ t : Fin cfg0.N, win0_2.index t (0 : Fin 3) = t.val / 8
    ∧ win0_2.index t (1 : Fin 3) = 0 ∧ win0_2.index t (2 : Fin 3) = 0 :=
  (by decide +kernel : ∀ t : Fin grid0.N, _)

/-- The output block after equally many points, at equal entries. -/
theorem mdl_o_congr (n n' : ℕ) (h : n ≤ cfg0.N) (h' : n' ≤ cfg0.N) (e : n = n') (j j' : S1x8x128.Idx) (ej : j = j') :
    (mdl m c n h).o j = (mdl m c n' h').o j' := by
  subst e; subst ej; rfl

/-- What the result array is to hold in the end: block b is the output block after the eight points of batch b. -/
def outArr : S8x8x128.Idx → EReal := fun i =>
  (mdl m c (8 * (i 0).val + 8) (upto_le (i 0) 8 (by omega))).o (ix3 (0 : Fin 1) (i 1) (i 2))

/-- Every write-back writes its block of that array: the write-backs happen after the last point of a batch. -/
theorem flushed_eq (t : Fin cfg0.N) (hf : (cfg0.win 2).flush t = true) :
    (dats m 0 c).flushed 2 t = ((cfg0.win 2).blk t).view.read (Elt Ideal) (outArr m c) := by
  have h7 : t.val % 8 = 7 := (flush0_2 t).mp hf
  obtain ⟨e0, e1, e2⟩ := idx_facts_out t
  show (cfg0.win 2).cut (grid0.coords t) ((dats m 0 c).after 2 t) = _
  rw [after2]
  funext x
  rw [View.read_apply]
  have hx0 : (x 0).val < 1 := (x 0).isLt
  refine mdl_o_congr m c _ _ _ _ ?_ _ _ ?_
  · show t.val + 1 = 8 * (win0_2.index t 0 * 1 + 1 * (x 0).val) + 8
    rw [e0]; omega
  · funext a
    apply Fin.ext
    match a with
    | ⟨0, _⟩ => show (x 0).val = 0; omega
    | ⟨1, _⟩ => show (x 1).val = win0_2.index t 1 * 8 + 1 * (x 1).val; rw [e1]; omega
    | ⟨2, _⟩ => show (x 2).val = win0_2.index t 2 * 128 + 1 * (x 2).val; rw [e2]; omega

/-- Entry (b, 0, 0) of the result array after the region is entry (0, 0, 0) of the output block after batch b. -/
theorem out_entry (b : Fin 8) :
    ((dats m 0 c).arrAt 2 cfg0.N : S8x8x128.Idx → EReal) (ix3 b (0 : Fin 8) (0 : Fin 128))
      = (mdl m c (8 * b.val + 8) (upto_le b 8 (by omega))).o (ix3 (0 : Fin 1) (0 : Fin 8) (0 : Fin 128)) := by
  obtain ⟨e0, e1, e2⟩ := idx_facts_out (pt b 7 (by omega))
  have hb : (8 * b.val + 7) / 8 = b.val := by omega
  refine ((dats m 0 c).arrAt_apply_of_mem 2 (outArr m c) (flushed_eq m c) cfg0.N (pt b 7 (by omega))
    (ix3 b (0 : Fin 8) (0 : Fin 128)) (pt b 7 (by omega)).isLt
    ((flush0_2 (pt b 7 (by omega))).mpr (by show (8 * b.val + 7) % 8 = 7; omega)) ?_).trans rfl
  show (_ : ((View.whole main_v0).slice (win0_2.rect (pt b 7 _))).ty.Idx)
    ∈ ((View.whole main_v0).slice (win0_2.rect (pt b 7 _))).set
  rw [View.set_slice_whole, Rect.mem_set_unit]
  intro a
  match a with
  | ⟨0, _⟩ =>
    show win0_2.index (pt b 7 (by omega)) 0 * 1 ≤ b.val ∧ b.val < win0_2.index (pt b 7 (by omega)) 0 * 1 + 1
    rw [e0]; show (8 * b.val + 7) / 8 * 1 ≤ b.val ∧ b.val < (8 * b.val + 7) / 8 * 1 + 1; omega
  | ⟨1, _⟩ =>
    show win0_2.index (pt b 7 (by omega)) 1 * 8 ≤ 0 ∧ 0 < win0_2.index (pt b 7 (by omega)) 1 * 8 + 8
    rw [e1]; omega
  | ⟨2, _⟩ =>
    show win0_2.index (pt b 7 (by omega)) 2 * 128 ≤ 0 ∧ 0 < win0_2.index (pt b 7 (by omega)) 2 * 128 + 128
    rw [e2]; omega

/-- Entry (b, 0, 0) of the result array after the region is the Chamfer sum of batch b of the two argument arrays. -/
theorem out_entry_kerBatch (b : Fin 8) :
    ((dats m 0 c).arrAt 2 cfg0.N : S8x8x128.Idx → EReal) (ix3 b (0 : Fin 8) (0 : Fin 128))
      = kerBatch (m ((c : Thread nD τ).loc main_arg0)) (m ((c : Thread nD τ).loc main_arg1)) b :=
  (out_entry m c b).trans (mdl_batch_o m c b)

end Cert.Chamfer.Body

end
-- ==== Proof.RefDist.lean ====
/-
  The reference program's table of pairwise distances, read at one entry.

  Entry (b, n, m) of the reference's squared-distance array is |x(b,n)|² + |y(b,m)|² − 2⟨x(b,n), y(b,m)⟩, the squared
  norms being sums of squares over the 128 coordinates and the inner product a sum of products; clamped at zero and
  rooted, it is the distance of the pair.
-/
import proofs.«155424_j67413806678291_2_alg».proof.Proof.Gen.ReferenceIdeal.Read
import proofs.«155424_j67413806678291_2_alg».proof.Proof.Spec
import proofs.«155424_j67413806678291_2_alg».proof.Proof.Literals

noncomputable section

namespace Cert.Chamfer

open Idealize.ShloMosaic Idealize.ShloMosaic.ValueIdx Cert.ReferenceIdeal Cert.ReferenceIdeal.Gen Cert.ReferenceIdeal.Read

/-- The array of the first argument's squared norms, spread along the second cloud's axis: entry (b, n, m) is |x(b,n)|². -/
theorem ref_sqx_apply (x : (⟨S8x4096x128, .f32⟩ : BufTy).Contents (Elt Ideal)) (b : Fin 8) (n m : Fin 4096) :
    val_main_v7 (F := Ideal) x (ix3 b n m) = sq x b n := by
  have he : ∀ k : Fin 128, idx_main_v1 (idx_main_v2 (idx_main_v7 (ix3 b n m))) k = ix3 b n k := fun k =>
    funext fun a => Fin.ext (by match a with | ⟨0, _⟩ => rfl | ⟨1, _⟩ => rfl | ⟨2, _⟩ => rfl)
  rw [val_main_v7_apply, val_main_v2_apply, val_main_v1_apply, val_main_cst_apply]
  simp only [val_main_v0_apply, Ideal.ofBits_def, Ideal.mulf_def, ofBits_zero, zero_add, he]
  rfl

/-- The array of the second argument's squared norms, spread along the first cloud's axis: entry (b, n, m) is |y(b,m)|². -/
theorem ref_sqy_apply (y : (⟨S8x4096x128, .f32⟩ : BufTy).Contents (Elt Ideal)) (b : Fin 8) (n m : Fin 4096) :
    val_main_v8 (F := Ideal) y (ix3 b n m) = sq y b m := by
  have he : ∀ k : Fin 128, idx_main_v4 (idx_main_v5 (idx_main_v8 (ix3 b n m))) k = ix3 b m k := fun k =>
    funext fun a => Fin.ext (by match a with | ⟨0, _⟩ => rfl | ⟨1, _⟩ => rfl | ⟨2, _⟩ => rfl)
  rw [val_main_v8_apply, val_main_v5_apply, val_main_v4_apply, val_main_cst_0_apply]
  simp only [val_main_v3_apply, Ideal.ofBits_def, Ideal.mulf_def, ofBits_zero, zero_add, he]
  rfl

/-- The batched product of the two arguments: entry (b, n, m) is the inner product of x(b,n) with y(b,m). -/
theorem ref_dot_apply (x y : (⟨S8x4096x128, .f32⟩ : BufTy).Contents (Elt Ideal)) (b : Fin 8) (n m : Fin 4096) :
    val_main_v6 (F := Ideal) x y (ix3 b n m) = dot x y b n m := by
  have hl : ∀ k : Fin 128, lidx_main_v6 (ix3 b n m) k = ix3 b n k := fun k =>
    funext fun a => Fin.ext (by match a with | ⟨0, _⟩ => rfl | ⟨1, _⟩ => rfl | ⟨2, _⟩ => rfl)
  have hr : ∀ k : Fin 128, ridx_main_v6 (ix3 b n m) k = ix3 b m k := fun k =>
    funext fun a => Fin.ext (by match a with | ⟨0, _⟩ => rfl | ⟨1, _⟩ => rfl | ⟨2, _⟩ => rfl)
  rw [val_main_v6_apply]
  simp only [hl, hr]
  rfl

/-- Entry (b, n, m) of the reference's squared-distance array. -/
theorem ref_dist2_apply (x y : (⟨S8x4096x128, .f32⟩ : BufTy).Contents (Elt Ideal)) (b : Fin 8) (n m : Fin 4096) :
    val_main_v12 (F := Ideal) x y (ix3 b n m) = dist2 x y b n m := by
  rw [val_main_v12_apply, val_main_v9_apply, val_main_v11_apply, val_main_v10_apply, val_main_cst_1_apply,
    ref_sqx_apply, ref_sqy_apply, ref_dot_apply]
  simp only [Ideal.ofBits_def, Ideal.mulf_def, Ideal.addf_def, Ideal.subf_def, ofBits_two]
  rfl

/-- Entry (b, n, m) of the reference's distance array: the squared distance clamped at zero, then rooted. -/
theorem ref_root_apply (x y : (⟨S8x4096x128, .f32⟩ : BufTy).Contents (Elt Ideal)) (b : Fin 8) (n m : Fin 4096) :
    val_main_v15 (F := Ideal) x y (ix3 b n m) = root (dist2 x y b n m) := by
  rw [val_main_v15_apply, val_main_v14_apply, val_main_v13_apply, val_main_cst_2_apply, ref_dist2_apply]
  simp only [Ideal.ofBits_def, Ideal.maximumf_def, Ideal.hostUnary_sqrt_def, ofBits_zero]
  rfl

end Cert.Chamfer

end
-- ==== Proof.RefMin.lean ====
/-
  The reference program's two nearest-point reductions, read at one entry.

  Reducing the distance array by the minimum from +∞ over the first cloud's axis leaves, at (b, m), the least distance
  from any point of the first cloud to point m of the second; over the second cloud's axis, at (b, n), the least
  distance from point n of the first cloud to any point of the second. A fold of `min` from the top element over all
  4096 coordinates of the reduced axis is the infimum over them.
-/
import proofs.«155424_j67413806678291_2_alg».proof.Proof.RefDist
import proofs.«155424_j67413806678291_2_alg».proof.Proof.LibMinReduce

noncomputable section

namespace Cert.Chamfer

open Idealize.ShloMosaic Idealize.ShloMosaic.ValueIdx Cert.ReferenceIdeal Cert.ReferenceIdeal.Gen Cert.ReferenceIdeal.Read

/-- The minimum over the first cloud's axis: at (b, m), the least distance to point m of the second cloud. -/
theorem ref_min_first_apply (x y : (⟨S8x4096x128, .f32⟩ : BufTy).Contents (Elt Ideal)) (b : Fin 8) (m : Fin 4096) :
    val_main_v16 (F := Ideal) x y (ix2 b m) = Finset.univ.inf fun n : Fin 4096 => root (dist2 x y b n m) := by
  have hR : S8x4096x4096.Reduces [1] S8x4096 := by decide
  unfold val_main_v16
  refine (Host.reduce_eq_fold_single (FloatOps.minimumf (F := Ideal) (φ := .f32)) _ _
    reducesTo_S8x4096x4096_S8x4096_d1 hR h_S_ (ix2 b m)).trans ?_
  have h0 : (Finset.univ : Finset (Fin 4096)).fold (FloatOps.minimumf (F := Ideal) (φ := .f32))
        (val_main_cst_3 (F := Ideal) (Shape.Idx.first h_S_)) (val_main_v15 (F := Ideal) x y ∘ hR.lift (ix2 b m))
      = (Finset.univ : Finset (Fin 4096)).fold min (⊤ : EReal) (fun n => val_main_v15 (F := Ideal) x y (hR.lift (ix2 b m) n)) := by
    rw [val_main_cst_3_apply, Ideal.ofBits_def, ofBits_top]; rfl
  refine h0.trans ((Cert.LibMinReduce.fold_min_top _ _).trans ?_)
  refine Finset.inf_congr rfl fun (n : Fin 4096) _ => ?_
  have e : hR.lift (ix2 b m) n = ix3 b n m :=
    funext fun a => Fin.ext (by match a with | ⟨0, _⟩ => rfl | ⟨1, _⟩ => rfl | ⟨2, _⟩ => rfl)
  rw [e, ref_root_apply]

/-- The minimum over the second cloud's axis: at (b, n), the least distance from point n of the first cloud. -/
theorem ref_min_second_apply (x y : (⟨S8x4096x128, .f32⟩ : BufTy).Contents (Elt Ideal)) (b : Fin 8) (n : Fin 4096) :
    val_main_v20 (F := Ideal) x y (ix2 b n) = Finset.univ.inf fun m : Fin 4096 => root (dist2 x y b n m) := by
  have hR : S8x4096x4096.Reduces [2] S8x4096 := by decide
  unfold val_main_v20
  refine (Host.reduce_eq_fold_single (FloatOps.minimumf (F := Ideal) (φ := .f32)) _ _
    reducesTo_S8x4096x4096_S8x4096_d2 hR h_S_ (ix2 b n)).trans ?_
  have h0 : (Finset.univ : Finset (Fin 4096)).fold (FloatOps.minimumf (F := Ideal) (φ := .f32))
        (val_main_cst_6 (F := Ideal) (Shape.Idx.first h_S_)) (val_main_v15 (F := Ideal) x y ∘ hR.lift (ix2 b n))
      = (Finset.univ : Finset (Fin 4096)).fold min (⊤ : EReal) (fun m => val_main_v15 (F := Ideal) x y (hR.lift (ix2 b n) m)) := by
    rw [val_main_cst_6_apply, Ideal.ofBits_def, ofBits_top]; rfl
  refine h0.trans ((Cert.LibMinReduce.fold_min_top _ _).trans ?_)
  refine Finset.inf_congr rfl fun (m : Fin 4096) _ => ?_
  have e : hR.lift (ix2 b n) m = ix3 b n m :=
    funext fun a => Fin.ext (by match a with | ⟨0, _⟩ => rfl | ⟨1, _⟩ => rfl | ⟨2, _⟩ => rfl)
  rw [e, ref_root_apply]

end Cert.Chamfer

end
-- ==== Proof.RefValue.lean ====
/-
  The reference program's result is the Chamfer distance in its first spelling.

  Summing the nearest-point distances of a batch over the 4096 points of a side and dividing by 4096 gives the side's
  average; the two averages are added, the eight batch values summed from zero and the sum divided by 8.
-/
import proofs.«155424_j67413806678291_2_alg».proof.Proof.RefMin

noncomputable section

namespace Cert.Chamfer

open Idealize.ShloMosaic Idealize.ShloMosaic.ValueIdx Cert.ReferenceIdeal Cert.ReferenceIdeal.Gen Cert.ReferenceIdeal.Read

/-- A sum over the indices of a vector of eight entries is the sum over its eight coordinates. -/
theorem sum_idx1_8 (g : S8.Idx → EReal) : ∑ j : S8.Idx, g j = ∑ b : Fin 8, g (ix1 b) := by
  refine Fintype.sum_equiv ⟨fun j => j 0, fun b => ix1 b, fun j => (eq_ix1 j).symm, fun b => rfl⟩ _ _ fun j => ?_
  exact congrArg g (eq_ix1 j)

/-- The second cloud's side of batch b: the average over its points m of the least distance to the first cloud. -/
theorem ref_avg_first_apply (x y : (⟨S8x4096x128, .f32⟩ : BufTy).Contents (Elt Ideal)) (b : Fin 8) :
    val_main_v19 (F := Ideal) x y (ix1 b)
      = Ideal.div (∑ m : Fin 4096, Finset.univ.inf fun n : Fin 4096 => root (dist2 x y b n m)) ((4096 : ℝ) : EReal) := by
  have he : ∀ k : Fin 4096, idx_main_v17 (ix1 b) k = ix2 b k := fun k =>
    funext fun a => Fin.ext (by match a with | ⟨0, _⟩ => rfl | ⟨1, _⟩ => rfl)
  rw [val_main_v19_apply, val_main_v17_apply, val_main_cst_4_apply, val_main_v18_apply, val_main_cst_5_apply]
  simp only [Ideal.ofBits_def, Ideal.hostDivf_def, ofBits_zero, ofBits_4096, zero_add, he, ref_min_first_apply]

/-- The first cloud's side of batch b: the average over its points n of the least distance to the second cloud. -/
theorem ref_avg_second_apply (x y : (⟨S8x4096x128, .f32⟩ : BufTy).Contents (Elt Ideal)) (b : Fin 8) :
    val_main_v23 (F := Ideal) x y (ix1 b)
      = Ideal.div (∑ n : Fin 4096, Finset.univ.inf fun m : Fin 4096 => root (dist2 x y b n m)) ((4096 : ℝ) : EReal) := by
  have he : ∀ k : Fin 4096, idx_main_v21 (ix1 b) k = ix2 b k := fun k =>
    funext fun a => Fin.ext (by match a with | ⟨0, _⟩ => rfl | ⟨1, _⟩ => rfl)
  rw [val_main_v23_apply, val_main_v21_apply, val_main_cst_7_apply, val_main_v22_apply, val_main_cst_8_apply]
  simp only [Ideal.ofBits_def, Ideal.hostDivf_def, ofBits_zero, ofBits_4096, zero_add, he, ref_min_second_apply]

/-- Batch b's value: the two sides' averages added. -/
theorem ref_batch_apply (x y : (⟨S8x4096x128, .f32⟩ : BufTy).Contents (Elt Ideal)) (b : Fin 8) :
    val_main_v24 (F := Ideal) x y (ix1 b)
      = Ideal.div (∑ m : Fin 4096, Finset.univ.inf fun n : Fin 4096 => root (dist2 x y b n m)) ((4096 : ℝ) : EReal)
        + Ideal.div (∑ n : Fin 4096, Finset.univ.inf fun m : Fin 4096 => root (dist2 x y b n m)) ((4096 : ℝ) : EReal) := by
  rw [val_main_v24_apply, ref_avg_first_apply, ref_avg_second_apply, Ideal.addf_def]

/-- The reference program computes the Chamfer distance in its first spelling. -/
theorem reference_eq (x y : (⟨S8x4096x128, .f32⟩ : BufTy).Contents (Elt Ideal)) :
    val_main_v26 (F := Ideal) x y = fun _ => refValue x y := by
  funext i
  rw [val_main_v26_apply, val_main_v25_apply, val_main_cst_9_apply, val_main_cst_10_apply, sum_idx1_8]
  simp only [Ideal.ofBits_def, Ideal.hostDivf_def, ofBits_zero, ofBits_eight, zero_add, ref_batch_apply]
  rfl

end Cert.Chamfer

end
-- ==== Proof.Finite.lean ====
/-
  Finiteness of the inputs, from the precondition.

  The precondition is the conjunction, over both argument arrays, of "every entry's absolute value is below +∞". A
  conjunction over all entries that holds gives the comparison at each entry; and an extended real whose absolute
  value is below the top element is neither infinity (both have absolute value the top element), so it is a real.
-/
import proofs.«155424_j67413806678291_2_alg».proof.Pre_finite_inputs
import proofs.«155424_j67413806678291_2_alg».proof.Proof.Literals
import Idealize.ShloMosaic.Lib.ReduceAll
import Idealize.ShloMosaic.Lib.Pipeline.Value
import Idealize.ShloMosaic.Lib.ValueIdx

noncomputable section

namespace Cert.Chamfer

open Idealize.ShloMosaic Idealize.ShloMosaic.ValueIdx Cert.Pre_finite_inputs

/-- An extended real whose absolute value compares below the top element is a real number. -/
theorem real_of_abs_lt_top (v : EReal) (h : Ideal.cmp .olt (max v (-v)) (⊤ : EReal) = 1#1) : ∃ r : ℝ, v = (r : EReal) := by
  have h' : BitVec.ofBool (decide (max v (-v) < (⊤ : EReal))) = 1#1 := h
  have hlt : max v (-v) < (⊤ : EReal) := by
    by_cases hlt : max v (-v) < (⊤ : EReal)
    · exact hlt
    · rw [decide_eq_false hlt] at h'; exact absurd h' (by decide)
  induction v using EReal.rec with
  | bot => exact absurd hlt (by simp)
  | top => exact absurd hlt (by simp)
  | coe r => exact ⟨r, rfl⟩

/-- If the conjunction over all entries of "|x| is below c", with c the top element everywhere, holds, every entry of
    x is a real number. -/
theorem all_real_of_reduce (x : (⟨S8x4096x128, .f32⟩ : BufTy).Contents (Elt Ideal)) (c : FVec Ideal S8x4096x128 .f32)
    (hc : ∀ i, c i = (⊤ : EReal)) {axes : List (Fin S8x4096x128.rank)} (hred : S8x4096x128.ReducesTo axes S_)
    (hu : 0 < S_.numel) (init : IVec S_ 1)
    (h : Host.reduce IntOp.andi (cmpf (F := Ideal) .olt (Host.absf (F := Ideal) x) c) init hred hu ix0 = 1#1) :
    ∀ i, ∃ r : ℝ, x i = (r : EReal) := by
  intro i
  haveI : Subsingleton S_.Idx := ⟨fun a b => funext fun d => d.elim0⟩
  have hi : cmpf (F := Ideal) .olt (Host.absf (F := Ideal) x) c i = 1#1 := Host.reduce_andi_all _ init hred hu ix0 h i
  have hi' : Ideal.cmp .olt (max (x i) (-(x i))) (c i) = 1#1 := hi
  rw [hc i] at hi'
  exact real_of_abs_lt_top (x i) hi'

/-- Under the precondition every entry of both argument arrays is a real number. -/
theorem finite_of_pre [Cert.Pre_finite_inputs.Facts] (x y : (⟨S8x4096x128, .f32⟩ : BufTy).Contents (Elt Ideal))
    (h : Cert.Pre_finite_inputs.fn (F := Ideal) x y = fun _ => 1#1) :
    (∀ i, ∃ r : ℝ, x i = (r : EReal)) ∧ (∀ i, ∃ r : ℝ, y i = (r : EReal)) := by
  have hc : ∀ i : S8x4096x128.Idx,
      broadcastInDim S8x4096x128 ![] Facts.bcast_S_S8x4096x128 (constant (F := Ideal) S_ .f32 0x7F800000#32) i = (⊤ : EReal) :=
    fun i => (broadcastInDim_apply _ Facts.bcast_S_S8x4096x128 (constant (F := Ideal) S_ .f32 0x7F800000#32) i ix0
      (fun a => a.elim0)).trans ((constant_apply _ _).trans ofBits_top)
  have h0 := congrFun h ix0
  dsimp only [Cert.Pre_finite_inputs.fn] at h0
  obtain ⟨hx, hy⟩ := IntOp.andi_eq_one.1 (show IntOp.andi _ _ = 1#1 from h0)
  exact ⟨all_real_of_reduce x _ hc _ _ _ hx, all_real_of_reduce y _ hc _ _ _ hy⟩

end Cert.Chamfer

end
-- ==== Proof.lean ====
/-
  The kernel computes the Chamfer distance between two batches of point clouds tile by tile; the reference computes
  it from the full matrices of pairwise distances. This file assembles the five claims.

  The three frames. Each kernel program's one region of 8 × 2 × 4 points runs to the end holding an invariant on the
  four buffers the kernel keeps between points (the running row minima of a tile, the running column minima of the
  whole second cloud, the narrowed tile and its norms), and the six host lines after it read only the result array:
  the argument arrays are never written. The word-level program and its idealization have the same text, so the one
  proof, written for any interpretation of the floating-point operations, serves both. The reference is a straight
  line of host operations.

  The idealization rewrote nothing, so that it preserves the word-level program is immediate.

  The values. At the extended reals, the kernel's result array holds at entry (b, 0, 0), after the eight points of
  batch b, the sum over the first cloud's points of the root of the clamped nearest SQUARED distance, times 1/4096,
  plus the same over the second cloud's points: the running minima over the tiles are the minima over all 4096 points,
  and the tiles' shares add up to the whole sums (the shares are never negative, so the product with 1/4096 may be
  taken of the whole sum). The host lines average the eight entries. The reference clamps and takes the root of
  every pairwise squared distance first and the minima after, divides by 4096 where the kernel multiplies by 1/4096,
  and expands the squared distance with the factor 2 outside the inner product where the kernel has −2 inside it.
  Clamping and the root are monotone, so they commute with a minimum over a nonempty finite set; 1/4096 is a power
  of two, so the product is the quotient on every extended real; and for FINITE inputs — this is where the
  precondition is used — the two expansions of the squared distance are the same real number.
-/
import proofs.«155424_j67413806678291_2_alg».proof.Defs
import proofs.«155424_j67413806678291_2_alg».proof.Proof.Gen.Kernel
import proofs.«155424_j67413806678291_2_alg».proof.Proof.Gen.KernelIdeal
import proofs.«155424_j67413806678291_2_alg».proof.Proof.Gen.ReferenceIdeal
import proofs.«155424_j67413806678291_2_alg».proof.Proof.Gen.ReferenceIdeal.Run
import proofs.«155424_j67413806678291_2_alg».proof.Proof.Gen.ReferenceIdeal.Read
import proofs.«155424_j67413806678291_2_alg».proof.Proof.Gen.Pre_finite_inputs
import proofs.«155424_j67413806678291_2_alg».proof.Proof.KBFrame
import proofs.«155424_j67413806678291_2_alg».proof.Proof.KIFrame
import proofs.«155424_j67413806678291_2_alg».proof.Proof.KIValue
import proofs.«155424_j67413806678291_2_alg».proof.Proof.BodyOutArr
import proofs.«155424_j67413806678291_2_alg».proof.Proof.RefValue
import proofs.«155424_j67413806678291_2_alg».proof.Proof.Algebra
import proofs.«155424_j67413806678291_2_alg».proof.Proof.Finite
import Idealize.ShloMosaic.Adequacy
import Idealize.ShloMosaic.Init

noncomputable section

namespace Cert.Proof

open Idealize.ShloMosaic Idealize.SL.Sem

/-- The word-level kernel program runs to the end and leaves its two argument arrays as they were. -/
theorem frame_kernel : Cert.frame_Kernel := fun m ρ _ => Cert.Kernel.Hand.frame (F := Bits) m ρ

/-- So does its idealization. -/
theorem frame_kernelIdeal : Cert.frame_KernelIdeal := fun m ρ _ => Cert.KernelIdeal.Hand.frame (F := Ideal) m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two clouds, both of finite numbers, the kernel's run ends at the batches' mean
    in the kernel's spelling and the reference's at the same number in its own. -/
theorem algebraic : Cert.algebraic_KernelIdeal_ReferenceIdeal := by
  intro m ρ m' ρ' hpre hagree
  refine ⟨fun c => fun _ => Cert.Chamfer.kerValue
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_value m ρ (fun c b => Cert.Chamfer.Body.out_entry_kerBatch m c b), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v26_eq, Cert.Chamfer.reference_eq, (hagree c).1, (hagree c).2]
  obtain ⟨hx, hy⟩ := Cert.Chamfer.finite_of_pre _ _ (hpre c)
  exact funext fun _ => (Cert.Chamfer.ker_eq_ref _ _ hx hy).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
